-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S16384x2048 : Shape := ⟨2, ![16384, 2048]⟩
abbrev S2048 : Shape := ⟨1, ![2048]⟩
abbrev S2048x8192 : Shape := ⟨2, ![2048, 8192]⟩
abbrev S8192 : Shape := ⟨1, ![8192]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S2048 : S_.BroadcastsInDim S2048 (![] : Fin 0 → Fin S2048.rank)
  reducesTo_S2048_S_d0 : S2048.ReducesTo [0] S_
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S2x2048x2048 .f32) (main_arg1 : FVec F S16384x2048 .f32) (main_arg2 : FVec F S2048 .f32) (main_arg3 : FVec F S2048x8192 .f32) (main_arg4 : FVec F S8192 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_v13 main_v16
-- ==== Kernel.lean ====
abbrev S2x2048x2048 : Shape := ⟨3, ![2, 2048, 2048]⟩
abbrev S16384x2048 : Shape := ⟨2, ![16384, 2048]⟩
abbrev S2048 : Shape := ⟨1, ![2048]⟩
abbrev S2048x8192 : Shape := ⟨2, ![2048, 8192]⟩
abbrev S8192 : Shape := ⟨1, ![8192]⟩
abbrev S4096x2048 : Shape := ⟨2, ![4096, 2048]⟩
abbrev S1x2048 : Shape := ⟨2, ![1, 2048]⟩
abbrev S1x8192 : Shape := ⟨2, ![1, 8192]⟩
abbrev S_ : Shape := ⟨0, ![]⟩
abbrev S8192x2048 : Shape := ⟨2, ![8192, 2048]⟩
abbrev S256x2048 : Shape := ⟨2, ![256, 2048]⟩
abbrev S256 : Shape := ⟨1, ![256]⟩
abbrev S256x1 : Shape := ⟨2, ![256, 1]⟩
abbrev S4096x8192 : Shape := ⟨2, ![4096, 8192]⟩
abbrev S1024x2048 : Shape := ⟨2, ![1024, 2048]⟩
abbrev S256x1024 : Shape := ⟨2, ![256, 1024]⟩
abbrev S2048x1024 : Shape := ⟨2, ![2048, 1024]⟩
abbrev S128x8192 : Shape := ⟨2, ![128, 8192]⟩
abbrev S128 : Shape := ⟨1, ![128]⟩
abbrev S128x1 : Shape := ⟨2, ![128, 1]⟩
abbrev S512x8192 : Shape := ⟨2, ![512, 8192]⟩
abbrev S128x512 : Shape := ⟨2, ![128, 512]⟩
abbrev S8192x512 : Shape := ⟨2, ![8192, 512]⟩

abbrev nBuf : Space → Nat
  | .hbm => 64
  | .vmem => 24
  | .smem => 0
  | _ => 0

abbrev bufTy : (tb : Table) → Fin (tcTables nBuf tb) → BufTy
  | .hbm, ⟨0, _⟩ => ⟨S2x2048x2048, .f32⟩
  | .hbm, ⟨1, _⟩ => ⟨S16384x2048, .f32⟩
  | .hbm, ⟨2, _⟩ => ⟨S2048, .f32⟩
  | .hbm, ⟨3, _⟩ => ⟨S2048x8192, .f32⟩
  | .hbm, ⟨4, _⟩ => ⟨S8192, .f32⟩
  | .hbm, ⟨5, _⟩ => ⟨S4096x2048, .f32⟩
  | .hbm, ⟨6, _⟩ => ⟨S1x2048, .f32⟩
  | .hbm, ⟨7, _⟩ => ⟨S1x8192, .f32⟩
  | .hbm, ⟨8, _⟩ => ⟨S16384x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S8192x2048, .f32⟩
  | .hbm, ⟨32, _⟩ => ⟨S8192x2048, .bf16⟩
  | .hbm, ⟨33, _⟩ => ⟨S8192x2048, .f32⟩
  | .hbm, ⟨34, _⟩ => ⟨S8192x2048, .bf16⟩
  | .hbm, ⟨35, _⟩ => ⟨S2048x8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048x8192, .f32⟩
  | .hbm, ⟨46, _⟩ => ⟨S2048x8192, .f32⟩
  | .hbm, ⟨47, _⟩ => ⟨S2048x8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S2048x8192, .f32⟩
  | .hbm, ⟨52, _⟩ => ⟨S2048x8192, .f32⟩
  | .hbm, ⟨53, _⟩ => ⟨S_, .f32⟩
  | .hbm, ⟨54, _⟩ => ⟨S2048x8192, .f32⟩
  | .hbm, ⟨55, _⟩ => ⟨S2048x8192, .f32⟩
  | .hbm, ⟨56, _⟩ => ⟨S2048x8192, .f32⟩
  | .hbm, ⟨57, _⟩ => ⟨S2048x8192, .f32⟩
  | .hbm, ⟨58, _⟩ => ⟨S2048x8192, .bf16⟩
  | .hbm, ⟨59, _⟩ => ⟨S4096x2048, .bf16⟩
  | .hbm, ⟨60, _⟩ => ⟨S4096x8192, .f32⟩
  | .hbm, ⟨61, _⟩ => ⟨S4096x8192, .bf16⟩
  | .hbm, ⟨62, _⟩ => ⟨S4096x2048, .f32⟩
  | .hbm, ⟨63, _⟩ => ⟨S2x2048x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S256x1024, .f32⟩
  | .local _ .vmem, ⟨12, _⟩ => ⟨S256x1024, .f32⟩
  | .local _ .vmem, ⟨13, _⟩ => ⟨S128x8192, .f32⟩
  | .local _ .vmem, ⟨14, _⟩ => ⟨S128x8192, .f32⟩
  | .local _ .vmem, ⟨15, _⟩ => ⟨S1x8192, .f32⟩
  | .local _ .vmem, ⟨16, _⟩ => ⟨S128x8192, .bf16⟩
  | .local _ .vmem, ⟨17, _⟩ => ⟨S128x8192, .bf16⟩
  | .local _ .vmem, ⟨18, _⟩ => ⟨S128x8192, .bf16⟩
  | .local _ .vmem, ⟨19, _⟩ => ⟨S128x8192, .bf16⟩
  | .local _ .vmem, ⟨20, _⟩ => ⟨S512x8192, .bf16⟩
  | .local _ .vmem, ⟨21, _⟩ => ⟨S512x8192, .bf16⟩
  | .local _ .vmem, ⟨22, _⟩ => ⟨S128x512, .f32⟩
  | .local _ .vmem, ⟨23, _⟩ => ⟨S128x512, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_call0_v0 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_cst_4 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_cst_6 : Ref sig .tc := ⟨.hbm, 38, rfl⟩
abbrev main_v20 : Ref sig .tc := ⟨.hbm, 39, rfl⟩
abbrev main_cst_7 : Ref sig .tc := ⟨.hbm, 40, rfl⟩
abbrev main_call3_v0 : Ref sig .tc := ⟨.hbm, 41, rfl⟩
abbrev main_v21 : Ref sig .tc := ⟨.hbm, 42, rfl⟩
abbrev main_cst_8 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_cst_10 : Ref sig .tc := ⟨.hbm, 49, rfl⟩
abbrev main_call5_v0 : Ref sig .tc := ⟨.hbm, 50, rfl⟩
abbrev main_call5_v1 : Ref sig .tc := ⟨.hbm, 51, rfl⟩
abbrev main_call5_v2 : Ref sig .tc := ⟨.hbm, 52, rfl⟩
abbrev main_call5_v3 : Ref sig .tc := ⟨.hbm, 53, rfl⟩
abbrev main_call5_v4 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x8192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S128x8192 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![4, 32], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S128x8192 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S512x8192 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S128x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  shapeCasts_S2x2048x2048_S4096x2048 : S2x2048x2048.ShapeCasts S4096x2048
  shapeCasts_S2048_S1x2048 : S2048.ShapeCasts S1x2048
  shapeCasts_S8192_S1x8192 : S8192.ShapeCasts S1x8192
  reducesTo_S16384x2048_S_d0_1 : S16384x2048.ReducesTo [0, 1] S_
  h_S_ : 0 < S_.numel
  bcast_S_S16384x2048 : S_.BroadcastsInDim S16384x2048 (![] : Fin 0 → Fin S16384x2048.rank)
  slices_S16384x2048_S8192x2048_0_0 : S16384x2048.Slices ![0, 0] S8192x2048
  bitsLt_bf16_f32 : FTy.bits .bf16 < FTy.bits .f32
  slices_S16384x2048_S8192x2048_8192_0 : S16384x2048.Slices ![8192, 0] S8192x2048
  reducesTo_S2048x8192_S_d0_1 : S2048x8192.ReducesTo [0, 1] S_
  bcast_S_S2048x8192 : S_.BroadcastsInDim S2048x8192 (![] : Fin 0 → Fin S2048x8192.rank)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S256x2048_S256 : S256x2048.Reduces [1] S256
  shapeCasts_S256_S256x1 : S256.ShapeCasts S256x1
  broadcasts_S256x1_S256x2048 : S256x1.Broadcasts S256x2048
  broadcasts_S1x2048_S256x2048 : S1x2048.Broadcasts S256x2048
  packedbf16_S256x2048_S256x2048_0_0 : (Rect.unit (s := S256x2048) ![0, 0] S256x2048.size inb_S256x2048_S256x2048_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  transposes_S1024x2048_p1_0_S2048x1024 : S1024x2048.Transposes [1, 0] S2048x1024
  inb_S256x1024_S256x1024_0_0 : ∀ a, (![0, 0] : Fin 2 → Nat) a + S256x1024.size a ≤ S256x1024.size a
  h_S256x1024 : 0 < S256x1024.numel
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  reduces_S128x8192_S128 : S128x8192.Reduces [1] S128
  shapeCasts_S128_S128x1 : S128.ShapeCasts S128x1
  broadcasts_S128x1_S128x8192 : S128x1.Broadcasts S128x8192
  broadcasts_S1x8192_S128x8192 : S1x8192.Broadcasts S128x8192
  packedbf16_S128x8192_S128x8192_0_0 : (Rect.unit (s := S128x8192) ![0, 0] S128x8192.size inb_S128x8192_S128x8192_0_0).PackedRows (EltTy.packing .bf16)
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  transposes_S512x8192_p1_0_S8192x512 : S512x8192.Transposes [1, 0] S8192x512
  inb_S128x512_S128x512_0_0 : ∀ a, (![0, 0] : Fin 2 → Nat) a + S128x512.size a ≤ S128x512.size a
  h_S128x512 : 0 < S128x512.numel
  shapeCasts_S4096x2048_S2x2048x2048 : S4096x2048.ShapeCasts S2x2048x2048
  dot_S256x2048_S2048x1024_S256x1024_1_0_0_1_n_n_wf : DotDims.WF S256x2048 S2048x1024 S256x1024 [1] [0] [0] [1] [] []
  dot_S128x8192_S8192x512_S128x512_1_0_0_1_n_n_wf : DotDims.WF S128x8192 S8192x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x2048.size a
  hwx0_2 : ∀ i : grid0.Coords, EltTy.bits .bf16 = 32 ∨ (Rect.block (s := S4096x2048) S256x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S4096x2048.size a
  hwx1_0 : ∀ i : grid1.Coords, EltTy.bits .bf16 = 32 ∨ (Rect.block (s := S4096x2048) S256x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S8192x2048.size a
  hwx1_1 : ∀ i : grid1.Coords, EltTy.bits .bf16 = 32 ∨ (Rect.block (s := S8192x2048) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S8192x2048.size a
  hwx1_2 : ∀ i : grid1.Coords, EltTy.bits .bf16 = 32 ∨ (Rect.block (s := S8192x2048) S1024x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S4096x8192.size a
  hwx1_3 : ∀ i : grid1.Coords, EltTy.bits .f32 = 32 ∨ (Rect.block (s := S4096x8192) S256x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x8192.size a ≤ S4096x8192.size a
  hwx2_0 : ∀ i : grid2.Coords, EltTy.bits .f32 = 32 ∨ (Rect.block (s := S4096x8192) S128x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x8192.size a ≤ S1x8192.size a
  hwx2_1 : ∀ i : grid2.Coords, EltTy.bits .f32 = 32 ∨ (Rect.block (s := S1x8192) S1x8192.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x8192.size a ≤ S4096x8192.size a
  hwx2_2 : ∀ i : grid2.Coords, EltTy.bits .bf16 = 32 ∨ (Rect.block (s := S4096x8192) S128x8192.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x8192.size a ≤ S4096x8192.size a
  hwx3_0 : ∀ i : grid3.Coords, EltTy.bits .bf16 = 32 ∨ (Rect.block (s := S4096x8192) S128x8192.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x8192.size a ≤ S2048x8192.size a
  hwx3_1 : ∀ i : grid3.Coords, EltTy.bits .bf16 = 32 ∨ (Rect.block (s := S2048x8192) S512x8192.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S128x512.size a ≤ S4096x2048.size a
  hwx3_2 : ∀ i : grid3.Coords, EltTy.bits .f32 = 32 ∨ (Rect.block (s := S4096x2048) S128x512.size (cc3_transform_2 i) (hinb3_2 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S128x8192_S8192x512_S128x512_1_0_0_1_n_n : DotDims S128x8192 S8192x512 S128x512 where
  lhsContracting := [1]
  rhsContracting := [0]
  lhsNonContracting := [0]
  rhsNonContracting := [1]
  lhsBatch := []
  rhsBatch := []
  wf := dot_S128x8192_S8192x512_S128x512_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1024x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S128x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1x8192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S128x8192.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v32) S128x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S512x8192.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v33) S128x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S2x2048x2048 : Shape := ⟨3, ![2, 2048, 2048]⟩
abbrev S16384x2048 : Shape := ⟨2, ![16384, 2048]⟩
abbrev S2048 : Shape := ⟨1, ![2048]⟩
abbrev S2048x8192 : Shape := ⟨2, ![2048, 8192]⟩
abbrev S8192 : Shape := ⟨1, ![8192]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩
abbrev S2x2048x16384 : Shape := ⟨3, ![2, 2048, 16384]⟩
abbrev S2x2048x8192 : Shape := ⟨3, ![2, 2048, 8192]⟩
abbrev S1x1x8192 : Shape := ⟨3, ![1, 1, 8192]⟩

abbrev nBuf : Space → Nat
  | .hbm => 153
  | .vmem => 0
  | .smem => 0
  | _ => 0

abbrev hbmTy0_0 (i : Nat) : BufTy := match i % 128 with
  | 0 => ⟨S2x2048x2048, .f32⟩
  | 1 => ⟨S16384x2048, .f32⟩
  | 2 => ⟨S2048, .f32⟩
  | 3 => ⟨S2048x8192, .f32⟩
  | 4 => ⟨S8192, .f32⟩
  | 5 => ⟨S2x2048x2048, .f32⟩
  | 6 => ⟨S_, .f32⟩
  | 7 => ⟨S2x2048, .f32⟩
  | 8 => ⟨S2x2048x1, .f32⟩
  | 9 => ⟨S_, .f32⟩
  | 10 => ⟨S2x2048x1, .f32⟩
  | 11 => ⟨S2x2048x1, .f32⟩
  | 12 => ⟨S_, .f32⟩
  | 13 => ⟨S2x2048x1, .f32⟩
  | 14 => ⟨S2x2048x1, .f32⟩
  | 15 => ⟨S2x2048x1, .f32⟩
  | 16 => ⟨S2x2048x2048, .f32⟩
  | 17 => ⟨S2x2048x2048, .f32⟩
  | 18 => ⟨S1x1x2048, .f32⟩
  | 19 => ⟨S2x2048x2048, .f32⟩
  | 20 => ⟨S2x2048x2048, .f32⟩
  | 21 => ⟨S2x2048x2048, .f32⟩
  | 22 => ⟨S_, .f32⟩
  | 23 => ⟨S2x2048, .f32⟩
  | 24 => ⟨S2x2048x1, .f32⟩
  | 25 => ⟨S_, .f32⟩
  | 26 => ⟨S_, .f32⟩
  | 27 => ⟨S2x2048x1, .f32⟩
  | 28 => ⟨S2x2048x1, .f32⟩
  | 29 => ⟨S_, .f32⟩
  | 30 => ⟨S2x2048x1, .f32⟩
  | 31 => ⟨S2x2048x1, .f32⟩
  | 32 => ⟨S2x2048x2048, .f32⟩
  | 33 => ⟨S2x2048x2048, .f32⟩
  | 34 => ⟨S2x2048x2048, .f32⟩
  | 35 => ⟨S_, .f32⟩
  | 36 => ⟨S_, .f32⟩
  | 37 => ⟨S_, .f32⟩
  | 38 => ⟨S2x2048x2048, .f32⟩
  | 39 => ⟨S2x2048x2048, .f32⟩
  | 40 => ⟨S_, .f32⟩
  | 41 => ⟨S2x2048x2048, .f32⟩
  | 42 => ⟨S2x2048x2048, .f32⟩
  | 43 => ⟨S2x2048x2048, .f32⟩
  | 44 => ⟨S2x2048x2048, .f32⟩
  | 45 => ⟨S2x2048x2048, .f32⟩
  | 46 => ⟨S2x2048x2048, .f32⟩
  | 47 => ⟨S16384x2048, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S16384x2048, .f32⟩
  | 58 => ⟨S16384x2048, .f32⟩
  | 59 => ⟨S16384x2048, .f32⟩
  | 60 => ⟨S_, .f32⟩
  | 61 => ⟨S_, .f32⟩
  | 62 => ⟨S_, .f32⟩
  | 63 => ⟨S16384x2048, .f32⟩
  | 64 => ⟨S16384x2048, .f32⟩
  | 65 => ⟨S_, .f32⟩
  | 66 => ⟨S16384x2048, .f32⟩
  | 67 => ⟨S16384x2048, .f32⟩
  | 68 => ⟨S16384x2048, .f32⟩
  | 69 => ⟨S16384x2048, .f32⟩
  | 70 => ⟨S16384x2048, .f32⟩
  | 71 => ⟨S16384x2048, .f32⟩
  | 72 => ⟨S2x2048x16384, .f32⟩
  | 73 => ⟨S2x2048x8192, .f32⟩
  | 74 => ⟨S2x2048x8192, .f32⟩
  | 75 => ⟨S2x2048x8192, .f32⟩
  | 76 => ⟨S2x2048x8192, .f32⟩
  | 77 => ⟨S_, .f32⟩
  | 78 => ⟨S2x2048x8192, .f32⟩
  | 79 => ⟨S2x2048x8192, .f32⟩
  | 80 => ⟨S_, .f32⟩
  | 81 => ⟨S2x2048x8192, .f32⟩
  | 82 => ⟨S2x2048x8192, .f32⟩
  | 83 => ⟨S2x2048x8192, .f32⟩
  | 84 => ⟨S2x2048x8192, .f32⟩
  | 85 => ⟨S2x2048x8192, .f32⟩
  | 86 => ⟨S_, .f32⟩
  | 87 => ⟨S2x2048, .f32⟩
  | 88 => ⟨S2x2048x1, .f32⟩
  | 89 => ⟨S_, .f32⟩
  | 90 => ⟨S2x2048x1, .f32⟩
  | 91 => ⟨S2x2048x1, .f32⟩
  | 92 => ⟨S_, .f32⟩
  | 93 => ⟨S2x2048x1, .f32⟩
  | 94 => ⟨S2x2048x1, .f32⟩
  | 95 => ⟨S2x2048x1, .f32⟩
  | 96 => ⟨S2x2048x8192, .f32⟩
  | 97 => ⟨S2x2048x8192, .f32⟩
  | 98 => ⟨S1x1x8192, .f32⟩
  | 99 => ⟨S2x2048x8192, .f32⟩
  | 100 => ⟨S2x2048x8192, .f32⟩
  | 101 => ⟨S2x2048x8192, .f32⟩
  | 102 => ⟨S_, .f32⟩
  | 103 => ⟨S2x2048, .f32⟩
  | 104 => ⟨S2x2048x1, .f32⟩
  | 105 => ⟨S_, .f32⟩
  | 106 => ⟨S_, .f32⟩
  | 107 => ⟨S2x2048x1, .f32⟩
  | 108 => ⟨S2x2048x1, .f32⟩
  | 109 => ⟨S_, .f32⟩
  | 110 => ⟨S2x2048x1, .f32⟩
  | 111 => ⟨S2x2048x1, .f32⟩
  | 112 => ⟨S2x2048x8192, .f32⟩
  | 113 => ⟨S2x2048x8192, .f32⟩
  | 114 => ⟨S2x2048x8192, .f32⟩
  | 115 => ⟨S_, .f32⟩
  | 116 => ⟨S_, .f32⟩
  | 117 => ⟨S_, .f32⟩
  | 118 => ⟨S2x2048x8192, .f32⟩
  | 119 => ⟨S2x2048x8192, .f32⟩
  | 120 => ⟨S_, .f32⟩
  | 121 => ⟨S2x2048x8192, .f32⟩
  | 122 => ⟨S2x2048x8192, .f32⟩
  | 123 => ⟨S2x2048x8192, .f32⟩
  | 124 => ⟨S2x2048x8192, .f32⟩
  | 125 => ⟨S2x2048x8192, .f32⟩
  | 126 => ⟨S2x2048x8192, .f32⟩
  | 127 => ⟨S2048x8192, .f32⟩
  | _ => ⟨S2x2048x2048, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S2048x8192, .f32⟩
  | 10 => ⟨S2048x8192, .f32⟩
  | 11 => ⟨S2048x8192, .f32⟩
  | 12 => ⟨S_, .f32⟩
  | 13 => ⟨S_, .f32⟩
  | 14 => ⟨S_, .f32⟩
  | 15 => ⟨S2048x8192, .f32⟩
  | 16 => ⟨S2048x8192, .f32⟩
  | 17 => ⟨S_, .f32⟩
  | 18 => ⟨S2048x8192, .f32⟩
  | 19 => ⟨S2048x8192, .f32⟩
  | 20 => ⟨S2048x8192, .f32⟩
  | 21 => ⟨S2048x8192, .f32⟩
  | 22 => ⟨S2048x8192, .f32⟩
  | 23 => ⟨S2048x8192, .f32⟩
  | 24 => ⟨S2x2048x2048, .f32⟩
  | _ => ⟨S2x2048x2048, .f32⟩

abbrev hbmTy (i : Nat) : BufTy := match i / 128 with
  | 0 => hbmTy0_0 i
  | 1 => hbmTy0_1 i
  | _ => ⟨S2x2048x2048, .f32⟩

abbrev bufTy : (tb : Table) → Fin (tcTables nBuf tb) → BufTy
  | .hbm, ⟨i, _⟩ => hbmTy i
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_cst_6 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_cst_8 : Ref sig .tc := ⟨.hbm, 50, rfl⟩
abbrev main_v29 : Ref sig .tc := ⟨.hbm, 51, rfl⟩
abbrev main_cst_9 : Ref sig .tc := ⟨.hbm, 52, rfl⟩
abbrev main_call3_v0 : Ref sig .tc := ⟨.hbm, 53, rfl⟩
abbrev main_v30 : Ref sig .tc := ⟨.hbm, 54, rfl⟩
abbrev main_cst_10 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_11 : Ref sig .tc := ⟨.hbm, 60, rfl⟩
abbrev main_cst_12 : Ref sig .tc := ⟨.hbm, 61, rfl⟩
abbrev main_call5_v0 : Ref sig .tc := ⟨.hbm, 62, rfl⟩
abbrev main_call5_v1 : Ref sig .tc := ⟨.hbm, 63, rfl⟩
abbrev main_call5_v2 : Ref sig .tc := ⟨.hbm, 64, rfl⟩
abbrev main_call5_v3 : Ref sig .tc := ⟨.hbm, 65, rfl⟩
abbrev main_call5_v4 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_call6_v0 : Ref sig .tc := ⟨.hbm, 75, rfl⟩
abbrev main_call6_v1 : Ref sig .tc := ⟨.hbm, 76, rfl⟩
abbrev main_call6_cst : Ref sig .tc := ⟨.hbm, 77, rfl⟩
abbrev main_call6_v2 : Ref sig .tc := ⟨.hbm, 78, rfl⟩
abbrev main_call6_v3 : Ref sig .tc := ⟨.hbm, 79, rfl⟩
abbrev main_call6_cst_0 : Ref sig .tc := ⟨.hbm, 80, rfl⟩
abbrev main_call6_v4 : Ref sig .tc := ⟨.hbm, 81, rfl⟩
abbrev main_call6_v5 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_13 : Ref sig .tc := ⟨.hbm, 86, rfl⟩
abbrev main_v46 : Ref sig .tc := ⟨.hbm, 87, rfl⟩
abbrev main_v47 : Ref sig .tc := ⟨.hbm, 88, rfl⟩
abbrev main_cst_14 : Ref sig .tc := ⟨.hbm, 89, rfl⟩
abbrev main_v48 : Ref sig .tc := ⟨.hbm, 90, rfl⟩
abbrev main_v49 : Ref sig .tc := ⟨.hbm, 91, rfl⟩
abbrev main_cst_15 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_16 : Ref sig .tc := ⟨.hbm, 102, rfl⟩
abbrev main_v59 : Ref sig .tc := ⟨.hbm, 103, rfl⟩
abbrev main_v60 : Ref sig .tc := ⟨.hbm, 104, rfl⟩
abbrev main_cst_17 : Ref sig .tc := ⟨.hbm, 105, rfl⟩
abbrev main_call7_v0 : Ref sig .tc := ⟨.hbm, 106, rfl⟩
abbrev main_call7_v1 : Ref sig .tc := ⟨.hbm, 107, rfl⟩
abbrev main_v61 : Ref sig .tc := ⟨.hbm, 108, rfl⟩
abbrev main_cst_18 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_cst_19 : Ref sig .tc := ⟨.hbm, 115, rfl⟩
abbrev main_cst_20 : Ref sig .tc := ⟨.hbm, 116, rfl⟩
abbrev main_call9_v0 : Ref sig .tc := ⟨.hbm, 117, rfl⟩
abbrev main_call9_v1 : Ref sig .tc := ⟨.hbm, 118, rfl⟩
abbrev main_call9_v2 : Ref sig .tc := ⟨.hbm, 119, rfl⟩
abbrev main_call9_v3 : Ref sig .tc := ⟨.hbm, 120, rfl⟩
abbrev main_call9_v4 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_cst_21 : Ref sig .tc := ⟨.hbm, 128, rfl⟩
abbrev main_v73 : Ref sig .tc := ⟨.hbm, 129, rfl⟩
abbrev main_cst_22 : Ref sig .tc := ⟨.hbm, 130, rfl⟩
abbrev main_v74 : Ref sig .tc := ⟨.hbm, 131, rfl⟩
abbrev main_cst_23 : Ref sig .tc := ⟨.hbm, 132, rfl⟩
abbrev main_call10_v0 : Ref sig .tc := ⟨.hbm, 133, rfl⟩
abbrev main_v75 : Ref sig .tc := ⟨.hbm, 134, rfl⟩
abbrev main_cst_24 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_cst_25 : Ref sig .tc := ⟨.hbm, 140, rfl⟩
abbrev main_cst_26 : Ref sig .tc := ⟨.hbm, 141, rfl⟩
abbrev main_call12_v0 : Ref sig .tc := ⟨.hbm, 142, rfl⟩
abbrev main_call12_v1 : Ref sig .tc := ⟨.hbm, 143, rfl⟩
abbrev main_call12_v2 : Ref sig .tc := ⟨.hbm, 144, rfl⟩
abbrev main_call12_v3 : Ref sig .tc := ⟨.hbm, 145, rfl⟩
abbrev main_call12_v4 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩

abbrev nD : Nat := 1
abbrev τ : Topo := Topo.v7x

variable {F : FTy → Type} [FloatOps F]

class Facts₀ : Prop where
  reducesTo_S2x2048x2048_S2x2048_d2 : S2x2048x2048.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x2048_0_1_2 : S2x2048x1.BroadcastsInDim S2x2048x2048 (![0, 1, 2] : Fin 3 → Fin S2x2048x2048.rank)
  bcast_S2048_S1x1x2048_2 : S2048.BroadcastsInDim S1x1x2048 (![2] : Fin 1 → Fin S1x1x2048.rank)
  bcast_S1x1x2048_S2x2048x2048_0_1_2 : S1x1x2048.BroadcastsInDim S2x2048x2048 (![0, 1, 2] : Fin 3 → Fin S2x2048x2048.rank)
  bcast_S_S2x2048x2048 : S_.BroadcastsInDim S2x2048x2048 (![] : Fin 0 → Fin S2x2048x2048.rank)
  reducesTo_S16384x2048_S_d0_1 : S16384x2048.ReducesTo [0, 1] S_
  bcast_S_S16384x2048 : S_.BroadcastsInDim S16384x2048 (![] : Fin 0 → Fin S16384x2048.rank)
  slices_S2x2048x16384_S2x2048x8192_0_0_0 : S2x2048x16384.Slices ![0, 0, 0] S2x2048x8192
  slices_S2x2048x16384_S2x2048x8192_0_0_8192 : S2x2048x16384.Slices ![0, 0, 8192] S2x2048x8192
  bcast_S_S2x2048x8192 : S_.BroadcastsInDim S2x2048x8192 (![] : Fin 0 → Fin S2x2048x8192.rank)
  reducesTo_S2x2048x8192_S2x2048_d2 : S2x2048x8192.ReducesTo [2] S2x2048
  bcast_S2x2048x1_S2x2048x8192_0_1_2 : S2x2048x1.BroadcastsInDim S2x2048x8192 (![0, 1, 2] : Fin 3 → Fin S2x2048x8192.rank)
  bcast_S8192_S1x1x8192_2 : S8192.BroadcastsInDim S1x1x8192 (![2] : Fin 1 → Fin S1x1x8192.rank)
  bcast_S1x1x8192_S2x2048x8192_0_1_2 : S1x1x8192.BroadcastsInDim S2x2048x8192 (![0, 1, 2] : Fin 3 → Fin S2x2048x8192.rank)
  reducesTo_S2048x8192_S_d0_1 : S2048x8192.ReducesTo [0, 1] S_
  bcast_S_S2048x8192 : S_.BroadcastsInDim S2048x8192 (![] : Fin 0 → Fin S2048x8192.rank)
  dot_S2x2048x2048_S16384x2048_S2x2048x16384_2_1_01_0_n_n_wf : DotDims.WF S2x2048x2048 S16384x2048 S2x2048x16384 [2] [1] [0, 1] [0] [] []
  dot_S2x2048x8192_S2048x8192_S2x2048x2048_2_1_01_0_n_n_wf : DotDims.WF S2x2048x8192 S2048x8192 S2x2048x2048 [2] [1] [0, 1] [0] [] []

variable [Facts₀]

def dot_S2x2048x2048_S16384x2048_S2x2048x16384_2_1_01_0_n_n : DotDims S2x2048x2048 S16384x2048 S2x2048x16384 where
  lhsContracting := [2]
  rhsContracting := [1]
  lhsNonContracting := [0, 1]
  rhsNonContracting := [0]
  lhsBatch := []
  rhsBatch := []
  wf := dot_S2x2048x2048_S16384x2048_S2x2048x16384_2_1_01_0_n_n_wf
def dot_S2x2048x8192_S2048x8192_S2x2048x2048_2_1_01_0_n_n : DotDims S2x2048x8192 S2048x8192 S2x2048x2048 where
  lhsContracting := [2]
  rhsContracting := [1]
  lhsNonContracting := [0, 1]
  rhsNonContracting := [0]
  lhsBatch := []
  rhsBatch := []
  wf := dot_S2x2048x8192_S2048x8192_S2x2048x2048_2_1_01_0_n_n_wf

class Facts : Prop extends Facts₀ where

variable [Facts]
-- ==== Proof.Spec.lean ====
/-
  The mathematics both programs compute, as ONE function of the five argument arrays, index by index, on the extended
  reals. A token row `x` of `K` entries is RMS-normalised (`x · (mean(x²) + ε)^(-1/2) · g`), then quantised to at most
  256 levels per row: with `a` the row's largest magnitude, `s = 127 / max(ε, a)`, an entry `y` becomes
  `clip(round(y·s), -128, 127) / s` (ties to even). A weight array is quantised to three levels with ONE scale for the
  whole array, `s = 1 / max(ε, mean|w|)`: `clip(round(w·s), -1, 1) / s`. The layer is then
      out[b,s,n] = Σ_i  Q(norm(h))[i] · Wd[n,i],     h[i] = silu(gate[i]) · val[i],
      gate[i] = Σ_k Q(norm(x[b,s,·]))[k] · Wg[i,k],  val[i] = Σ_k Q(norm(x[b,s,·]))[k] · Wg[8192+i,k].
  One program applies the quantisers directly (`quantRow`, `wQuant`); the other writes each quantised value as
  `a + (q - a)` (`steRow`, `wSte`), which is `q` exactly when `a` is finite. `mlp` is the layer with the two
  quantisers as parameters; `outK` and `outR` are its two instances.
  Float literals stay as their words (the same word on both sides is never evaluated).
-/
import Idealize.ShloMosaic.PureOps.Ideal
import Idealize.ShloMosaic.Lib.ValueIdx

noncomputable section

namespace Cert.Spec

open Idealize.ShloMosaic Idealize.ShloMosaic.ValueIdx

/-- ε = f32(1e-5). -/
abbrev epsW : EReal := Ideal.ofBits .f32 0x3727C5AC#32
/-- −∞, the neutral element a row maximum starts from. -/
abbrev ninfW : EReal := Ideal.ofBits .f32 0xFF800000#32
abbrev w127 : EReal := Ideal.ofBits .f32 0x42FE0000#32
abbrev wm128 : EReal := Ideal.ofBits .f32 0xC3000000#32
abbrev w1 : EReal := Ideal.ofBits .f32 0x3F800000#32
abbrev wm1 : EReal := Ideal.ofBits .f32 0xBF800000#32
/-- The row lengths 2048 and 8192 and the weight arrays' element counts 2^25 and 2^24, as the float words the means divide by. -/
abbrev w2048 : EReal := Ideal.ofBits .f32 0x45000000#32
abbrev w8192 : EReal := Ideal.ofBits .f32 0x46000000#32
abbrev wN25 : EReal := Ideal.ofBits .f32 0x4C000000#32
abbrev wN24 : EReal := Ideal.ofBits .f32 0x4B800000#32

/-- Round to the nearest integer, ties to even. -/
def rnd (x : EReal) : EReal := Ideal.liftRound Ideal.roundHalfEven x

/-- The magnitude `max x (-x)`. -/
def absE (x : EReal) : EReal := max x (-x)

/-- Entry `k` of the RMS-normalised row: `x k · (Σ x² / K + ε)^(-1/2) · g k` (`kw` is the word of `K`). -/
def normRow {K : ℕ} (kw : EReal) (x g : Fin K → EReal) (k : Fin K) : EReal :=
  x k * Ideal.rsqrt (Ideal.div (∑ j, x j * x j) kw + epsW) * g k

/-- The row's largest magnitude, folded from −∞. -/
def rowMax {K : ℕ} (y : Fin K → EReal) : EReal :=
  (Finset.univ : Finset (Fin K)).fold max ninfW (fun k => absE (y k))

/-- A row's quantisation scale `127 / max(ε, largest magnitude)`. -/
def rowScale {K : ℕ} (y : Fin K → EReal) : EReal := Ideal.div w127 (max epsW (rowMax y))

/-- Entry `k` of the quantised row. -/
def quantRow {K : ℕ} (y : Fin K → EReal) (k : Fin K) : EReal :=
  Ideal.div (min w127 (max wm128 (rnd (y k * rowScale y)))) (rowScale y)

/-- The same written as `y + (q - y)`. -/
def steRow {K : ℕ} (y : Fin K → EReal) (k : Fin K) : EReal := y k + (quantRow y k - y k)

/-- A weight array's one scale `1 / max(ε, Σ|w| / N)` (`nw` is the word of the element count `N`). -/
def wScale {S : Shape} (nw : EReal) (w : S.Idx → EReal) : EReal :=
  Ideal.div w1 (max epsW (Ideal.div (∑ i, absE (w i)) nw))

/-- Entry `i` of the three-level weight array. -/
def wQuant {S : Shape} (nw : EReal) (w : S.Idx → EReal) (i : S.Idx) : EReal :=
  Ideal.div (min w1 (max wm1 (rnd (w i * wScale nw w)))) (wScale nw w)

/-- The same written as `w + (q - w)`. -/
def wSte {S : Shape} (nw : EReal) (w : S.Idx → EReal) (i : S.Idx) : EReal := w i + (wQuant nw w i - w i)

/-- `a · 1/(1 + e^(-a))`. -/
def silu (a : EReal) : EReal := a * Ideal.logistic a

/-- Row `i` of the gate half and of the value half of the first weight array. -/
abbrev loRow (i : Fin 8192) : Fin 16384 := ⟨i.val, by omega⟩
abbrev hiRow (i : Fin 8192) : Fin 16384 := ⟨8192 + i.val, by omega⟩

/-- The layer with its two activation quantisers `A1`, `A2` and the two quantised weight arrays `Wg`, `Wd` as
    parameters, at output index `(b, s, n)`. -/
def mlp (A1 : (Fin 2048 → EReal) → Fin 2048 → EReal) (A2 : (Fin 8192 → EReal) → Fin 8192 → EReal)
    (Wg : (⟨2, ![16384, 2048]⟩ : Shape).Idx → EReal) (Wd : (⟨2, ![2048, 8192]⟩ : Shape).Idx → EReal)
    (x : (⟨3, ![2, 2048, 2048]⟩ : Shape).Idx → EReal) (gg : (⟨1, ![2048]⟩ : Shape).Idx → EReal)
    (gd : (⟨1, ![8192]⟩ : Shape).Idx → EReal) (b : Fin 2) (s : Fin 2048) (n : Fin 2048) : EReal :=
  ∑ i : Fin 8192,
    A2 (normRow w8192
        (fun i' : Fin 8192 =>
          silu (∑ k : Fin 2048, A1 (normRow w2048 (fun k' => x (ix3 b s k')) (fun k' => gg (ix1 k'))) k * Wg (ix2 (loRow i') k))
            * (∑ k : Fin 2048, A1 (normRow w2048 (fun k' => x (ix3 b s k')) (fun k' => gg (ix1 k'))) k * Wg (ix2 (hiRow i') k)))
        (fun i' => gd (ix1 i'))) i
      * Wd (ix2 n i)

/-- The layer with the quantisers applied directly. -/
def outK (x : (⟨3, ![2, 2048, 2048]⟩ : Shape).Idx → EReal) (wg : (⟨2, ![16384, 2048]⟩ : Shape).Idx → EReal)
    (gg : (⟨1, ![2048]⟩ : Shape).Idx → EReal) (wd : (⟨2, ![2048, 8192]⟩ : Shape).Idx → EReal)
    (gd : (⟨1, ![8192]⟩ : Shape).Idx → EReal) (b : Fin 2) (s : Fin 2048) (n : Fin 2048) : EReal :=
  mlp quantRow quantRow (wQuant wN25 wg) (wQuant wN24 wd) x gg gd b s n

/-- The layer with every quantised value written as `a + (q - a)`. -/
def outR (x : (⟨3, ![2, 2048, 2048]⟩ : Shape).Idx → EReal) (wg : (⟨2, ![16384, 2048]⟩ : Shape).Idx → EReal)
    (gg : (⟨1, ![2048]⟩ : Shape).Idx → EReal) (wd : (⟨2, ![2048, 8192]⟩ : Shape).Idx → EReal)
    (gd : (⟨1, ![8192]⟩ : Shape).Idx → EReal) (b : Fin 2) (s : Fin 2048) (n : Fin 2048) : EReal :=
  mlp steRow steRow (wSte wN25 wg) (wSte wN24 wd) x gg gd b s n

/-- An extended real that is a real number. -/
def IsFin (a : EReal) : Prop := ∃ r : ℝ, a = (r : EReal)

end Cert.Spec

end
-- ==== Proof.SteAlgebra.lean ====
/-
  The two instances of the layer agree on finite inputs. One instance applies each quantiser directly; the other
  writes every quantised value as `a + (q - a)`. On the extended reals `a + (q - a) = q` whenever `a` is a real
  number, whatever `q` is, so it is enough to show that every value the second form is applied to is a real number:
  the weights (given), the first normalised row, and the second normalised row (which needs the quantised first row,
  the quantised first weight array, the two sums of products and the gate `a · 1/(1 + e^(-a))` to be real numbers).

  The bookkeeping uses three predicates on extended reals: being a real number (`IsFin`), being a nonnegative real
  number (`IsNN`) and being a positive real number (`IsPos`), each closed under the operations that occur. The
  clipped rounded value `min hi (max lo z)` is a real number for ANY `z` once `lo` and `hi` are, so the rounding
  function is never opened. The float words are evaluated once each, below.
-/
import proofs.«126920_j38886633898328_2_alg».proof.Proof.Spec

noncomputable section

namespace Cert.Spec

open Idealize.ShloMosaic Idealize.ShloMosaic.ValueIdx

/-! ### The float words as reals -/

theorem ninfW_eq : ninfW = ⊥ := by
  simp [ninfW, Ideal.ofBits, Ideal.ieee]

theorem w127_eq : w127 = ((127 : ℝ) : EReal) := by
  simp [w127, Ideal.ofBits, Ideal.ieee, -EReal.coe_mul]; norm_num

theorem wm128_eq : wm128 = ((-128 : ℝ) : EReal) := by
  simp [wm128, Ideal.ofBits, Ideal.ieee, -EReal.coe_mul, -EReal.coe_neg]; norm_num

theorem w1_eq : w1 = ((1 : ℝ) : EReal) := by
  simp [w1, Ideal.ofBits, Ideal.ieee, -EReal.coe_mul]; norm_num

theorem wm1_eq : wm1 = ((-1 : ℝ) : EReal) := by
  simp [wm1, Ideal.ofBits, Ideal.ieee, -EReal.coe_mul, -EReal.coe_neg]; norm_num

theorem w2048_eq : w2048 = ((2048 : ℝ) : EReal) := by
  simp [w2048, Ideal.ofBits, Ideal.ieee, -EReal.coe_mul]; norm_num

theorem w8192_eq : w8192 = ((8192 : ℝ) : EReal) := by
  simp [w8192, Ideal.ofBits, Ideal.ieee, -EReal.coe_mul]; norm_num

theorem wN25_eq : wN25 = ((33554432 : ℝ) : EReal) := by
  simp [wN25, Ideal.ofBits, Ideal.ieee, -EReal.coe_mul]; norm_num

theorem wN24_eq : wN24 = ((16777216 : ℝ) : EReal) := by
  simp [wN24, Ideal.ofBits, Ideal.ieee, -EReal.coe_mul]; norm_num

/-- ε is the real `10995116 · 2^(-40)`. -/
theorem epsW_eq : epsW = ((10995116 / 1099511627776 : ℝ) : EReal) := by
  simp [epsW, Ideal.ofBits, Ideal.ieee, -EReal.coe_mul]; norm_num

/-! ### Real, nonnegative real, positive real -/

/-- A nonnegative real number. -/
def IsNN (a : EReal) : Prop := ∃ r : ℝ, 0 ≤ r ∧ a = (r : EReal)

/-- A positive real number. -/
def IsPos (a : EReal) : Prop := ∃ r : ℝ, 0 < r ∧ a = (r : EReal)

theorem IsNN.isFin {a : EReal} (h : IsNN a) : IsFin a := by
  obtain ⟨r, _, rfl⟩ := h; exact ⟨r, rfl⟩

theorem IsPos.isFin {a : EReal} (h : IsPos a) : IsFin a := by
  obtain ⟨r, _, rfl⟩ := h; exact ⟨r, rfl⟩

theorem IsPos.ne_zero {a : EReal} (h : IsPos a) : a ≠ 0 := by
  obtain ⟨r, hr, rfl⟩ := h; exact EReal.coe_ne_zero.mpr hr.ne'

theorem IsFin.ne_top {a : EReal} (h : IsFin a) : a ≠ ⊤ := by
  obtain ⟨r, rfl⟩ := h; exact EReal.coe_ne_top r

theorem IsFin.ne_bot {a : EReal} (h : IsFin a) : a ≠ ⊥ := by
  obtain ⟨r, rfl⟩ := h; exact EReal.coe_ne_bot r

/-- An extended real that is neither infinity is a real number. -/
theorem isFin_of_ne {a : EReal} (hb : a ≠ ⊥) (ht : a ≠ ⊤) : IsFin a :=
  ⟨a.toReal, (EReal.coe_toReal ht hb).symm⟩

theorem IsFin.add {a b : EReal} (ha : IsFin a) (hb : IsFin b) : IsFin (a + b) := by
  obtain ⟨r, rfl⟩ := ha; obtain ⟨t, rfl⟩ := hb; exact ⟨r + t, (EReal.coe_add r t).symm⟩

theorem IsFin.mul {a b : EReal} (ha : IsFin a) (hb : IsFin b) : IsFin (a * b) := by
  obtain ⟨r, rfl⟩ := ha; obtain ⟨t, rfl⟩ := hb; exact ⟨r * t, (EReal.coe_mul r t).symm⟩

theorem IsFin.sum {ι : Type*} (s : Finset ι) (f : ι → EReal) :
    (∀ i ∈ s, IsFin (f i)) → IsFin (∑ i ∈ s, f i) := by
  classical
  refine Finset.induction_on s ?_ ?_
  · intro _; exact ⟨0, by simp⟩
  · intro a s ha ih h
    rw [Finset.sum_insert ha]
    exact (h a (Finset.mem_insert_self a s)).add (ih (fun i hi => h i (Finset.mem_insert_of_mem hi)))

theorem IsNN.sum {ι : Type*} (s : Finset ι) (f : ι → EReal) :
    (∀ i ∈ s, IsNN (f i)) → IsNN (∑ i ∈ s, f i) := by
  classical
  refine Finset.induction_on s ?_ ?_
  · intro _; exact ⟨0, le_refl 0, by simp⟩
  · intro a s ha ih h
    rw [Finset.sum_insert ha]
    obtain ⟨r, hr, er⟩ := h a (Finset.mem_insert_self a s)
    obtain ⟨t, ht, et⟩ := ih (fun i hi => h i (Finset.mem_insert_of_mem hi))
    exact ⟨r + t, add_nonneg hr ht, by rw [er, et, EReal.coe_add]⟩

/-- The square of a real number is a nonnegative real number. -/
theorem isNN_mul_self {a : EReal} (ha : IsFin a) : IsNN (a * a) := by
  obtain ⟨r, rfl⟩ := ha; exact ⟨r * r, mul_self_nonneg r, (EReal.coe_mul r r).symm⟩

/-- The magnitude of a real number is a nonnegative real number. -/
theorem isNN_absE {a : EReal} (ha : IsFin a) : IsNN (absE a) := by
  obtain ⟨r, rfl⟩ := ha
  unfold absE
  rw [← EReal.coe_neg]
  rcases le_total 0 r with h | h
  · exact ⟨r, h, max_eq_left (EReal.coe_le_coe_iff.mpr (by linarith))⟩
  · exact ⟨-r, by linarith, max_eq_right (EReal.coe_le_coe_iff.mpr (by linarith))⟩

/-- A real number divided by a nonzero real number is a real number. -/
theorem IsFin.div {a c : EReal} (ha : IsFin a) (hc : IsFin c) (hc0 : c ≠ 0) : IsFin (Ideal.div a c) := by
  obtain ⟨t, rfl⟩ := hc
  rw [Ideal.div_coe (EReal.coe_ne_zero.mp hc0)]
  exact ha.mul ⟨_, rfl⟩

theorem IsNN.div {a c : EReal} (ha : IsNN a) (hc : IsPos c) : IsNN (Ideal.div a c) := by
  obtain ⟨r, hr, rfl⟩ := ha; obtain ⟨t, ht, rfl⟩ := hc
  rw [Ideal.div_coe ht.ne']
  exact ⟨r * (1 / t), mul_nonneg hr (one_div_pos.mpr ht).le, (EReal.coe_mul _ _).symm⟩

theorem IsPos.div {a c : EReal} (ha : IsPos a) (hc : IsPos c) : IsPos (Ideal.div a c) := by
  obtain ⟨r, hr, rfl⟩ := ha; obtain ⟨t, ht, rfl⟩ := hc
  rw [Ideal.div_coe ht.ne']
  exact ⟨r * (1 / t), mul_pos hr (one_div_pos.mpr ht), (EReal.coe_mul _ _).symm⟩

theorem IsNN.add_pos {a e : EReal} (ha : IsNN a) (he : IsPos e) : IsPos (a + e) := by
  obtain ⟨r, hr, rfl⟩ := ha; obtain ⟨t, ht, rfl⟩ := he
  exact ⟨r + t, add_pos_of_nonneg_of_pos hr ht, (EReal.coe_add r t).symm⟩

/-- The reciprocal square root of a positive real number is a positive real number. -/
theorem IsPos.rsqrt {a : EReal} (ha : IsPos a) : IsPos (Ideal.rsqrt a) := by
  obtain ⟨r, hr, rfl⟩ := ha
  rw [Ideal.rsqrt_coe, if_neg (not_lt.mpr hr.le), if_neg hr.ne']
  exact ⟨(Real.sqrt r)⁻¹, inv_pos.mpr (Real.sqrt_pos.mpr hr), rfl⟩

/-- The maximum of a positive real number and anything but `+∞` is a positive real number. -/
theorem IsPos.max_left {e z : EReal} (he : IsPos e) (hz : z ≠ ⊤) : IsPos (max e z) := by
  obtain ⟨r, hr, rfl⟩ := he
  induction z using EReal.rec with
  | bot => rw [max_eq_left bot_le]; exact ⟨r, hr, rfl⟩
  | coe t =>
    rcases le_total (r : EReal) (t : EReal) with h | h
    · rw [max_eq_right h]; exact ⟨t, lt_of_lt_of_le hr (EReal.coe_le_coe_iff.mp h), rfl⟩
    · rw [max_eq_left h]; exact ⟨r, hr, rfl⟩
  | top => exact absurd rfl hz

/-- Clipping anything between two real numbers gives a real number. -/
theorem isFin_clip {hi lo : EReal} (hhi : IsFin hi) (hlo : IsFin lo) (z : EReal) : IsFin (min hi (max lo z)) := by
  refine isFin_of_ne ?_ ?_
  · have h1 : ⊥ < max lo z := lt_of_lt_of_le (bot_lt_iff_ne_bot.mpr hlo.ne_bot) (le_max_left lo z)
    exact (lt_min (bot_lt_iff_ne_bot.mpr hhi.ne_bot) h1).ne'
  · exact (lt_of_le_of_lt (min_le_left hi _) (lt_top_iff_ne_top.mpr hhi.ne_top)).ne

/-- The logistic function of a real number is a real number. -/
theorem isFin_logistic {a : EReal} (ha : IsFin a) : IsFin (Ideal.logistic a) := by
  obtain ⟨r, rfl⟩ := ha; rw [Ideal.logistic_coe]; exact ⟨_, rfl⟩

theorem isFin_silu {a : EReal} (ha : IsFin a) : IsFin (silu a) := ha.mul (isFin_logistic ha)

/-! ### The words' signs -/

theorem epsW_pos : IsPos epsW := ⟨_, by norm_num, epsW_eq⟩
theorem w127_pos : IsPos w127 := ⟨_, by norm_num, w127_eq⟩
theorem w1_pos : IsPos w1 := ⟨_, by norm_num, w1_eq⟩
theorem w2048_pos : IsPos w2048 := ⟨_, by norm_num, w2048_eq⟩
theorem w8192_pos : IsPos w8192 := ⟨_, by norm_num, w8192_eq⟩
theorem wN25_pos : IsPos wN25 := ⟨_, by norm_num, wN25_eq⟩
theorem wN24_pos : IsPos wN24 := ⟨_, by norm_num, wN24_eq⟩
theorem wm128_fin : IsFin wm128 := ⟨_, wm128_eq⟩
theorem wm1_fin : IsFin wm1 := ⟨_, wm1_eq⟩

/-! ### `a + (q - a) = q` at a real `a` -/

theorem ste_cancel {a : EReal} (ha : IsFin a) (q : EReal) : a + (q - a) = q := by
  obtain ⟨r, rfl⟩ := ha
  induction q using EReal.rec with
  | bot => rw [EReal.bot_sub, EReal.add_bot]
  | coe t => rw [← EReal.coe_sub, ← EReal.coe_add]; congr 1; ring
  | top => rw [EReal.top_sub_coe, EReal.coe_add_top]

theorem steRow_eq {K : ℕ} {y : Fin K → EReal} (hy : ∀ k, IsFin (y k)) : steRow y = quantRow y :=
  funext fun k => ste_cancel (hy k) _

theorem wSte_eq {S : Shape} (nw : EReal) {w : S.Idx → EReal} (hw : ∀ i, IsFin (w i)) : wSte nw w = wQuant nw w :=
  funext fun i => ste_cancel (hw i) _

/-! ### Every intermediate value is a real number -/

/-- A normalised row of real numbers is a row of real numbers: `Σ x² / K + ε` is a positive real. -/
theorem isFin_normRow {K : ℕ} {kw : EReal} (hkw : IsPos kw) {x g : Fin K → EReal} (hx : ∀ k, IsFin (x k))
    (hg : ∀ k, IsFin (g k)) (k : Fin K) : IsFin (normRow kw x g k) := by
  unfold normRow
  have hs : IsNN (∑ j, x j * x j) := IsNN.sum _ _ (fun j _ => isNN_mul_self (hx j))
  exact ((hx k).mul ((hs.div hkw).add_pos epsW_pos).rsqrt.isFin).mul (hg k)

/-- The largest magnitude of a row of real numbers is not `+∞`. -/
theorem rowMax_ne_top {K : ℕ} {y : Fin K → EReal} (hy : ∀ k, IsFin (y k)) : rowMax y ≠ ⊤ := by
  have h : (Finset.univ : Finset (Fin K)).fold max ninfW (fun k => absE (y k)) < ⊤ := by
    rw [Finset.fold_max_lt]
    refine ⟨?_, fun k _ => ?_⟩
    · rw [ninfW_eq]; exact bot_lt_top
    · exact lt_top_iff_ne_top.mpr (isNN_absE (hy k)).isFin.ne_top
  exact h.ne

theorem rowScale_pos {K : ℕ} {y : Fin K → EReal} (hy : ∀ k, IsFin (y k)) : IsPos (rowScale y) :=
  w127_pos.div (epsW_pos.max_left (rowMax_ne_top hy))

/-- A quantised row of real numbers is a row of real numbers. -/
theorem isFin_quantRow {K : ℕ} {y : Fin K → EReal} (hy : ∀ k, IsFin (y k)) (k : Fin K) : IsFin (quantRow y k) := by
  unfold quantRow
  exact (isFin_clip w127_pos.isFin wm128_fin _).div (rowScale_pos hy).isFin (rowScale_pos hy).ne_zero

theorem wScale_pos {S : Shape} {nw : EReal} (hnw : IsPos nw) {w : S.Idx → EReal} (hw : ∀ i, IsFin (w i)) :
    IsPos (wScale nw w) := by
  unfold wScale
  have hs : IsNN (∑ i, absE (w i)) := IsNN.sum _ _ (fun i _ => isNN_absE (hw i))
  exact w1_pos.div (epsW_pos.max_left (hs.div hnw).isFin.ne_top)

/-- A quantised weight array of real numbers is an array of real numbers. -/
theorem isFin_wQuant {S : Shape} {nw : EReal} (hnw : IsPos nw) {w : S.Idx → EReal} (hw : ∀ i, IsFin (w i))
    (i : S.Idx) : IsFin (wQuant nw w i) := by
  unfold wQuant
  exact (isFin_clip w1_pos.isFin wm1_fin _).div (wScale_pos hnw hw).isFin (wScale_pos hnw hw).ne_zero

/-! ### The layer -/

/-- With real inputs and a real first weight array, the layer with `a + (q - a)` activations is the layer with the
    quantisers applied directly. -/
theorem mlp_ste (Wg : (⟨2, ![16384, 2048]⟩ : Shape).Idx → EReal) (Wd : (⟨2, ![2048, 8192]⟩ : Shape).Idx → EReal)
    (x : (⟨3, ![2, 2048, 2048]⟩ : Shape).Idx → EReal) (gg : (⟨1, ![2048]⟩ : Shape).Idx → EReal)
    (gd : (⟨1, ![8192]⟩ : Shape).Idx → EReal)
    (hWg : ∀ i, IsFin (Wg i)) (hx : ∀ i, IsFin (x i)) (hgg : ∀ i, IsFin (gg i)) (hgd : ∀ i, IsFin (gd i))
    (b : Fin 2) (s : Fin 2048) (n : Fin 2048) :
    mlp steRow steRow Wg Wd x gg gd b s n = mlp quantRow quantRow Wg Wd x gg gd b s n := by
  have h1 : ∀ k, IsFin (normRow w2048 (fun k' => x (ix3 b s k')) (fun k' => gg (ix1 k')) k) :=
    fun k => isFin_normRow w2048_pos (fun _ => hx _) (fun _ => hgg _) k
  unfold mlp
  rw [steRow_eq h1, steRow_eq]
  intro i
  refine isFin_normRow w8192_pos (fun i' => ?_) (fun _ => hgd _) i
  exact (isFin_silu (IsFin.sum _ _ fun k _ => (isFin_quantRow h1 k).mul (hWg _))).mul
    (IsFin.sum _ _ fun k _ => (isFin_quantRow h1 k).mul (hWg _))

theorem outR_eq_outK
    (x : (⟨3, ![2, 2048, 2048]⟩ : Shape).Idx → EReal) (wg : (⟨2, ![16384, 2048]⟩ : Shape).Idx → EReal)
    (gg : (⟨1, ![2048]⟩ : Shape).Idx → EReal) (wd : (⟨2, ![2048, 8192]⟩ : Shape).Idx → EReal)
    (gd : (⟨1, ![8192]⟩ : Shape).Idx → EReal)
    (hx : ∀ i, IsFin (x i)) (hwg : ∀ i, IsFin (wg i)) (hgg : ∀ i, IsFin (gg i)) (hwd : ∀ i, IsFin (wd i))
    (hgd : ∀ i, IsFin (gd i))
    (b : Fin 2) (s : Fin 2048) (n : Fin 2048) :
    outR x wg gg wd gd b s n = outK x wg gg wd gd b s n := by
  unfold outR outK
  rw [wSte_eq wN25 hwg, wSte_eq wN24 hwd]
  exact mlp_ste _ _ x gg gd (isFin_wQuant wN25_pos hwg) hx hgg hgd b s n

end Cert.Spec

end
-- ==== Proof.FiniteInputs.lean ====
/-
  The precondition read as finiteness: the printed predicate is the conjunction, over the five argument arrays, of
  "every entry's magnitude is below +∞"; when it evaluates to true, every entry of every array is a real number.
-/
import proofs.«126920_j38886633898328_2_alg».proof.Proof.Spec
import proofs.«126920_j38886633898328_2_alg».proof.Pre_finite_inputs
import Idealize.ShloMosaic.Lib.ReduceAll
import Idealize.ShloMosaic.Lib.Pipeline.Value
import Idealize.ShloMosaic.PureOps.Ideal.Laws

noncomputable section

namespace Cert.FiniteInputs

open Idealize.ShloMosaic Idealize.ShloMosaic.ValueIdx Cert.Pre_finite_inputs

/-- The rank-0 shape has one index. -/
instance : Subsingleton S_.Idx := ⟨fun a b => funext fun d => d.elim0⟩

theorem ofBool_eq_one (b : Bool) : BitVec.ofBool b = 1#1 ↔ b = true := by cases b <;> decide

/-- The word 0x7F800000 is +∞. -/
theorem inf_word : Ideal.ofBits .f32 0x7F800000#32 = (⊤ : EReal) := by simp [Ideal.ofBits, Ideal.ieee]

/-- An extended real whose magnitude max(x, −x) compares below +∞ is a real number. -/
theorem isFin_of_abs_lt (x : EReal)
    (h : FloatOps.cmpf (F := Ideal) (φ := .f32) .olt (FloatOps.hostAbsf (F := Ideal) (φ := .f32) x)
      (FloatOps.ofBits (F := Ideal) .f32 0x7F800000#32) = 1#1) : Cert.Spec.IsFin x := by
  change BitVec.ofBool (decide (max x (-x) < Ideal.ofBits .f32 0x7F800000#32)) = 1#1 at h
  rw [ofBool_eq_one, decide_eq_true_eq, inf_word] at h
  induction x using EReal.rec with
  | bot => simp at h
  | coe r => exact ⟨r, rfl⟩
  | top => simp at h

/-- One conjunct of the predicate: if the `and` over all entries of "|x| < +∞" is true, every entry of x is real. -/
theorem all_fin {s : Shape} {axes : List (Fin s.rank)} (x : FVec Ideal s .f32)
    (hb : S_.BroadcastsInDim s (![] : Fin 0 → Fin s.rank)) (hr : s.ReducesTo axes S_) (hS : 0 < S_.numel) (j : S_.Idx)
    (e : Host.reduce IntOp.andi (cmpf .olt (Host.absf x) (broadcastInDim s ![] hb (constant (F := Ideal) S_ .f32 0x7F800000#32)))
      (constantI S_ 1 1#1) hr hS j = 1#1) (i : s.Idx) : Cert.Spec.IsFin (x i) := by
  have h1 := Host.reduce_andi_all _ _ hr hS j e i
  refine isFin_of_abs_lt (x i) ?_
  rw [cmpf_apply, broadcastInDim_apply _ hb _ i (fun a => a.elim0) (fun a => a.elim0)] at h1
  exact h1

/-- The precondition, true, says every entry of every argument array is a real number. -/
theorem fin_of_pre [Cert.Pre_finite_inputs.Facts] (a0 : FVec Ideal S2x2048x2048 .f32) (a1 : FVec Ideal S16384x2048 .f32)
    (a2 : FVec Ideal S2048 .f32) (a3 : FVec Ideal S2048x8192 .f32) (a4 : FVec Ideal S8192 .f32)
    (h : Cert.Pre_finite_inputs.fn (F := Ideal) a0 a1 a2 a3 a4 = fun _ => 1#1) :
    (∀ i, Cert.Spec.IsFin (a0 i)) ∧ (∀ i, Cert.Spec.IsFin (a1 i)) ∧ (∀ i, Cert.Spec.IsFin (a2 i))
      ∧ (∀ i, Cert.Spec.IsFin (a3 i)) ∧ (∀ i, Cert.Spec.IsFin (a4 i)) := by
  have e := congrFun h ix0
  dsimp only [Cert.Pre_finite_inputs.fn, Cert.Pre_finite_inputs.fn_part1, andi] at e
  rw [IntOp.andi_eq_one, IntOp.andi_eq_one, IntOp.andi_eq_one, IntOp.andi_eq_one] at e
  obtain ⟨⟨⟨⟨e0, e1⟩, e2⟩, e3⟩, e4⟩ := e
  exact ⟨all_fin a0 _ _ _ _ e0, all_fin a1 _ _ _ _ e1, all_fin a2 _ _ _ _ e2, all_fin a3 _ _ _ _ e3, all_fin a4 _ _ _ _ e4⟩

end Cert.FiniteInputs

end
-- ==== Proof.RefRunQOps.lean ====
/-
  The reference program's @main as the list of its 148 host operations, and the three facts its run is built from: @main
  is the line of these operations, the signature scopes no buffer and no semaphore, and every operation touches
  TensorCore buffers only. Then the line read FORWARD, one operation at a time: after an operation its result buffer holds
  its function of the operands' contents and every other buffer what it held — stated so that a proof carries, from one
  operation to the next, only the contents of the buffers still to be read. An operation of a called function reads its
  operands and writes its result at the called function's own types; moving contents to a buffer's type and back changes
  nothing, which is proved once for any typed reference.
-/
import proofs.«126920_j38886633898328_2_alg».proof.Proof.Gen.ReferenceIdeal
import Idealize.ShloMosaic.Lib.StableHlo.Run

noncomputable section

namespace Cert.ReferenceIdeal.ValueQ

open Cert.ReferenceIdeal Cert.ReferenceIdeal.Gen Idealize.ShloMosaic Idealize.ShloMosaic.TcCoe Idealize.SL.Sem
  Idealize.ShloMosaic.StableHlo

variable {F : FTy → Type} [FloatOps F]

/-- @main's 148 operations, in order (a called function's operations stand in its call's place, spelt `TRef.…`). -/
abbrev ops : List (HloOp τ sig (Elt F)) :=
  [ binary main_arg0 main_arg0 main_v0 (mulf : (⟨S2x2048x2048, .f32⟩ : BufTy).Contents (Elt F) → (⟨S2x2048x2048, .f32⟩ : BufTy).Contents (Elt F) → (⟨S2x2048x2048, .f32⟩ : BufTy).Contents (Elt F)),
    nullary main_cst (constant S_ .f32 0x00000000#32),
    binary main_v0 main_cst main_v1 ((fun x v => Host.reduceAdd x v reducesTo_S2x2048x2048_S2x2048_d2 h_S_) : (⟨S2x2048x2048, .f32⟩ : BufTy).Contents (Elt F) → (⟨S_, .f32⟩ : BufTy).Contents (Elt F) → (⟨S2x2048, .f32⟩ : BufTy).Contents (Elt F)),
    unary main_v1 main_v2 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_0 (constant S_ .f32 0x45000000#32),
    unary main_cst_0 main_v3 (broadcastInDim S2x2048x1 ![] bcast_S_S2x2048x1 : (⟨S_, .f32⟩ : BufTy).Contents (Elt F) → (⟨S2x2048x1, .f32⟩ : BufTy).Contents (Elt F)),
    binary main_v2 main_v3 main_v4 (Host.divf : (⟨S2x2048x1, .f32⟩ : BufTy).Contents (Elt F) → (⟨S2x2048x1, .f32⟩ : BufTy).Contents (Elt F) → (⟨S2x2048x1, .f32⟩ : BufTy).Contents (Elt F)),
    nullary main_cst_1 (constant S_ .f32 0x3727C5AC#32),
    unary main_cst_1 main_v5 (broadcastInDim S2x2048x1 ![] bcast_S_S2x2048x1 : (⟨S_, .f32⟩ : BufTy).Contents (Elt F) → (⟨S2x2048x1, .f32⟩ : BufTy).Contents (Elt F)),
    binary main_v4 main_v5 main_v6 (addf : (⟨S2x2048x1, .f32⟩ : BufTy).Contents (Elt F) → (⟨S2x2048x1, .f32⟩ : BufTy).Contents (Elt F) → (⟨S2x2048x1, .f32⟩ : BufTy).Contents (Elt F)),
    unary main_v6 main_v7 (Host.rsqrt : (⟨S2x2048x1, .f32⟩ : BufTy).Contents (Elt F) → (⟨S2x2048x1, .f32⟩ : BufTy).Contents (Elt F)),
    unary main_v7 main_v8 (broadcastInDim S2x2048x2048 ![0, 1, 2] bcast_S2x2048x1_S2x2048x2048_0_1_2 : (⟨S2x2048x1, .f32⟩ : BufTy).Contents (Elt F) → (⟨S2x2048x2048, .f32⟩ : BufTy).Contents (Elt F)),
    binary main_arg0 main_v8 main_v9 (mulf : (⟨S2x2048x2048, .f32⟩ : BufTy).Contents (Elt F) → (⟨S2x2048x2048, .f32⟩ : BufTy).Contents (Elt F) → (⟨S2x2048x2048, .f32⟩ : BufTy).Contents (Elt F)),
    unary main_arg2 main_v10 (broadcastInDim S1x1x2048 ![2] bcast_S2048_S1x1x2048_2 : (⟨S2048, .f32⟩ : BufTy).Contents (Elt F) → (⟨S1x1x2048, .f32⟩ : BufTy).Contents (Elt F)),
    unary main_v10 main_v11 (broadcastInDim S2x2048x2048 ![0, 1, 2] bcast_S1x1x2048_S2x2048x2048_0_1_2 : (⟨S1x1x2048, .f32⟩ : BufTy).Contents (Elt F) → (⟨S2x2048x2048, .f32⟩ : BufTy).Contents (Elt F)),
    binary main_v9 main_v11 main_v12 (mulf : (⟨S2x2048x2048, .f32⟩ : BufTy).Contents (Elt F) → (⟨S2x2048x2048, .f32⟩ : BufTy).Contents (Elt F) → (⟨S2x2048x2048, .f32⟩ : BufTy).Contents (Elt F)),
    unary main_v12 main_v13 (Host.absf : (⟨S2x2048x2048, .f32⟩ : BufTy).Contents (Elt F) → (⟨S2x2048x2048, .f32⟩ : BufTy).Contents (Elt F)),
    nullary main_cst_2 (constant S_ .f32 0xFF800000#32),
    binary main_v13 main_cst_2 main_v14 ((fun x v => Host.reduce FloatOps.maximumf x v reducesTo_S2x2048x2048_S2x2048_d2 h_S_) : (⟨S2x2048x2048, .f32⟩ : BufTy).Contents (Elt F) → (⟨S_, .f32⟩ : BufTy).Contents (Elt F) → (⟨S2x2048, .f32⟩ : BufTy).Contents (Elt F)),
    unary main_v14 main_v15 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_3 (constant S_ .f32 0x3727C5AC#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S2x2048x1, .f32⟩) main_call0_v1) (broadcastInDim S2x2048x1 ![] bcast_S_S2x2048x1),
    TRef.binary (TRef.of (T := ⟨S2x2048x1, .f32⟩) main_call0_v1) (TRef.of (T := ⟨S2x2048x1, .f32⟩) main_v15) (TRef.of (T := ⟨S2x2048x1, .f32⟩) main_v16) maximumf,
    nullary main_cst_4 (constant S_ .f32 0x42FE0000#32),
    unary main_cst_4 main_v17 (broadcastInDim S2x2048x1 ![] bcast_S_S2x2048x1 : (⟨S_, .f32⟩ : BufTy).Contents (Elt F) → (⟨S2x2048x1, .f32⟩ : BufTy).Contents (Elt F)),
    binary main_v17 main_v16 main_v18 (Host.divf : (⟨S2x2048x1, .f32⟩ : BufTy).Contents (Elt F) → (⟨S2x2048x1, .f32⟩ : BufTy).Contents (Elt F) → (⟨S2x2048x1, .f32⟩ : BufTy).Contents (Elt F)),
    unary main_v18 main_v19 (broadcastInDim S2x2048x2048 ![0, 1, 2] bcast_S2x2048x1_S2x2048x2048_0_1_2 : (⟨S2x2048x1, .f32⟩ : BufTy).Contents (Elt F) → (⟨S2x2048x2048, .f32⟩ : BufTy).Contents (Elt F)),
    binary main_v12 main_v19 main_v20 (mulf : (⟨S2x2048x2048, .f32⟩ : BufTy).Contents (Elt F) → (⟨S2x2048x2048, .f32⟩ : BufTy).Contents (Elt F) → (⟨S2x2048x2048, .f32⟩ : BufTy).Contents (Elt F)),
    TRef.unary (TRef.of (T := ⟨S2x2048x2048, .f32⟩) main_v20) (TRef.of (T := ⟨S2x2048x2048, .f32⟩) main_v21) Host.roundeven,
    nullary main_cst_5 (constant S_ .f32 0xC3000000#32),
    nullary main_cst_6 (constant S_ .f32 0x42FE0000#32),
    TRef.unary (TRef.of (T := ⟨S_, .f32⟩) main_cst_5) (TRef.of (T := ⟨S_, .f32⟩) main_call2_v0) id,
    TRef.unary (TRef.of (T := ⟨S_, .f32⟩) main_call2_v0) (TRef.of (T := ⟨S2x2048x2048, .f32⟩) main_call2_v1) (broadcastInDim S2x2048x2048 ![] bcast_S_S2x2048x2048),
    TRef.binary (TRef.of (T := ⟨S2x2048x2048, .f32⟩) main_call2_v1) (TRef.of (T := ⟨S2x2048x2048, .f32⟩) main_v21) (TRef.of (T := ⟨S2x2048x2048, .f32⟩) main_call2_v2) maximumf,
    TRef.unary (TRef.of (T := ⟨S_, .f32⟩) main_cst_6) (TRef.of (T := ⟨S_, .f32⟩) main_call2_v3) id,
    TRef.unary (TRef.of (T := ⟨S_, .f32⟩) main_call2_v3) (TRef.of (T := ⟨S2x2048x2048, .f32⟩) main_call2_v4) (broadcastInDim S2x2048x2048 ![] bcast_S_S2x2048x2048),
    TRef.binary (TRef.of (T := ⟨S2x2048x2048, .f32⟩) main_call2_v4) (TRef.of (T := ⟨S2x2048x2048, .f32⟩) main_call2_v2) (TRef.of (T := ⟨S2x2048x2048, .f32⟩) main_v22) minimumf,
    unary main_v18 main_v23 (broadcastInDim S2x2048x2048 ![0, 1, 2] bcast_S2x2048x1_S2x2048x2048_0_1_2 : (⟨S2x2048x1, .f32⟩ : BufTy).Contents (Elt F) → (⟨S2x2048x2048, .f32⟩ : BufTy).Contents (Elt F)),
    binary main_v22 main_v23 main_v24 (Host.divf : (⟨S2x2048x2048, .f32⟩ : BufTy).Contents (Elt F) → (⟨S2x2048x2048, .f32⟩ : BufTy).Contents (Elt F) → (⟨S2x2048x2048, .f32⟩ : BufTy).Contents (Elt F)),
    binary main_v24 main_v12 main_v25 (subf : (⟨S2x2048x2048, .f32⟩ : BufTy).Contents (Elt F) → (⟨S2x2048x2048, .f32⟩ : BufTy).Contents (Elt F) → (⟨S2x2048x2048, .f32⟩ : BufTy).Contents (Elt F)),
    binary main_v12 main_v25 main_v26 (addf : (⟨S2x2048x2048, .f32⟩ : BufTy).Contents (Elt F) → (⟨S2x2048x2048, .f32⟩ : BufTy).Contents (Elt F) → (⟨S2x2048x2048, .f32⟩ : BufTy).Contents (Elt F)),
    unary main_arg1 main_v27 (Host.absf : (⟨S16384x2048, .f32⟩ : BufTy).Contents (Elt F) → (⟨S16384x2048, .f32⟩ : BufTy).Contents (Elt F)),
    nullary main_cst_7 (constant S_ .f32 0x00000000#32),
    binary main_v27 main_cst_7 main_v28 ((fun x v => Host.reduceAdd x v reducesTo_S16384x2048_S_d0_1 h_S_) : (⟨S16384x2048, .f32⟩ : BufTy).Contents (Elt F) → (⟨S_, .f32⟩ : BufTy).Contents (Elt F) → (⟨S_, .f32⟩ : BufTy).Contents (Elt F)),
    nullary main_cst_8 (constant S_ .f32 0x4C000000#32),
    binary main_v28 main_cst_8 main_v29 (Host.divf : (⟨S_, .f32⟩ : BufTy).Contents (Elt F) → (⟨S_, .f32⟩ : BufTy).Contents (Elt F) → (⟨S_, .f32⟩ : BufTy).Contents (Elt F)),
    nullary main_cst_9 (constant S_ .f32 0x3727C5AC#32),
    TRef.unary (TRef.of (T := ⟨S_, .f32⟩) main_cst_9) (TRef.of (T := ⟨S_, .f32⟩) main_call3_v0) id,
    TRef.binary (TRef.of (T := ⟨S_, .f32⟩) main_call3_v0) (TRef.of (T := ⟨S_, .f32⟩) main_v29) (TRef.of (T := ⟨S_, .f32⟩) main_v30) maximumf,
    nullary main_cst_10 (constant S_ .f32 0x3F800000#32),
    binary main_cst_10 main_v30 main_v31 (Host.divf : (⟨S_, .f32⟩ : BufTy).Contents (Elt F) → (⟨S_, .f32⟩ : BufTy).Contents (Elt F) → (⟨S_, .f32⟩ : BufTy).Contents (Elt F)),
    unary main_v31 main_v32 (broadcastInDim S16384x2048 ![] bcast_S_S16384x2048 : (⟨S_, .f32⟩ : BufTy).Contents (Elt F) → (⟨S16384x2048, .f32⟩ : BufTy).Contents (Elt F)),
    binary main_arg1 main_v32 main_v33 (mulf : (⟨S16384x2048, .f32⟩ : BufTy).Contents (Elt F) → (⟨S16384x2048, .f32⟩ : BufTy).Contents (Elt F) → (⟨S16384x2048, .f32⟩ : BufTy).Contents (Elt F)),
    TRef.unary (TRef.of (T := ⟨S16384x2048, .f32⟩) main_v33) (TRef.of (T := ⟨S16384x2048, .f32⟩) main_v34) Host.roundeven,
    nullary main_cst_11 (constant S_ .f32 0xBF800000#32),
    nullary main_cst_12 (constant S_ .f32 0x3F800000#32),
    TRef.unary (TRef.of (T := ⟨S_, .f32⟩) main_cst_11) (TRef.of (T := ⟨S_, .f32⟩) main_call5_v0) id,
    TRef.unary (TRef.of (T := ⟨S_, .f32⟩) main_call5_v0) (TRef.of (T := ⟨S16384x2048, .f32⟩) main_call5_v1) (broadcastInDim S16384x2048 ![] bcast_S_S16384x2048),
    TRef.binary (TRef.of (T := ⟨S16384x2048, .f32⟩) main_call5_v1) (TRef.of (T := ⟨S16384x2048, .f32⟩) main_v34) (TRef.of (T := ⟨S16384x2048, .f32⟩) main_call5_v2) maximumf,
    TRef.unary (TRef.of (T := ⟨S_, .f32⟩) main_cst_12) (TRef.of (T := ⟨S_, .f32⟩) main_call5_v3) id,
    TRef.unary (TRef.of (T := ⟨S_, .f32⟩) main_call5_v3) (TRef.of (T := ⟨S16384x2048, .f32⟩) main_call5_v4) (broadcastInDim S16384x2048 ![] bcast_S_S16384x2048),
    TRef.binary (TRef.of (T := ⟨S16384x2048, .f32⟩) main_call5_v4) (TRef.of (T := ⟨S16384x2048, .f32⟩) main_call5_v2) (TRef.of (T := ⟨S16384x2048, .f32⟩) main_v35) minimumf,
    unary main_v31 main_v36 (broadcastInDim S16384x2048 ![] bcast_S_S16384x2048 : (⟨S_, .f32⟩ : BufTy).Contents (Elt F) → (⟨S16384x2048, .f32⟩ : BufTy).Contents (Elt F)),
    binary main_v35 main_v36 main_v37 (Host.divf : (⟨S16384x2048, .f32⟩ : BufTy).Contents (Elt F) → (⟨S16384x2048, .f32⟩ : BufTy).Contents (Elt F) → (⟨S16384x2048, .f32⟩ : BufTy).Contents (Elt F)),
    binary main_v37 main_arg1 main_v38 (subf : (⟨S16384x2048, .f32⟩ : BufTy).Contents (Elt F) → (⟨S16384x2048, .f32⟩ : BufTy).Contents (Elt F) → (⟨S16384x2048, .f32⟩ : BufTy).Contents (Elt F)),
    binary main_arg1 main_v38 main_v39 (addf : (⟨S16384x2048, .f32⟩ : BufTy).Contents (Elt F) → (⟨S16384x2048, .f32⟩ : BufTy).Contents (Elt F) → (⟨S16384x2048, .f32⟩ : BufTy).Contents (Elt F)),
    binary main_v26 main_v39 main_v40 ((fun l r => Host.dotGeneral dot_S2x2048x2048_S16384x2048_S2x2048x16384_2_1_01_0_n_n none l r) : (⟨S2x2048x2048, .f32⟩ : BufTy).Contents (Elt F) → (⟨S16384x2048, .f32⟩ : BufTy).Contents (Elt F) → (⟨S2x2048x16384, .f32⟩ : BufTy).Contents (Elt F)),
    unary main_v40 main_v41 ((extractStridedSlice S2x2048x8192 ![0, 0, 0] · slices_S2x2048x16384_S2x2048x8192_0_0_0) : (⟨S2x2048x16384, .f32⟩ : BufTy).Contents (Elt F) → (⟨S2x2048x8192, .f32⟩ : BufTy).Contents (Elt F)),
    unary main_v40 main_v42 ((extractStridedSlice S2x2048x8192 ![0, 0, 8192] · slices_S2x2048x16384_S2x2048x8192_0_0_8192) : (⟨S2x2048x16384, .f32⟩ : BufTy).Contents (Elt F) → (⟨S2x2048x8192, .f32⟩ : BufTy).Contents (Elt F)),
    TRef.unary (TRef.of (T := ⟨S2x2048x8192, .f32⟩) main_v41) (TRef.of (T := ⟨S2x2048x8192, .f32⟩) main_call6_v0) Host.negf,
    TRef.unary (TRef.of (T := ⟨S2x2048x8192, .f32⟩) main_call6_v0) (TRef.of (T := ⟨S2x2048x8192, .f32⟩) main_call6_v1) Host.exp,
    TRef.nullary (TRef.of (T := ⟨S_, .f32⟩) main_call6_cst) (constant S_ .f32 0x3F800000#32),
    TRef.unary (TRef.of (T := ⟨S_, .f32⟩) main_call6_cst) (TRef.of (T := ⟨S2x2048x8192, .f32⟩) main_call6_v2) (broadcastInDim S2x2048x8192 ![] bcast_S_S2x2048x8192),
    TRef.binary (TRef.of (T := ⟨S2x2048x8192, .f32⟩) main_call6_v2) (TRef.of (T := ⟨S2x2048x8192, .f32⟩) main_call6_v1) (TRef.of (T := ⟨S2x2048x8192, .f32⟩) main_call6_v3) addf,
    TRef.nullary (TRef.of (T := ⟨S_, .f32⟩) main_call6_cst_0) (constant S_ .f32 0x3F800000#32),
    TRef.unary (TRef.of (T := ⟨S_, .f32⟩) main_call6_cst_0) (TRef.of (T := ⟨S2x2048x8192, .f32⟩) main_call6_v4) (broadcastInDim S2x2048x8192 ![] bcast_S_S2x2048x8192),
    TRef.binary (TRef.of (T := ⟨S2x2048x8192, .f32⟩) main_call6_v4) (TRef.of (T := ⟨S2x2048x8192, .f32⟩) main_call6_v3) (TRef.of (T := ⟨S2x2048x8192, .f32⟩) main_call6_v5) Host.divf,
    TRef.binary (TRef.of (T := ⟨S2x2048x8192, .f32⟩) main_v41) (TRef.of (T := ⟨S2x2048x8192, .f32⟩) main_call6_v5) (TRef.of (T := ⟨S2x2048x8192, .f32⟩) main_v43) mulf,
    binary main_v43 main_v42 main_v44 (mulf : (⟨S2x2048x8192, .f32⟩ : BufTy).Contents (Elt F) → (⟨S2x2048x8192, .f32⟩ : BufTy).Contents (Elt F) → (⟨S2x2048x8192, .f32⟩ : BufTy).Contents (Elt F)),
    binary main_v44 main_v44 main_v45 (mulf : (⟨S2x2048x8192, .f32⟩ : BufTy).Contents (Elt F) → (⟨S2x2048x8192, .f32⟩ : BufTy).Contents (Elt F) → (⟨S2x2048x8192, .f32⟩ : BufTy).Contents (Elt F)),
    nullary main_cst_13 (constant S_ .f32 0x00000000#32),
    binary main_v45 main_cst_13 main_v46 ((fun x v => Host.reduceAdd x v reducesTo_S2x2048x8192_S2x2048_d2 h_S_) : (⟨S2x2048x8192, .f32⟩ : BufTy).Contents (Elt F) → (⟨S_, .f32⟩ : BufTy).Contents (Elt F) → (⟨S2x2048, .f32⟩ : BufTy).Contents (Elt F)),
    unary main_v46 main_v47 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_14 (constant S_ .f32 0x46000000#32),
    unary main_cst_14 main_v48 (broadcastInDim S2x2048x1 ![] bcast_S_S2x2048x1 : (⟨S_, .f32⟩ : BufTy).Contents (Elt F) → (⟨S2x2048x1, .f32⟩ : BufTy).Contents (Elt F)),
    binary main_v47 main_v48 main_v49 (Host.divf : (⟨S2x2048x1, .f32⟩ : BufTy).Contents (Elt F) → (⟨S2x2048x1, .f32⟩ : BufTy).Contents (Elt F) → (⟨S2x2048x1, .f32⟩ : BufTy).Contents (Elt F)),
    nullary main_cst_15 (constant S_ .f32 0x3727C5AC#32),
    unary main_cst_15 main_v50 (broadcastInDim S2x2048x1 ![] bcast_S_S2x2048x1 : (⟨S_, .f32⟩ : BufTy).Contents (Elt F) → (⟨S2x2048x1, .f32⟩ : BufTy).Contents (Elt F)),
    binary main_v49 main_v50 main_v51 (addf : (⟨S2x2048x1, .f32⟩ : BufTy).Contents (Elt F) → (⟨S2x2048x1, .f32⟩ : BufTy).Contents (Elt F) → (⟨S2x2048x1, .f32⟩ : BufTy).Contents (Elt F)),
    unary main_v51 main_v52 (Host.rsqrt : (⟨S2x2048x1, .f32⟩ : BufTy).Contents (Elt F) → (⟨S2x2048x1, .f32⟩ : BufTy).Contents (Elt F)),
    unary main_v52 main_v53 (broadcastInDim S2x2048x8192 ![0, 1, 2] bcast_S2x2048x1_S2x2048x8192_0_1_2 : (⟨S2x2048x1, .f32⟩ : BufTy).Contents (Elt F) → (⟨S2x2048x8192, .f32⟩ : BufTy).Contents (Elt F)),
    binary main_v44 main_v53 main_v54 (mulf : (⟨S2x2048x8192, .f32⟩ : BufTy).Contents (Elt F) → (⟨S2x2048x8192, .f32⟩ : BufTy).Contents (Elt F) → (⟨S2x2048x8192, .f32⟩ : BufTy).Contents (Elt F)),
    unary main_arg4 main_v55 (broadcastInDim S1x1x8192 ![2] bcast_S8192_S1x1x8192_2 : (⟨S8192, .f32⟩ : BufTy).Contents (Elt F) → (⟨S1x1x8192, .f32⟩ : BufTy).Contents (Elt F)),
    unary main_v55 main_v56 (broadcastInDim S2x2048x8192 ![0, 1, 2] bcast_S1x1x8192_S2x2048x8192_0_1_2 : (⟨S1x1x8192, .f32⟩ : BufTy).Contents (Elt F) → (⟨S2x2048x8192, .f32⟩ : BufTy).Contents (Elt F)),
    binary main_v54 main_v56 main_v57 (mulf : (⟨S2x2048x8192, .f32⟩ : BufTy).Contents (Elt F) → (⟨S2x2048x8192, .f32⟩ : BufTy).Contents (Elt F) → (⟨S2x2048x8192, .f32⟩ : BufTy).Contents (Elt F)),
    unary main_v57 main_v58 (Host.absf : (⟨S2x2048x8192, .f32⟩ : BufTy).Contents (Elt F) → (⟨S2x2048x8192, .f32⟩ : BufTy).Contents (Elt F)),
    nullary main_cst_16 (constant S_ .f32 0xFF800000#32),
    binary main_v58 main_cst_16 main_v59 ((fun x v => Host.reduce FloatOps.maximumf x v reducesTo_S2x2048x8192_S2x2048_d2 h_S_) : (⟨S2x2048x8192, .f32⟩ : BufTy).Contents (Elt F) → (⟨S_, .f32⟩ : BufTy).Contents (Elt F) → (⟨S2x2048, .f32⟩ : BufTy).Contents (Elt F)),
    unary main_v59 main_v60 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_17 (constant S_ .f32 0x3727C5AC#32),
    TRef.unary (TRef.of (T := ⟨S_, .f32⟩) main_cst_17) (TRef.of (T := ⟨S_, .f32⟩) main_call7_v0) id,
    TRef.unary (TRef.of (T := ⟨S_, .f32⟩) main_call7_v0) (TRef.of (T := ⟨S2x2048x1, .f32⟩) main_call7_v1) (broadcastInDim S2x2048x1 ![] bcast_S_S2x2048x1),
    TRef.binary (TRef.of (T := ⟨S2x2048x1, .f32⟩) main_call7_v1) (TRef.of (T := ⟨S2x2048x1, .f32⟩) main_v60) (TRef.of (T := ⟨S2x2048x1, .f32⟩) main_v61) maximumf,
    nullary main_cst_18 (constant S_ .f32 0x42FE0000#32),
    unary main_cst_18 main_v62 (broadcastInDim S2x2048x1 ![] bcast_S_S2x2048x1 : (⟨S_, .f32⟩ : BufTy).Contents (Elt F) → (⟨S2x2048x1, .f32⟩ : BufTy).Contents (Elt F)),
    binary main_v62 main_v61 main_v63 (Host.divf : (⟨S2x2048x1, .f32⟩ : BufTy).Contents (Elt F) → (⟨S2x2048x1, .f32⟩ : BufTy).Contents (Elt F) → (⟨S2x2048x1, .f32⟩ : BufTy).Contents (Elt F)),
    unary main_v63 main_v64 (broadcastInDim S2x2048x8192 ![0, 1, 2] bcast_S2x2048x1_S2x2048x8192_0_1_2 : (⟨S2x2048x1, .f32⟩ : BufTy).Contents (Elt F) → (⟨S2x2048x8192, .f32⟩ : BufTy).Contents (Elt F)),
    binary main_v57 main_v64 main_v65 (mulf : (⟨S2x2048x8192, .f32⟩ : BufTy).Contents (Elt F) → (⟨S2x2048x8192, .f32⟩ : BufTy).Contents (Elt F) → (⟨S2x2048x8192, .f32⟩ : BufTy).Contents (Elt F)),
    TRef.unary (TRef.of (T := ⟨S2x2048x8192, .f32⟩) main_v65) (TRef.of (T := ⟨S2x2048x8192, .f32⟩) main_v66) Host.roundeven,
    nullary main_cst_19 (constant S_ .f32 0xC3000000#32),
    nullary main_cst_20 (constant S_ .f32 0x42FE0000#32),
    TRef.unary (TRef.of (T := ⟨S_, .f32⟩) main_cst_19) (TRef.of (T := ⟨S_, .f32⟩) main_call9_v0) id,
    TRef.unary (TRef.of (T := ⟨S_, .f32⟩) main_call9_v0) (TRef.of (T := ⟨S2x2048x8192, .f32⟩) main_call9_v1) (broadcastInDim S2x2048x8192 ![] bcast_S_S2x2048x8192),
    TRef.binary (TRef.of (T := ⟨S2x2048x8192, .f32⟩) main_call9_v1) (TRef.of (T := ⟨S2x2048x8192, .f32⟩) main_v66) (TRef.of (T := ⟨S2x2048x8192, .f32⟩) main_call9_v2) maximumf,
    TRef.unary (TRef.of (T := ⟨S_, .f32⟩) main_cst_20) (TRef.of (T := ⟨S_, .f32⟩) main_call9_v3) id,
    TRef.unary (TRef.of (T := ⟨S_, .f32⟩) main_call9_v3) (TRef.of (T := ⟨S2x2048x8192, .f32⟩) main_call9_v4) (broadcastInDim S2x2048x8192 ![] bcast_S_S2x2048x8192),
    TRef.binary (TRef.of (T := ⟨S2x2048x8192, .f32⟩) main_call9_v4) (TRef.of (T := ⟨S2x2048x8192, .f32⟩) main_call9_v2) (TRef.of (T := ⟨S2x2048x8192, .f32⟩) main_v67) minimumf,
    unary main_v63 main_v68 (broadcastInDim S2x2048x8192 ![0, 1, 2] bcast_S2x2048x1_S2x2048x8192_0_1_2 : (⟨S2x2048x1, .f32⟩ : BufTy).Contents (Elt F) → (⟨S2x2048x8192, .f32⟩ : BufTy).Contents (Elt F)),
    binary main_v67 main_v68 main_v69 (Host.divf : (⟨S2x2048x8192, .f32⟩ : BufTy).Contents (Elt F) → (⟨S2x2048x8192, .f32⟩ : BufTy).Contents (Elt F) → (⟨S2x2048x8192, .f32⟩ : BufTy).Contents (Elt F)),
    binary main_v69 main_v57 main_v70 (subf : (⟨S2x2048x8192, .f32⟩ : BufTy).Contents (Elt F) → (⟨S2x2048x8192, .f32⟩ : BufTy).Contents (Elt F) → (⟨S2x2048x8192, .f32⟩ : BufTy).Contents (Elt F)),
    binary main_v57 main_v70 main_v71 (addf : (⟨S2x2048x8192, .f32⟩ : BufTy).Contents (Elt F) → (⟨S2x2048x8192, .f32⟩ : BufTy).Contents (Elt F) → (⟨S2x2048x8192, .f32⟩ : BufTy).Contents (Elt F)),
    unary main_arg3 main_v72 (Host.absf : (⟨S2048x8192, .f32⟩ : BufTy).Contents (Elt F) → (⟨S2048x8192, .f32⟩ : BufTy).Contents (Elt F)),
    nullary main_cst_21 (constant S_ .f32 0x00000000#32),
    binary main_v72 main_cst_21 main_v73 ((fun x v => Host.reduceAdd x v reducesTo_S2048x8192_S_d0_1 h_S_) : (⟨S2048x8192, .f32⟩ : BufTy).Contents (Elt F) → (⟨S_, .f32⟩ : BufTy).Contents (Elt F) → (⟨S_, .f32⟩ : BufTy).Contents (Elt F)),
    nullary main_cst_22 (constant S_ .f32 0x4B800000#32),
    binary main_v73 main_cst_22 main_v74 (Host.divf : (⟨S_, .f32⟩ : BufTy).Contents (Elt F) → (⟨S_, .f32⟩ : BufTy).Contents (Elt F) → (⟨S_, .f32⟩ : BufTy).Contents (Elt F)),
    nullary main_cst_23 (constant S_ .f32 0x3727C5AC#32),
    TRef.unary (TRef.of (T := ⟨S_, .f32⟩) main_cst_23) (TRef.of (T := ⟨S_, .f32⟩) main_call10_v0) id,
    TRef.binary (TRef.of (T := ⟨S_, .f32⟩) main_call10_v0) (TRef.of (T := ⟨S_, .f32⟩) main_v74) (TRef.of (T := ⟨S_, .f32⟩) main_v75) maximumf,
    nullary main_cst_24 (constant S_ .f32 0x3F800000#32),
    binary main_cst_24 main_v75 main_v76 (Host.divf : (⟨S_, .f32⟩ : BufTy).Contents (Elt F) → (⟨S_, .f32⟩ : BufTy).Contents (Elt F) → (⟨S_, .f32⟩ : BufTy).Contents (Elt F)),
    unary main_v76 main_v77 (broadcastInDim S2048x8192 ![] bcast_S_S2048x8192 : (⟨S_, .f32⟩ : BufTy).Contents (Elt F) → (⟨S2048x8192, .f32⟩ : BufTy).Contents (Elt F)),
    binary main_arg3 main_v77 main_v78 (mulf : (⟨S2048x8192, .f32⟩ : BufTy).Contents (Elt F) → (⟨S2048x8192, .f32⟩ : BufTy).Contents (Elt F) → (⟨S2048x8192, .f32⟩ : BufTy).Contents (Elt F)),
    TRef.unary (TRef.of (T := ⟨S2048x8192, .f32⟩) main_v78) (TRef.of (T := ⟨S2048x8192, .f32⟩) main_v79) Host.roundeven,
    nullary main_cst_25 (constant S_ .f32 0xBF800000#32),
    nullary main_cst_26 (constant S_ .f32 0x3F800000#32),
    TRef.unary (TRef.of (T := ⟨S_, .f32⟩) main_cst_25) (TRef.of (T := ⟨S_, .f32⟩) main_call12_v0) id,
    TRef.unary (TRef.of (T := ⟨S_, .f32⟩) main_call12_v0) (TRef.of (T := ⟨S2048x8192, .f32⟩) main_call12_v1) (broadcastInDim S2048x8192 ![] bcast_S_S2048x8192),
    TRef.binary (TRef.of (T := ⟨S2048x8192, .f32⟩) main_call12_v1) (TRef.of (T := ⟨S2048x8192, .f32⟩) main_v79) (TRef.of (T := ⟨S2048x8192, .f32⟩) main_call12_v2) maximumf,
    TRef.unary (TRef.of (T := ⟨S_, .f32⟩) main_cst_26) (TRef.of (T := ⟨S_, .f32⟩) main_call12_v3) id,
    TRef.unary (TRef.of (T := ⟨S_, .f32⟩) main_call12_v3) (TRef.of (T := ⟨S2048x8192, .f32⟩) main_call12_v4) (broadcastInDim S2048x8192 ![] bcast_S_S2048x8192),
    TRef.binary (TRef.of (T := ⟨S2048x8192, .f32⟩) main_call12_v4) (TRef.of (T := ⟨S2048x8192, .f32⟩) main_call12_v2) (TRef.of (T := ⟨S2048x8192, .f32⟩) main_v80) minimumf,
    unary main_v76 main_v81 (broadcastInDim S2048x8192 ![] bcast_S_S2048x8192 : (⟨S_, .f32⟩ : BufTy).Contents (Elt F) → (⟨S2048x8192, .f32⟩ : BufTy).Contents (Elt F)),
    binary main_v80 main_v81 main_v82 (Host.divf : (⟨S2048x8192, .f32⟩ : BufTy).Contents (Elt F) → (⟨S2048x8192, .f32⟩ : BufTy).Contents (Elt F) → (⟨S2048x8192, .f32⟩ : BufTy).Contents (Elt F)),
    binary main_v82 main_arg3 main_v83 (subf : (⟨S2048x8192, .f32⟩ : BufTy).Contents (Elt F) → (⟨S2048x8192, .f32⟩ : BufTy).Contents (Elt F) → (⟨S2048x8192, .f32⟩ : BufTy).Contents (Elt F)),
    binary main_arg3 main_v83 main_v84 (addf : (⟨S2048x8192, .f32⟩ : BufTy).Contents (Elt F) → (⟨S2048x8192, .f32⟩ : BufTy).Contents (Elt F) → (⟨S2048x8192, .f32⟩ : BufTy).Contents (Elt F)),
    binary main_v71 main_v84 main_v85 ((fun l r => Host.dotGeneral dot_S2x2048x8192_S2048x8192_S2x2048x2048_2_1_01_0_n_n none l r) : (⟨S2x2048x8192, .f32⟩ : BufTy).Contents (Elt F) → (⟨S2048x8192, .f32⟩ : BufTy).Contents (Elt F) → (⟨S2x2048x2048, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., nullary_bufs_sub .., binary_bufs_sub .., unary_bufs_sub .., nullary_bufs_sub .., unary_bufs_sub .., unary_bufs_sub .., binary_bufs_sub .., nullary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., unary_bufs_sub .., nullary_bufs_sub .., binary_bufs_sub .., nullary_bufs_sub .., binary_bufs_sub .., nullary_bufs_sub .., unary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., nullary_bufs_sub .., binary_bufs_sub .., unary_bufs_sub .., nullary_bufs_sub .., unary_bufs_sub .., unary_bufs_sub .., binary_bufs_sub .., nullary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., unary_bufs_sub .., nullary_bufs_sub .., binary_bufs_sub .., nullary_bufs_sub .., binary_bufs_sub .., nullary_bufs_sub .., unary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., binary_bufs_sub ..⟩

/-- One operation of the line, read forward: after a `nullary` the result buffer holds the value and every other buffer what it held. -/
theorem step_nullary {y : Ref sig .tc} {v : y.ty.Contents (Elt F)} {hy} {rest : List (HloOp τ sig (Elt F))}
    {W : Valuation τ sig (Elt F)} {r : Ref sig .tc} {R : (Proc.devRef (τ := τ) .tc r).ty.Contents (Elt F)}
    (h : ∀ W' : Valuation τ sig (Elt F), W' (Proc.devRef .tc y) = v →
      (∀ r' : Ref sig .tc, r' ≠ y → W' (Proc.devRef .tc r') = W (Proc.devRef .tc r')) → after rest W' (Proc.devRef .tc r) = R) :
    after (nullary y v hy :: rest) W (Proc.devRef .tc r) = R :=
  h _ (nullary_result y v hy W) fun _ hne => nullary_result_ne y v hy W hne

/-- After a `unary` the result buffer holds the function of the operand's contents. -/
theorem step_unary {x y : Ref sig .tc} {f : x.ty.Contents (Elt F) → y.ty.Contents (Elt F)} {hx hy}
    {rest : List (HloOp τ sig (Elt F))} {W : Valuation τ sig (Elt F)} {r : Ref sig .tc}
    {R : (Proc.devRef (τ := τ) .tc r).ty.Contents (Elt F)} {vx : x.ty.Contents (Elt F)}
    (hvx : W (Proc.devRef .tc x) = vx)
    (h : ∀ W' : Valuation τ sig (Elt F), W' (Proc.devRef .tc y) = f vx →
      (∀ r' : Ref sig .tc, r' ≠ y → W' (Proc.devRef .tc r') = W (Proc.devRef .tc r')) → after rest W' (Proc.devRef .tc r) = R) :
    after (unary x y f hx hy :: rest) W (Proc.devRef .tc r) = R :=
  h _ ((unary_result x y f hx hy W).trans (congrArg f hvx)) fun _ hne => unary_result_ne x y f hx hy W hne

/-- After a `binary` the result buffer holds the function of the two operands' contents. -/
theorem step_binary {a b y : Ref sig .tc} {f : a.ty.Contents (Elt F) → b.ty.Contents (Elt F) → y.ty.Contents (Elt F)} {ha hb hy}
    {rest : List (HloOp τ sig (Elt F))} {W : Valuation τ sig (Elt F)} {r : Ref sig .tc}
    {R : (Proc.devRef (τ := τ) .tc r).ty.Contents (Elt F)} {va : a.ty.Contents (Elt F)} {vb : b.ty.Contents (Elt F)}
    (hva : W (Proc.devRef .tc a) = va) (hvb : W (Proc.devRef .tc b) = vb)
    (h : ∀ W' : Valuation τ sig (Elt F), W' (Proc.devRef .tc y) = f va vb →
      (∀ r' : Ref sig .tc, r' ≠ y → W' (Proc.devRef .tc r') = W (Proc.devRef .tc r')) → after rest W' (Proc.devRef .tc r) = R) :
    after (binary a b y f ha hb hy :: rest) W (Proc.devRef .tc r) = R :=
  h _ ((binary_result a b y f ha hb hy W).trans (congr (congrArg f hva) hvb)) fun _ hne => binary_result_ne a b y f ha hb hy W hne

/-- Contents moved to a typed reference's buffer type and back are unchanged. -/
theorem ofBuf_toBuf {T : BufTy} (x : TRef sig T) (v : T.Contents (Elt F)) : x.ofBuf (x.toBuf v) = v := by
  obtain ⟨r, rfl, _, _⟩ := x; rfl

/-- The same three steps for an operation of a called function, whose operands and result are read at the called
    function's own types. -/
theorem step_tnullary {Ty : BufTy} {y : TRef sig Ty} {v : Ty.Contents (Elt F)} {rest : List (HloOp τ sig (Elt F))}
    {W : Valuation τ sig (Elt F)} {r : Ref sig .tc} {R : (Proc.devRef (τ := τ) .tc r).ty.Contents (Elt F)}
    (h : ∀ W' : Valuation τ sig (Elt F), y.ofBuf (W' (Proc.devRef .tc y.ref)) = v →
      (∀ r' : Ref sig .tc, r' ≠ y.ref → W' (Proc.devRef .tc r') = W (Proc.devRef .tc r')) → after rest W' (Proc.devRef .tc r) = R) :
    after (TRef.nullary y v :: rest) W (Proc.devRef .tc r) = R :=
  h _ ((congrArg y.ofBuf (nullary_result y.ref (y.toBuf v) y.dev W)).trans (ofBuf_toBuf y v))
    fun _ hne => nullary_result_ne y.ref (y.toBuf v) y.dev W hne

theorem step_tunary {Tx Ty : BufTy} {x : TRef sig Tx} {y : TRef sig Ty} {f : Tx.Contents (Elt F) → Ty.Contents (Elt F)}
    {rest : List (HloOp τ sig (Elt F))} {W : Valuation τ sig (Elt F)} {r : Ref sig .tc}
    {R : (Proc.devRef (τ := τ) .tc r).ty.Contents (Elt F)} {vx : Tx.Contents (Elt F)}
    (hvx : x.ofBuf (W (Proc.devRef .tc x.ref)) = vx)
    (h : ∀ W' : Valuation τ sig (Elt F), y.ofBuf (W' (Proc.devRef .tc y.ref)) = f vx →
      (∀ r' : Ref sig .tc, r' ≠ y.ref → W' (Proc.devRef .tc r') = W (Proc.devRef .tc r')) → after rest W' (Proc.devRef .tc r) = R) :
    after (TRef.unary x y f :: rest) W (Proc.devRef .tc r) = R :=
  h _ ((congrArg y.ofBuf (unary_result x.ref y.ref (fun u => y.toBuf (f (x.ofBuf u))) x.dev y.dev W)).trans
      ((ofBuf_toBuf y _).trans (congrArg f hvx)))
    fun _ hne => unary_result_ne x.ref y.ref (fun u => y.toBuf (f (x.ofBuf u))) x.dev y.dev W hne

theorem step_tbinary {Ta Tb Ty : BufTy} {a : TRef sig Ta} {b : TRef sig Tb} {y : TRef sig Ty}
    {f : Ta.Contents (Elt F) → Tb.Contents (Elt F) → Ty.Contents (Elt F)}
    {rest : List (HloOp τ sig (Elt F))} {W : Valuation τ sig (Elt F)} {r : Ref sig .tc}
    {R : (Proc.devRef (τ := τ) .tc r).ty.Contents (Elt F)} {va : Ta.Contents (Elt F)} {vb : Tb.Contents (Elt F)}
    (hva : a.ofBuf (W (Proc.devRef .tc a.ref)) = va) (hvb : b.ofBuf (W (Proc.devRef .tc b.ref)) = vb)
    (h : ∀ W' : Valuation τ sig (Elt F), y.ofBuf (W' (Proc.devRef .tc y.ref)) = f va vb →
      (∀ r' : Ref sig .tc, r' ≠ y.ref → W' (Proc.devRef .tc r') = W (Proc.devRef .tc r')) → after rest W' (Proc.devRef .tc r) = R) :
    after (TRef.binary a b y f :: rest) W (Proc.devRef .tc r) = R :=
  h _ ((congrArg y.ofBuf (binary_result a.ref b.ref y.ref (fun u v => y.toBuf (f (a.ofBuf u) (b.ofBuf v))) a.dev b.dev y.dev W)).trans
      ((ofBuf_toBuf y _).trans (congr (congrArg f hva) hvb)))
    fun _ hne => binary_result_ne a.ref b.ref y.ref (fun u v => y.toBuf (f (a.ofBuf u) (b.ofBuf v))) a.dev b.dev y.dev W hne

end Cert.ReferenceIdeal.ValueQ

end
-- ==== Proof.RefRunQ.lean ====
/-
  The reference program's run, stated against the stages of its read: on every device, from any memory with zero
  counters, every weakly fair execution of @main terminates with the result buffer at the last stage (the second product)
  as a function of the five arguments' launch contents, and the arguments unchanged. The result is read forward through
  the 148 operations: at each operation the buffers still to be read hold their stages, and the new result buffer holds
  its stage because that stage is, by definition, the operation's function of its operands' stages.
-/
import proofs.«126920_j38886633898328_2_alg».proof.Proof.RefRunQOps
import proofs.«126920_j38886633898328_2_alg».proof.Proof.RefReadP

noncomputable section

namespace Cert.ReferenceIdeal.ValueQ

open Cert.ReferenceIdeal Cert.ReferenceIdeal.Gen Cert.ReferenceIdeal.ReadP Idealize.ShloMosaic Idealize.ShloMosaic.TcCoe Idealize.SL.Sem
  Idealize.ShloMosaic.StableHlo

variable {F : FTy → Type} [FloatOps F]

set_option maxRecDepth 65536 in
set_option maxHeartbeats 4000000 in
/-- The line read forward, one operation at a time: the last buffer ends at the last stage of the reference read. -/
theorem after_ops (W0 : Valuation τ sig (Elt F))
    (a0 : (⟨S2x2048x2048, .f32⟩ : BufTy).Contents (Elt F))
    (a1 : (⟨S16384x2048, .f32⟩ : BufTy).Contents (Elt F))
    (a2 : (⟨S2048, .f32⟩ : BufTy).Contents (Elt F))
    (a3 : (⟨S2048x8192, .f32⟩ : BufTy).Contents (Elt F))
    (a4 : (⟨S8192, .f32⟩ : BufTy).Contents (Elt F))
    (h0_main_arg0 : W0 (Proc.devRef .tc main_arg0) = a0)
    (h0_main_arg2 : W0 (Proc.devRef .tc main_arg2) = a2)
    (h0_main_arg1 : W0 (Proc.devRef .tc main_arg1) = a1)
    (h0_main_arg4 : W0 (Proc.devRef .tc main_arg4) = a4)
    (h0_main_arg3 : W0 (Proc.devRef .tc main_arg3) = a3) :
    after ops W0 (Proc.devRef .tc main_v85) = val_main_v85 (F := F) a0 a1 a2 a3 a4 := by
  refine step_binary h0_main_arg0 h0_main_arg0 fun W1 hy hne => ?_
  have h1_main_v0 : W1 (Proc.devRef .tc main_v0) = val_main_v0 (F := F) a0 := hy; have h1_main_arg0 := (hne main_arg0 (by decide)).trans h0_main_arg0; have h1_main_arg2 := (hne main_arg2 (by decide)).trans h0_main_arg2; have h1_main_arg1 := (hne main_arg1 (by decide)).trans h0_main_arg1; have h1_main_arg4 := (hne main_arg4 (by decide)).trans h0_main_arg4; have h1_main_arg3 := (hne main_arg3 (by decide)).trans h0_main_arg3; clear hy hne h0_main_arg0 h0_main_arg2 h0_main_arg1 h0_main_arg4 h0_main_arg3 W0
  refine step_nullary fun W2 hy hne => ?_
  have h2_main_cst : W2 (Proc.devRef .tc main_cst) = val_main_cst (F := F) := hy; have h2_main_arg0 := (hne main_arg0 (by decide)).trans h1_main_arg0; have h2_main_arg2 := (hne main_arg2 (by decide)).trans h1_main_arg2; have h2_main_arg1 := (hne main_arg1 (by decide)).trans h1_main_arg1; have h2_main_arg4 := (hne main_arg4 (by decide)).trans h1_main_arg4; have h2_main_arg3 := (hne main_arg3 (by decide)).trans h1_main_arg3; have h2_main_v0 := (hne main_v0 (by decide)).trans h1_main_v0; clear hy hne h1_main_arg0 h1_main_arg2 h1_main_arg1 h1_main_arg4 h1_main_arg3 h1_main_v0 W1
  refine step_binary h2_main_v0 h2_main_cst fun W3 hy hne => ?_
  have h3_main_v1 : W3 (Proc.devRef .tc main_v1) = val_main_v1 (F := F) a0 := hy; have h3_main_arg0 := (hne main_arg0 (by decide)).trans h2_main_arg0; have h3_main_arg2 := (hne main_arg2 (by decide)).trans h2_main_arg2; have h3_main_arg1 := (hne main_arg1 (by decide)).trans h2_main_arg1; have h3_main_arg4 := (hne main_arg4 (by decide)).trans h2_main_arg4; have h3_main_arg3 := (hne main_arg3 (by decide)).trans h2_main_arg3; clear hy hne h2_main_arg0 h2_main_arg2 h2_main_arg1 h2_main_arg4 h2_main_arg3 h2_main_v0 h2_main_cst W2
  refine step_unary h3_main_v1 fun W4 hy hne => ?_
  have h4_main_v2 : W4 (Proc.devRef .tc main_v2) = val_main_v2 (F := F) a0 := hy; have h4_main_arg0 := (hne main_arg0 (by decide)).trans h3_main_arg0; have h4_main_arg2 := (hne main_arg2 (by decide)).trans h3_main_arg2; have h4_main_arg1 := (hne main_arg1 (by decide)).trans h3_main_arg1; have h4_main_arg4 := (hne main_arg4 (by decide)).trans h3_main_arg4; have h4_main_arg3 := (hne main_arg3 (by decide)).trans h3_main_arg3; clear hy hne h3_main_arg0 h3_main_arg2 h3_main_arg1 h3_main_arg4 h3_main_arg3 h3_main_v1 W3
  refine step_nullary fun W5 hy hne => ?_
  have h5_main_cst_0 : W5 (Proc.devRef .tc main_cst_0) = val_main_cst_0 (F := F) := hy; have h5_main_arg0 := (hne main_arg0 (by decide)).trans h4_main_arg0; have h5_main_arg2 := (hne main_arg2 (by decide)).trans h4_main_arg2; have h5_main_arg1 := (hne main_arg1 (by decide)).trans h4_main_arg1; have h5_main_arg4 := (hne main_arg4 (by decide)).trans h4_main_arg4; have h5_main_arg3 := (hne main_arg3 (by decide)).trans h4_main_arg3; have h5_main_v2 := (hne main_v2 (by decide)).trans h4_main_v2; clear hy hne h4_main_arg0 h4_main_arg2 h4_main_arg1 h4_main_arg4 h4_main_arg3 h4_main_v2 W4
  refine step_unary h5_main_cst_0 fun W6 hy hne => ?_
  have h6_main_v3 : W6 (Proc.devRef .tc main_v3) = val_main_v3 (F := F) := hy; have h6_main_arg0 := (hne main_arg0 (by decide)).trans h5_main_arg0; have h6_main_arg2 := (hne main_arg2 (by decide)).trans h5_main_arg2; have h6_main_arg1 := (hne main_arg1 (by decide)).trans h5_main_arg1; have h6_main_arg4 := (hne main_arg4 (by decide)).trans h5_main_arg4; have h6_main_arg3 := (hne main_arg3 (by decide)).trans h5_main_arg3; have h6_main_v2 := (hne main_v2 (by decide)).trans h5_main_v2; clear hy hne h5_main_arg0 h5_main_arg2 h5_main_arg1 h5_main_arg4 h5_main_arg3 h5_main_v2 h5_main_cst_0 W5
  refine step_binary h6_main_v2 h6_main_v3 fun W7 hy hne => ?_
  have h7_main_v4 : W7 (Proc.devRef .tc main_v4) = val_main_v4 (F := F) a0 := hy; have h7_main_arg0 := (hne main_arg0 (by decide)).trans h6_main_arg0; have h7_main_arg2 := (hne main_arg2 (by decide)).trans h6_main_arg2; have h7_main_arg1 := (hne main_arg1 (by decide)).trans h6_main_arg1; have h7_main_arg4 := (hne main_arg4 (by decide)).trans h6_main_arg4; have h7_main_arg3 := (hne main_arg3 (by decide)).trans h6_main_arg3; clear hy hne h6_main_arg0 h6_main_arg2 h6_main_arg1 h6_main_arg4 h6_main_arg3 h6_main_v2 h6_main_v3 W6
  refine step_nullary fun W8 hy hne => ?_
  have h8_main_cst_1 : W8 (Proc.devRef .tc main_cst_1) = val_main_cst_1 (F := F) := hy; have h8_main_arg0 := (hne main_arg0 (by decide)).trans h7_main_arg0; have h8_main_arg2 := (hne main_arg2 (by decide)).trans h7_main_arg2; have h8_main_arg1 := (hne main_arg1 (by decide)).trans h7_main_arg1; have h8_main_arg4 := (hne main_arg4 (by decide)).trans h7_main_arg4; have h8_main_arg3 := (hne main_arg3 (by decide)).trans h7_main_arg3; have h8_main_v4 := (hne main_v4 (by decide)).trans h7_main_v4; clear hy hne h7_main_arg0 h7_main_arg2 h7_main_arg1 h7_main_arg4 h7_main_arg3 h7_main_v4 W7
  refine step_unary h8_main_cst_1 fun W9 hy hne => ?_
  have h9_main_v5 : W9 (Proc.devRef .tc main_v5) = val_main_v5 (F := F) := hy; have h9_main_arg0 := (hne main_arg0 (by decide)).trans h8_main_arg0; have h9_main_arg2 := (hne main_arg2 (by decide)).trans h8_main_arg2; have h9_main_arg1 := (hne main_arg1 (by decide)).trans h8_main_arg1; have h9_main_arg4 := (hne main_arg4 (by decide)).trans h8_main_arg4; have h9_main_arg3 := (hne main_arg3 (by decide)).trans h8_main_arg3; have h9_main_v4 := (hne main_v4 (by decide)).trans h8_main_v4; clear hy hne h8_main_arg0 h8_main_arg2 h8_main_arg1 h8_main_arg4 h8_main_arg3 h8_main_v4 h8_main_cst_1 W8
  refine step_binary h9_main_v4 h9_main_v5 fun W10 hy hne => ?_
  have h10_main_v6 : W10 (Proc.devRef .tc main_v6) = val_main_v6 (F := F) a0 := hy; have h10_main_arg0 := (hne main_arg0 (by decide)).trans h9_main_arg0; have h10_main_arg2 := (hne main_arg2 (by decide)).trans h9_main_arg2; have h10_main_arg1 := (hne main_arg1 (by decide)).trans h9_main_arg1; have h10_main_arg4 := (hne main_arg4 (by decide)).trans h9_main_arg4; have h10_main_arg3 := (hne main_arg3 (by decide)).trans h9_main_arg3; clear hy hne h9_main_arg0 h9_main_arg2 h9_main_arg1 h9_main_arg4 h9_main_arg3 h9_main_v4 h9_main_v5 W9
  refine step_unary h10_main_v6 fun W11 hy hne => ?_
  have h11_main_v7 : W11 (Proc.devRef .tc main_v7) = val_main_v7 (F := F) a0 := hy; have h11_main_arg0 := (hne main_arg0 (by decide)).trans h10_main_arg0; have h11_main_arg2 := (hne main_arg2 (by decide)).trans h10_main_arg2; have h11_main_arg1 := (hne main_arg1 (by decide)).trans h10_main_arg1; have h11_main_arg4 := (hne main_arg4 (by decide)).trans h10_main_arg4; have h11_main_arg3 := (hne main_arg3 (by decide)).trans h10_main_arg3; clear hy hne h10_main_arg0 h10_main_arg2 h10_main_arg1 h10_main_arg4 h10_main_arg3 h10_main_v6 W10
  refine step_unary h11_main_v7 fun W12 hy hne => ?_
  have h12_main_v8 : W12 (Proc.devRef .tc main_v8) = val_main_v8 (F := F) a0 := hy; have h12_main_arg0 := (hne main_arg0 (by decide)).trans h11_main_arg0; have h12_main_arg2 := (hne main_arg2 (by decide)).trans h11_main_arg2; have h12_main_arg1 := (hne main_arg1 (by decide)).trans h11_main_arg1; have h12_main_arg4 := (hne main_arg4 (by decide)).trans h11_main_arg4; have h12_main_arg3 := (hne main_arg3 (by decide)).trans h11_main_arg3; clear hy hne h11_main_arg0 h11_main_arg2 h11_main_arg1 h11_main_arg4 h11_main_arg3 h11_main_v7 W11
  refine step_binary h12_main_arg0 h12_main_v8 fun W13 hy hne => ?_
  have h13_main_v9 : W13 (Proc.devRef .tc main_v9) = val_main_v9 (F := F) a0 := hy; have h13_main_arg2 := (hne main_arg2 (by decide)).trans h12_main_arg2; have h13_main_arg1 := (hne main_arg1 (by decide)).trans h12_main_arg1; have h13_main_arg4 := (hne main_arg4 (by decide)).trans h12_main_arg4; have h13_main_arg3 := (hne main_arg3 (by decide)).trans h12_main_arg3; clear hy hne h12_main_arg0 h12_main_arg2 h12_main_arg1 h12_main_arg4 h12_main_arg3 h12_main_v8 W12
  refine step_unary h13_main_arg2 fun W14 hy hne => ?_
  have h14_main_v10 : W14 (Proc.devRef .tc main_v10) = val_main_v10 (F := F) a2 := hy; have h14_main_arg1 := (hne main_arg1 (by decide)).trans h13_main_arg1; have h14_main_arg4 := (hne main_arg4 (by decide)).trans h13_main_arg4; have h14_main_arg3 := (hne main_arg3 (by decide)).trans h13_main_arg3; have h14_main_v9 := (hne main_v9 (by decide)).trans h13_main_v9; clear hy hne h13_main_arg2 h13_main_arg1 h13_main_arg4 h13_main_arg3 h13_main_v9 W13
  refine step_unary h14_main_v10 fun W15 hy hne => ?_
  have h15_main_v11 : W15 (Proc.devRef .tc main_v11) = val_main_v11 (F := F) a2 := hy; have h15_main_arg1 := (hne main_arg1 (by decide)).trans h14_main_arg1; have h15_main_arg4 := (hne main_arg4 (by decide)).trans h14_main_arg4; have h15_main_arg3 := (hne main_arg3 (by decide)).trans h14_main_arg3; have h15_main_v9 := (hne main_v9 (by decide)).trans h14_main_v9; clear hy hne h14_main_arg1 h14_main_arg4 h14_main_arg3 h14_main_v9 h14_main_v10 W14
  refine step_binary h15_main_v9 h15_main_v11 fun W16 hy hne => ?_
  have h16_main_v12 : W16 (Proc.devRef .tc main_v12) = val_main_v12 (F := F) a0 a2 := hy; have h16_main_arg1 := (hne main_arg1 (by decide)).trans h15_main_arg1; have h16_main_arg4 := (hne main_arg4 (by decide)).trans h15_main_arg4; have h16_main_arg3 := (hne main_arg3 (by decide)).trans h15_main_arg3; clear hy hne h15_main_arg1 h15_main_arg4 h15_main_arg3 h15_main_v9 h15_main_v11 W15
  refine step_unary h16_main_v12 fun W17 hy hne => ?_
  have h17_main_v13 : W17 (Proc.devRef .tc main_v13) = val_main_v13 (F := F) a0 a2 := hy; have h17_main_arg1 := (hne main_arg1 (by decide)).trans h16_main_arg1; have h17_main_arg4 := (hne main_arg4 (by decide)).trans h16_main_arg4; have h17_main_arg3 := (hne main_arg3 (by decide)).trans h16_main_arg3; have h17_main_v12 := (hne main_v12 (by decide)).trans h16_main_v12; clear hy hne h16_main_arg1 h16_main_arg4 h16_main_arg3 h16_main_v12 W16
  refine step_nullary fun W18 hy hne => ?_
  have h18_main_cst_2 : W18 (Proc.devRef .tc main_cst_2) = val_main_cst_2 (F := F) := hy; have h18_main_arg1 := (hne main_arg1 (by decide)).trans h17_main_arg1; have h18_main_arg4 := (hne main_arg4 (by decide)).trans h17_main_arg4; have h18_main_arg3 := (hne main_arg3 (by decide)).trans h17_main_arg3; have h18_main_v12 := (hne main_v12 (by decide)).trans h17_main_v12; have h18_main_v13 := (hne main_v13 (by decide)).trans h17_main_v13; clear hy hne h17_main_arg1 h17_main_arg4 h17_main_arg3 h17_main_v12 h17_main_v13 W17
  refine step_binary h18_main_v13 h18_main_cst_2 fun W19 hy hne => ?_
  have h19_main_v14 : W19 (Proc.devRef .tc main_v14) = val_main_v14 (F := F) a0 a2 := hy; have h19_main_arg1 := (hne main_arg1 (by decide)).trans h18_main_arg1; have h19_main_arg4 := (hne main_arg4 (by decide)).trans h18_main_arg4; have h19_main_arg3 := (hne main_arg3 (by decide)).trans h18_main_arg3; have h19_main_v12 := (hne main_v12 (by decide)).trans h18_main_v12; clear hy hne h18_main_arg1 h18_main_arg4 h18_main_arg3 h18_main_v12 h18_main_v13 h18_main_cst_2 W18
  refine step_unary h19_main_v14 fun W20 hy hne => ?_
  have h20_main_v15 : W20 (Proc.devRef .tc main_v15) = val_main_v15 (F := F) a0 a2 := hy; have h20_main_arg1 := (hne main_arg1 (by decide)).trans h19_main_arg1; have h20_main_arg4 := (hne main_arg4 (by decide)).trans h19_main_arg4; have h20_main_arg3 := (hne main_arg3 (by decide)).trans h19_main_arg3; have h20_main_v12 := (hne main_v12 (by decide)).trans h19_main_v12; clear hy hne h19_main_arg1 h19_main_arg4 h19_main_arg3 h19_main_v12 h19_main_v14 W19
  refine step_nullary fun W21 hy hne => ?_
  have h21_main_cst_3 : W21 (Proc.devRef .tc main_cst_3) = val_main_cst_3 (F := F) := hy; have h21_main_arg1 := (hne main_arg1 (by decide)).trans h20_main_arg1; have h21_main_arg4 := (hne main_arg4 (by decide)).trans h20_main_arg4; have h21_main_arg3 := (hne main_arg3 (by decide)).trans h20_main_arg3; have h21_main_v12 := (hne main_v12 (by decide)).trans h20_main_v12; have h21_main_v15 := (hne main_v15 (by decide)).trans h20_main_v15; clear hy hne h20_main_arg1 h20_main_arg4 h20_main_arg3 h20_main_v12 h20_main_v15 W20
  refine step_tunary h21_main_cst_3 fun W22 hy hne => ?_
  have h22_main_call0_v0 : W22 (Proc.devRef .tc main_call0_v0) = val_main_call0_v0 (F := F) := hy; have h22_main_arg1 := (hne main_arg1 (by decide)).trans h21_main_arg1; have h22_main_arg4 := (hne main_arg4 (by decide)).trans h21_main_arg4; have h22_main_arg3 := (hne main_arg3 (by decide)).trans h21_main_arg3; have h22_main_v12 := (hne main_v12 (by decide)).trans h21_main_v12; have h22_main_v15 := (hne main_v15 (by decide)).trans h21_main_v15; clear hy hne h21_main_arg1 h21_main_arg4 h21_main_arg3 h21_main_v12 h21_main_v15 h21_main_cst_3 W21
  refine step_tunary h22_main_call0_v0 fun W23 hy hne => ?_
  have h23_main_call0_v1 : W23 (Proc.devRef .tc main_call0_v1) = val_main_call0_v1 (F := F) := hy; have h23_main_arg1 := (hne main_arg1 (by decide)).trans h22_main_arg1; have h23_main_arg4 := (hne main_arg4 (by decide)).trans h22_main_arg4; have h23_main_arg3 := (hne main_arg3 (by decide)).trans h22_main_arg3; have h23_main_v12 := (hne main_v12 (by decide)).trans h22_main_v12; have h23_main_v15 := (hne main_v15 (by decide)).trans h22_main_v15; clear hy hne h22_main_arg1 h22_main_arg4 h22_main_arg3 h22_main_v12 h22_main_v15 h22_main_call0_v0 W22
  refine step_tbinary h23_main_call0_v1 h23_main_v15 fun W24 hy hne => ?_
  have h24_main_v16 : W24 (Proc.devRef .tc main_v16) = val_main_v16 (F := F) a0 a2 := hy; have h24_main_arg1 := (hne main_arg1 (by decide)).trans h23_main_arg1; have h24_main_arg4 := (hne main_arg4 (by decide)).trans h23_main_arg4; have h24_main_arg3 := (hne main_arg3 (by decide)).trans h23_main_arg3; have h24_main_v12 := (hne main_v12 (by decide)).trans h23_main_v12; clear hy hne h23_main_arg1 h23_main_arg4 h23_main_arg3 h23_main_v12 h23_main_v15 h23_main_call0_v1 W23
  refine step_nullary fun W25 hy hne => ?_
  have h25_main_cst_4 : W25 (Proc.devRef .tc main_cst_4) = val_main_cst_4 (F := F) := hy; have h25_main_arg1 := (hne main_arg1 (by decide)).trans h24_main_arg1; have h25_main_arg4 := (hne main_arg4 (by decide)).trans h24_main_arg4; have h25_main_arg3 := (hne main_arg3 (by decide)).trans h24_main_arg3; have h25_main_v12 := (hne main_v12 (by decide)).trans h24_main_v12; have h25_main_v16 := (hne main_v16 (by decide)).trans h24_main_v16; clear hy hne h24_main_arg1 h24_main_arg4 h24_main_arg3 h24_main_v12 h24_main_v16 W24
  refine step_unary h25_main_cst_4 fun W26 hy hne => ?_
  have h26_main_v17 : W26 (Proc.devRef .tc main_v17) = val_main_v17 (F := F) := hy; have h26_main_arg1 := (hne main_arg1 (by decide)).trans h25_main_arg1; have h26_main_arg4 := (hne main_arg4 (by decide)).trans h25_main_arg4; have h26_main_arg3 := (hne main_arg3 (by decide)).trans h25_main_arg3; have h26_main_v12 := (hne main_v12 (by decide)).trans h25_main_v12; have h26_main_v16 := (hne main_v16 (by decide)).trans h25_main_v16; clear hy hne h25_main_arg1 h25_main_arg4 h25_main_arg3 h25_main_v12 h25_main_v16 h25_main_cst_4 W25
  refine step_binary h26_main_v17 h26_main_v16 fun W27 hy hne => ?_
  have h27_main_v18 : W27 (Proc.devRef .tc main_v18) = val_main_v18 (F := F) a0 a2 := hy; have h27_main_arg1 := (hne main_arg1 (by decide)).trans h26_main_arg1; have h27_main_arg4 := (hne main_arg4 (by decide)).trans h26_main_arg4; have h27_main_arg3 := (hne main_arg3 (by decide)).trans h26_main_arg3; have h27_main_v12 := (hne main_v12 (by decide)).trans h26_main_v12; clear hy hne h26_main_arg1 h26_main_arg4 h26_main_arg3 h26_main_v12 h26_main_v16 h26_main_v17 W26
  refine step_unary h27_main_v18 fun W28 hy hne => ?_
  have h28_main_v19 : W28 (Proc.devRef .tc main_v19) = val_main_v19 (F := F) a0 a2 := hy; have h28_main_arg1 := (hne main_arg1 (by decide)).trans h27_main_arg1; have h28_main_arg4 := (hne main_arg4 (by decide)).trans h27_main_arg4; have h28_main_arg3 := (hne main_arg3 (by decide)).trans h27_main_arg3; have h28_main_v12 := (hne main_v12 (by decide)).trans h27_main_v12; have h28_main_v18 := (hne main_v18 (by decide)).trans h27_main_v18; clear hy hne h27_main_arg1 h27_main_arg4 h27_main_arg3 h27_main_v12 h27_main_v18 W27
  refine step_binary h28_main_v12 h28_main_v19 fun W29 hy hne => ?_
  have h29_main_v20 : W29 (Proc.devRef .tc main_v20) = val_main_v20 (F := F) a0 a2 := hy; have h29_main_arg1 := (hne main_arg1 (by decide)).trans h28_main_arg1; have h29_main_arg4 := (hne main_arg4 (by decide)).trans h28_main_arg4; have h29_main_arg3 := (hne main_arg3 (by decide)).trans h28_main_arg3; have h29_main_v12 := (hne main_v12 (by decide)).trans h28_main_v12; have h29_main_v18 := (hne main_v18 (by decide)).trans h28_main_v18; clear hy hne h28_main_arg1 h28_main_arg4 h28_main_arg3 h28_main_v12 h28_main_v18 h28_main_v19 W28
  refine step_tunary h29_main_v20 fun W30 hy hne => ?_
  have h30_main_v21 : W30 (Proc.devRef .tc main_v21) = val_main_v21 (F := F) a0 a2 := hy; have h30_main_arg1 := (hne main_arg1 (by decide)).trans h29_main_arg1; have h30_main_arg4 := (hne main_arg4 (by decide)).trans h29_main_arg4; have h30_main_arg3 := (hne main_arg3 (by decide)).trans h29_main_arg3; have h30_main_v12 := (hne main_v12 (by decide)).trans h29_main_v12; have h30_main_v18 := (hne main_v18 (by decide)).trans h29_main_v18; clear hy hne h29_main_arg1 h29_main_arg4 h29_main_arg3 h29_main_v12 h29_main_v18 h29_main_v20 W29
  refine step_nullary fun W31 hy hne => ?_
  have h31_main_cst_5 : W31 (Proc.devRef .tc main_cst_5) = val_main_cst_5 (F := F) := hy; have h31_main_arg1 := (hne main_arg1 (by decide)).trans h30_main_arg1; have h31_main_arg4 := (hne main_arg4 (by decide)).trans h30_main_arg4; have h31_main_arg3 := (hne main_arg3 (by decide)).trans h30_main_arg3; have h31_main_v12 := (hne main_v12 (by decide)).trans h30_main_v12; have h31_main_v18 := (hne main_v18 (by decide)).trans h30_main_v18; have h31_main_v21 := (hne main_v21 (by decide)).trans h30_main_v21; clear hy hne h30_main_arg1 h30_main_arg4 h30_main_arg3 h30_main_v12 h30_main_v18 h30_main_v21 W30
  refine step_nullary fun W32 hy hne => ?_
  have h32_main_cst_6 : W32 (Proc.devRef .tc main_cst_6) = val_main_cst_6 (F := F) := hy; have h32_main_arg1 := (hne main_arg1 (by decide)).trans h31_main_arg1; have h32_main_arg4 := (hne main_arg4 (by decide)).trans h31_main_arg4; have h32_main_arg3 := (hne main_arg3 (by decide)).trans h31_main_arg3; have h32_main_v12 := (hne main_v12 (by decide)).trans h31_main_v12; have h32_main_v18 := (hne main_v18 (by decide)).trans h31_main_v18; have h32_main_v21 := (hne main_v21 (by decide)).trans h31_main_v21; have h32_main_cst_5 := (hne main_cst_5 (by decide)).trans h31_main_cst_5; clear hy hne h31_main_arg1 h31_main_arg4 h31_main_arg3 h31_main_v12 h31_main_v18 h31_main_v21 h31_main_cst_5 W31
  refine step_tunary h32_main_cst_5 fun W33 hy hne => ?_
  have h33_main_call2_v0 : W33 (Proc.devRef .tc main_call2_v0) = val_main_call2_v0 (F := F) := hy; have h33_main_arg1 := (hne main_arg1 (by decide)).trans h32_main_arg1; have h33_main_arg4 := (hne main_arg4 (by decide)).trans h32_main_arg4; have h33_main_arg3 := (hne main_arg3 (by decide)).trans h32_main_arg3; have h33_main_v12 := (hne main_v12 (by decide)).trans h32_main_v12; have h33_main_v18 := (hne main_v18 (by decide)).trans h32_main_v18; have h33_main_v21 := (hne main_v21 (by decide)).trans h32_main_v21; have h33_main_cst_6 := (hne main_cst_6 (by decide)).trans h32_main_cst_6; clear hy hne h32_main_arg1 h32_main_arg4 h32_main_arg3 h32_main_v12 h32_main_v18 h32_main_v21 h32_main_cst_5 h32_main_cst_6 W32
  refine step_tunary h33_main_call2_v0 fun W34 hy hne => ?_
  have h34_main_call2_v1 : W34 (Proc.devRef .tc main_call2_v1) = val_main_call2_v1 (F := F) := hy; have h34_main_arg1 := (hne main_arg1 (by decide)).trans h33_main_arg1; have h34_main_arg4 := (hne main_arg4 (by decide)).trans h33_main_arg4; have h34_main_arg3 := (hne main_arg3 (by decide)).trans h33_main_arg3; have h34_main_v12 := (hne main_v12 (by decide)).trans h33_main_v12; have h34_main_v18 := (hne main_v18 (by decide)).trans h33_main_v18; have h34_main_v21 := (hne main_v21 (by decide)).trans h33_main_v21; have h34_main_cst_6 := (hne main_cst_6 (by decide)).trans h33_main_cst_6; clear hy hne h33_main_arg1 h33_main_arg4 h33_main_arg3 h33_main_v12 h33_main_v18 h33_main_v21 h33_main_cst_6 h33_main_call2_v0 W33
  refine step_tbinary h34_main_call2_v1 h34_main_v21 fun W35 hy hne => ?_
  have h35_main_call2_v2 : W35 (Proc.devRef .tc main_call2_v2) = val_main_call2_v2 (F := F) a0 a2 := hy; have h35_main_arg1 := (hne main_arg1 (by decide)).trans h34_main_arg1; have h35_main_arg4 := (hne main_arg4 (by decide)).trans h34_main_arg4; have h35_main_arg3 := (hne main_arg3 (by decide)).trans h34_main_arg3; have h35_main_v12 := (hne main_v12 (by decide)).trans h34_main_v12; have h35_main_v18 := (hne main_v18 (by decide)).trans h34_main_v18; have h35_main_cst_6 := (hne main_cst_6 (by decide)).trans h34_main_cst_6; clear hy hne h34_main_arg1 h34_main_arg4 h34_main_arg3 h34_main_v12 h34_main_v18 h34_main_v21 h34_main_cst_6 h34_main_call2_v1 W34
  refine step_tunary h35_main_cst_6 fun W36 hy hne => ?_
  have h36_main_call2_v3 : W36 (Proc.devRef .tc main_call2_v3) = val_main_call2_v3 (F := F) := hy; have h36_main_arg1 := (hne main_arg1 (by decide)).trans h35_main_arg1; have h36_main_arg4 := (hne main_arg4 (by decide)).trans h35_main_arg4; have h36_main_arg3 := (hne main_arg3 (by decide)).trans h35_main_arg3; have h36_main_v12 := (hne main_v12 (by decide)).trans h35_main_v12; have h36_main_v18 := (hne main_v18 (by decide)).trans h35_main_v18; have h36_main_call2_v2 := (hne main_call2_v2 (by decide)).trans h35_main_call2_v2; clear hy hne h35_main_arg1 h35_main_arg4 h35_main_arg3 h35_main_v12 h35_main_v18 h35_main_cst_6 h35_main_call2_v2 W35
  refine step_tunary h36_main_call2_v3 fun W37 hy hne => ?_
  have h37_main_call2_v4 : W37 (Proc.devRef .tc main_call2_v4) = val_main_call2_v4 (F := F) := hy; have h37_main_arg1 := (hne main_arg1 (by decide)).trans h36_main_arg1; have h37_main_arg4 := (hne main_arg4 (by decide)).trans h36_main_arg4; have h37_main_arg3 := (hne main_arg3 (by decide)).trans h36_main_arg3; have h37_main_v12 := (hne main_v12 (by decide)).trans h36_main_v12; have h37_main_v18 := (hne main_v18 (by decide)).trans h36_main_v18; have h37_main_call2_v2 := (hne main_call2_v2 (by decide)).trans h36_main_call2_v2; clear hy hne h36_main_arg1 h36_main_arg4 h36_main_arg3 h36_main_v12 h36_main_v18 h36_main_call2_v2 h36_main_call2_v3 W36
  refine step_tbinary h37_main_call2_v4 h37_main_call2_v2 fun W38 hy hne => ?_
  have h38_main_v22 : W38 (Proc.devRef .tc main_v22) = val_main_v22 (F := F) a0 a2 := hy; have h38_main_arg1 := (hne main_arg1 (by decide)).trans h37_main_arg1; have h38_main_arg4 := (hne main_arg4 (by decide)).trans h37_main_arg4; have h38_main_arg3 := (hne main_arg3 (by decide)).trans h37_main_arg3; have h38_main_v12 := (hne main_v12 (by decide)).trans h37_main_v12; have h38_main_v18 := (hne main_v18 (by decide)).trans h37_main_v18; clear hy hne h37_main_arg1 h37_main_arg4 h37_main_arg3 h37_main_v12 h37_main_v18 h37_main_call2_v2 h37_main_call2_v4 W37
  refine step_unary h38_main_v18 fun W39 hy hne => ?_
  have h39_main_v23 : W39 (Proc.devRef .tc main_v23) = val_main_v23 (F := F) a0 a2 := hy; have h39_main_arg1 := (hne main_arg1 (by decide)).trans h38_main_arg1; have h39_main_arg4 := (hne main_arg4 (by decide)).trans h38_main_arg4; have h39_main_arg3 := (hne main_arg3 (by decide)).trans h38_main_arg3; have h39_main_v12 := (hne main_v12 (by decide)).trans h38_main_v12; have h39_main_v22 := (hne main_v22 (by decide)).trans h38_main_v22; clear hy hne h38_main_arg1 h38_main_arg4 h38_main_arg3 h38_main_v12 h38_main_v18 h38_main_v22 W38
  refine step_binary h39_main_v22 h39_main_v23 fun W40 hy hne => ?_
  have h40_main_v24 : W40 (Proc.devRef .tc main_v24) = val_main_v24 (F := F) a0 a2 := hy; have h40_main_arg1 := (hne main_arg1 (by decide)).trans h39_main_arg1; have h40_main_arg4 := (hne main_arg4 (by decide)).trans h39_main_arg4; have h40_main_arg3 := (hne main_arg3 (by decide)).trans h39_main_arg3; have h40_main_v12 := (hne main_v12 (by decide)).trans h39_main_v12; clear hy hne h39_main_arg1 h39_main_arg4 h39_main_arg3 h39_main_v12 h39_main_v22 h39_main_v23 W39
  refine step_binary h40_main_v24 h40_main_v12 fun W41 hy hne => ?_
  have h41_main_v25 : W41 (Proc.devRef .tc main_v25) = val_main_v25 (F := F) a0 a2 := hy; have h41_main_arg1 := (hne main_arg1 (by decide)).trans h40_main_arg1; have h41_main_arg4 := (hne main_arg4 (by decide)).trans h40_main_arg4; have h41_main_arg3 := (hne main_arg3 (by decide)).trans h40_main_arg3; have h41_main_v12 := (hne main_v12 (by decide)).trans h40_main_v12; clear hy hne h40_main_arg1 h40_main_arg4 h40_main_arg3 h40_main_v12 h40_main_v24 W40
  refine step_binary h41_main_v12 h41_main_v25 fun W42 hy hne => ?_
  have h42_main_v26 : W42 (Proc.devRef .tc main_v26) = val_main_v26 (F := F) a0 a2 := hy; have h42_main_arg1 := (hne main_arg1 (by decide)).trans h41_main_arg1; have h42_main_arg4 := (hne main_arg4 (by decide)).trans h41_main_arg4; have h42_main_arg3 := (hne main_arg3 (by decide)).trans h41_main_arg3; clear hy hne h41_main_arg1 h41_main_arg4 h41_main_arg3 h41_main_v12 h41_main_v25 W41
  refine step_unary h42_main_arg1 fun W43 hy hne => ?_
  have h43_main_v27 : W43 (Proc.devRef .tc main_v27) = val_main_v27 (F := F) a1 := hy; have h43_main_arg1 := (hne main_arg1 (by decide)).trans h42_main_arg1; have h43_main_arg4 := (hne main_arg4 (by decide)).trans h42_main_arg4; have h43_main_arg3 := (hne main_arg3 (by decide)).trans h42_main_arg3; have h43_main_v26 := (hne main_v26 (by decide)).trans h42_main_v26; clear hy hne h42_main_arg1 h42_main_arg4 h42_main_arg3 h42_main_v26 W42
  refine step_nullary fun W44 hy hne => ?_
  have h44_main_cst_7 : W44 (Proc.devRef .tc main_cst_7) = val_main_cst_7 (F := F) := hy; have h44_main_arg1 := (hne main_arg1 (by decide)).trans h43_main_arg1; have h44_main_arg4 := (hne main_arg4 (by decide)).trans h43_main_arg4; have h44_main_arg3 := (hne main_arg3 (by decide)).trans h43_main_arg3; have h44_main_v26 := (hne main_v26 (by decide)).trans h43_main_v26; have h44_main_v27 := (hne main_v27 (by decide)).trans h43_main_v27; clear hy hne h43_main_arg1 h43_main_arg4 h43_main_arg3 h43_main_v26 h43_main_v27 W43
  refine step_binary h44_main_v27 h44_main_cst_7 fun W45 hy hne => ?_
  have h45_main_v28 : W45 (Proc.devRef .tc main_v28) = val_main_v28 (F := F) a1 := hy; have h45_main_arg1 := (hne main_arg1 (by decide)).trans h44_main_arg1; have h45_main_arg4 := (hne main_arg4 (by decide)).trans h44_main_arg4; have h45_main_arg3 := (hne main_arg3 (by decide)).trans h44_main_arg3; have h45_main_v26 := (hne main_v26 (by decide)).trans h44_main_v26; clear hy hne h44_main_arg1 h44_main_arg4 h44_main_arg3 h44_main_v26 h44_main_v27 h44_main_cst_7 W44
  refine step_nullary fun W46 hy hne => ?_
  have h46_main_cst_8 : W46 (Proc.devRef .tc main_cst_8) = val_main_cst_8 (F := F) := hy; have h46_main_arg1 := (hne main_arg1 (by decide)).trans h45_main_arg1; have h46_main_arg4 := (hne main_arg4 (by decide)).trans h45_main_arg4; have h46_main_arg3 := (hne main_arg3 (by decide)).trans h45_main_arg3; have h46_main_v26 := (hne main_v26 (by decide)).trans h45_main_v26; have h46_main_v28 := (hne main_v28 (by decide)).trans h45_main_v28; clear hy hne h45_main_arg1 h45_main_arg4 h45_main_arg3 h45_main_v26 h45_main_v28 W45
  refine step_binary h46_main_v28 h46_main_cst_8 fun W47 hy hne => ?_
  have h47_main_v29 : W47 (Proc.devRef .tc main_v29) = val_main_v29 (F := F) a1 := hy; have h47_main_arg1 := (hne main_arg1 (by decide)).trans h46_main_arg1; have h47_main_arg4 := (hne main_arg4 (by decide)).trans h46_main_arg4; have h47_main_arg3 := (hne main_arg3 (by decide)).trans h46_main_arg3; have h47_main_v26 := (hne main_v26 (by decide)).trans h46_main_v26; clear hy hne h46_main_arg1 h46_main_arg4 h46_main_arg3 h46_main_v26 h46_main_v28 h46_main_cst_8 W46
  refine step_nullary fun W48 hy hne => ?_
  have h48_main_cst_9 : W48 (Proc.devRef .tc main_cst_9) = val_main_cst_9 (F := F) := hy; have h48_main_arg1 := (hne main_arg1 (by decide)).trans h47_main_arg1; have h48_main_arg4 := (hne main_arg4 (by decide)).trans h47_main_arg4; have h48_main_arg3 := (hne main_arg3 (by decide)).trans h47_main_arg3; have h48_main_v26 := (hne main_v26 (by decide)).trans h47_main_v26; have h48_main_v29 := (hne main_v29 (by decide)).trans h47_main_v29; clear hy hne h47_main_arg1 h47_main_arg4 h47_main_arg3 h47_main_v26 h47_main_v29 W47
  refine step_tunary h48_main_cst_9 fun W49 hy hne => ?_
  have h49_main_call3_v0 : W49 (Proc.devRef .tc main_call3_v0) = val_main_call3_v0 (F := F) := hy; have h49_main_arg1 := (hne main_arg1 (by decide)).trans h48_main_arg1; have h49_main_arg4 := (hne main_arg4 (by decide)).trans h48_main_arg4; have h49_main_arg3 := (hne main_arg3 (by decide)).trans h48_main_arg3; have h49_main_v26 := (hne main_v26 (by decide)).trans h48_main_v26; have h49_main_v29 := (hne main_v29 (by decide)).trans h48_main_v29; clear hy hne h48_main_arg1 h48_main_arg4 h48_main_arg3 h48_main_v26 h48_main_v29 h48_main_cst_9 W48
  refine step_tbinary h49_main_call3_v0 h49_main_v29 fun W50 hy hne => ?_
  have h50_main_v30 : W50 (Proc.devRef .tc main_v30) = val_main_v30 (F := F) a1 := hy; have h50_main_arg1 := (hne main_arg1 (by decide)).trans h49_main_arg1; have h50_main_arg4 := (hne main_arg4 (by decide)).trans h49_main_arg4; have h50_main_arg3 := (hne main_arg3 (by decide)).trans h49_main_arg3; have h50_main_v26 := (hne main_v26 (by decide)).trans h49_main_v26; clear hy hne h49_main_arg1 h49_main_arg4 h49_main_arg3 h49_main_v26 h49_main_v29 h49_main_call3_v0 W49
  refine step_nullary fun W51 hy hne => ?_
  have h51_main_cst_10 : W51 (Proc.devRef .tc main_cst_10) = val_main_cst_10 (F := F) := hy; have h51_main_arg1 := (hne main_arg1 (by decide)).trans h50_main_arg1; have h51_main_arg4 := (hne main_arg4 (by decide)).trans h50_main_arg4; have h51_main_arg3 := (hne main_arg3 (by decide)).trans h50_main_arg3; have h51_main_v26 := (hne main_v26 (by decide)).trans h50_main_v26; have h51_main_v30 := (hne main_v30 (by decide)).trans h50_main_v30; clear hy hne h50_main_arg1 h50_main_arg4 h50_main_arg3 h50_main_v26 h50_main_v30 W50
  refine step_binary h51_main_cst_10 h51_main_v30 fun W52 hy hne => ?_
  have h52_main_v31 : W52 (Proc.devRef .tc main_v31) = val_main_v31 (F := F) a1 := hy; have h52_main_arg1 := (hne main_arg1 (by decide)).trans h51_main_arg1; have h52_main_arg4 := (hne main_arg4 (by decide)).trans h51_main_arg4; have h52_main_arg3 := (hne main_arg3 (by decide)).trans h51_main_arg3; have h52_main_v26 := (hne main_v26 (by decide)).trans h51_main_v26; clear hy hne h51_main_arg1 h51_main_arg4 h51_main_arg3 h51_main_v26 h51_main_v30 h51_main_cst_10 W51
  refine step_unary h52_main_v31 fun W53 hy hne => ?_
  have h53_main_v32 : W53 (Proc.devRef .tc main_v32) = val_main_v32 (F := F) a1 := hy; have h53_main_arg1 := (hne main_arg1 (by decide)).trans h52_main_arg1; have h53_main_arg4 := (hne main_arg4 (by decide)).trans h52_main_arg4; have h53_main_arg3 := (hne main_arg3 (by decide)).trans h52_main_arg3; have h53_main_v26 := (hne main_v26 (by decide)).trans h52_main_v26; have h53_main_v31 := (hne main_v31 (by decide)).trans h52_main_v31; clear hy hne h52_main_arg1 h52_main_arg4 h52_main_arg3 h52_main_v26 h52_main_v31 W52
  refine step_binary h53_main_arg1 h53_main_v32 fun W54 hy hne => ?_
  have h54_main_v33 : W54 (Proc.devRef .tc main_v33) = val_main_v33 (F := F) a1 := hy; have h54_main_arg1 := (hne main_arg1 (by decide)).trans h53_main_arg1; have h54_main_arg4 := (hne main_arg4 (by decide)).trans h53_main_arg4; have h54_main_arg3 := (hne main_arg3 (by decide)).trans h53_main_arg3; have h54_main_v26 := (hne main_v26 (by decide)).trans h53_main_v26; have h54_main_v31 := (hne main_v31 (by decide)).trans h53_main_v31; clear hy hne h53_main_arg1 h53_main_arg4 h53_main_arg3 h53_main_v26 h53_main_v31 h53_main_v32 W53
  refine step_tunary h54_main_v33 fun W55 hy hne => ?_
  have h55_main_v34 : W55 (Proc.devRef .tc main_v34) = val_main_v34 (F := F) a1 := hy; have h55_main_arg1 := (hne main_arg1 (by decide)).trans h54_main_arg1; have h55_main_arg4 := (hne main_arg4 (by decide)).trans h54_main_arg4; have h55_main_arg3 := (hne main_arg3 (by decide)).trans h54_main_arg3; have h55_main_v26 := (hne main_v26 (by decide)).trans h54_main_v26; have h55_main_v31 := (hne main_v31 (by decide)).trans h54_main_v31; clear hy hne h54_main_arg1 h54_main_arg4 h54_main_arg3 h54_main_v26 h54_main_v31 h54_main_v33 W54
  refine step_nullary fun W56 hy hne => ?_
  have h56_main_cst_11 : W56 (Proc.devRef .tc main_cst_11) = val_main_cst_11 (F := F) := hy; have h56_main_arg1 := (hne main_arg1 (by decide)).trans h55_main_arg1; have h56_main_arg4 := (hne main_arg4 (by decide)).trans h55_main_arg4; have h56_main_arg3 := (hne main_arg3 (by decide)).trans h55_main_arg3; have h56_main_v26 := (hne main_v26 (by decide)).trans h55_main_v26; have h56_main_v31 := (hne main_v31 (by decide)).trans h55_main_v31; have h56_main_v34 := (hne main_v34 (by decide)).trans h55_main_v34; clear hy hne h55_main_arg1 h55_main_arg4 h55_main_arg3 h55_main_v26 h55_main_v31 h55_main_v34 W55
  refine step_nullary fun W57 hy hne => ?_
  have h57_main_cst_12 : W57 (Proc.devRef .tc main_cst_12) = val_main_cst_12 (F := F) := hy; have h57_main_arg1 := (hne main_arg1 (by decide)).trans h56_main_arg1; have h57_main_arg4 := (hne main_arg4 (by decide)).trans h56_main_arg4; have h57_main_arg3 := (hne main_arg3 (by decide)).trans h56_main_arg3; have h57_main_v26 := (hne main_v26 (by decide)).trans h56_main_v26; have h57_main_v31 := (hne main_v31 (by decide)).trans h56_main_v31; have h57_main_v34 := (hne main_v34 (by decide)).trans h56_main_v34; have h57_main_cst_11 := (hne main_cst_11 (by decide)).trans h56_main_cst_11; clear hy hne h56_main_arg1 h56_main_arg4 h56_main_arg3 h56_main_v26 h56_main_v31 h56_main_v34 h56_main_cst_11 W56
  refine step_tunary h57_main_cst_11 fun W58 hy hne => ?_
  have h58_main_call5_v0 : W58 (Proc.devRef .tc main_call5_v0) = val_main_call5_v0 (F := F) := hy; have h58_main_arg1 := (hne main_arg1 (by decide)).trans h57_main_arg1; have h58_main_arg4 := (hne main_arg4 (by decide)).trans h57_main_arg4; have h58_main_arg3 := (hne main_arg3 (by decide)).trans h57_main_arg3; have h58_main_v26 := (hne main_v26 (by decide)).trans h57_main_v26; have h58_main_v31 := (hne main_v31 (by decide)).trans h57_main_v31; have h58_main_v34 := (hne main_v34 (by decide)).trans h57_main_v34; have h58_main_cst_12 := (hne main_cst_12 (by decide)).trans h57_main_cst_12; clear hy hne h57_main_arg1 h57_main_arg4 h57_main_arg3 h57_main_v26 h57_main_v31 h57_main_v34 h57_main_cst_11 h57_main_cst_12 W57
  refine step_tunary h58_main_call5_v0 fun W59 hy hne => ?_
  have h59_main_call5_v1 : W59 (Proc.devRef .tc main_call5_v1) = val_main_call5_v1 (F := F) := hy; have h59_main_arg1 := (hne main_arg1 (by decide)).trans h58_main_arg1; have h59_main_arg4 := (hne main_arg4 (by decide)).trans h58_main_arg4; have h59_main_arg3 := (hne main_arg3 (by decide)).trans h58_main_arg3; have h59_main_v26 := (hne main_v26 (by decide)).trans h58_main_v26; have h59_main_v31 := (hne main_v31 (by decide)).trans h58_main_v31; have h59_main_v34 := (hne main_v34 (by decide)).trans h58_main_v34; have h59_main_cst_12 := (hne main_cst_12 (by decide)).trans h58_main_cst_12; clear hy hne h58_main_arg1 h58_main_arg4 h58_main_arg3 h58_main_v26 h58_main_v31 h58_main_v34 h58_main_cst_12 h58_main_call5_v0 W58
  refine step_tbinary h59_main_call5_v1 h59_main_v34 fun W60 hy hne => ?_
  have h60_main_call5_v2 : W60 (Proc.devRef .tc main_call5_v2) = val_main_call5_v2 (F := F) a1 := hy; have h60_main_arg1 := (hne main_arg1 (by decide)).trans h59_main_arg1; have h60_main_arg4 := (hne main_arg4 (by decide)).trans h59_main_arg4; have h60_main_arg3 := (hne main_arg3 (by decide)).trans h59_main_arg3; have h60_main_v26 := (hne main_v26 (by decide)).trans h59_main_v26; have h60_main_v31 := (hne main_v31 (by decide)).trans h59_main_v31; have h60_main_cst_12 := (hne main_cst_12 (by decide)).trans h59_main_cst_12; clear hy hne h59_main_arg1 h59_main_arg4 h59_main_arg3 h59_main_v26 h59_main_v31 h59_main_v34 h59_main_cst_12 h59_main_call5_v1 W59
  refine step_tunary h60_main_cst_12 fun W61 hy hne => ?_
  have h61_main_call5_v3 : W61 (Proc.devRef .tc main_call5_v3) = val_main_call5_v3 (F := F) := hy; have h61_main_arg1 := (hne main_arg1 (by decide)).trans h60_main_arg1; have h61_main_arg4 := (hne main_arg4 (by decide)).trans h60_main_arg4; have h61_main_arg3 := (hne main_arg3 (by decide)).trans h60_main_arg3; have h61_main_v26 := (hne main_v26 (by decide)).trans h60_main_v26; have h61_main_v31 := (hne main_v31 (by decide)).trans h60_main_v31; have h61_main_call5_v2 := (hne main_call5_v2 (by decide)).trans h60_main_call5_v2; clear hy hne h60_main_arg1 h60_main_arg4 h60_main_arg3 h60_main_v26 h60_main_v31 h60_main_cst_12 h60_main_call5_v2 W60
  refine step_tunary h61_main_call5_v3 fun W62 hy hne => ?_
  have h62_main_call5_v4 : W62 (Proc.devRef .tc main_call5_v4) = val_main_call5_v4 (F := F) := hy; have h62_main_arg1 := (hne main_arg1 (by decide)).trans h61_main_arg1; have h62_main_arg4 := (hne main_arg4 (by decide)).trans h61_main_arg4; have h62_main_arg3 := (hne main_arg3 (by decide)).trans h61_main_arg3; have h62_main_v26 := (hne main_v26 (by decide)).trans h61_main_v26; have h62_main_v31 := (hne main_v31 (by decide)).trans h61_main_v31; have h62_main_call5_v2 := (hne main_call5_v2 (by decide)).trans h61_main_call5_v2; clear hy hne h61_main_arg1 h61_main_arg4 h61_main_arg3 h61_main_v26 h61_main_v31 h61_main_call5_v2 h61_main_call5_v3 W61
  refine step_tbinary h62_main_call5_v4 h62_main_call5_v2 fun W63 hy hne => ?_
  have h63_main_v35 : W63 (Proc.devRef .tc main_v35) = val_main_v35 (F := F) a1 := hy; have h63_main_arg1 := (hne main_arg1 (by decide)).trans h62_main_arg1; have h63_main_arg4 := (hne main_arg4 (by decide)).trans h62_main_arg4; have h63_main_arg3 := (hne main_arg3 (by decide)).trans h62_main_arg3; have h63_main_v26 := (hne main_v26 (by decide)).trans h62_main_v26; have h63_main_v31 := (hne main_v31 (by decide)).trans h62_main_v31; clear hy hne h62_main_arg1 h62_main_arg4 h62_main_arg3 h62_main_v26 h62_main_v31 h62_main_call5_v2 h62_main_call5_v4 W62
  refine step_unary h63_main_v31 fun W64 hy hne => ?_
  have h64_main_v36 : W64 (Proc.devRef .tc main_v36) = val_main_v36 (F := F) a1 := hy; have h64_main_arg1 := (hne main_arg1 (by decide)).trans h63_main_arg1; have h64_main_arg4 := (hne main_arg4 (by decide)).trans h63_main_arg4; have h64_main_arg3 := (hne main_arg3 (by decide)).trans h63_main_arg3; have h64_main_v26 := (hne main_v26 (by decide)).trans h63_main_v26; have h64_main_v35 := (hne main_v35 (by decide)).trans h63_main_v35; clear hy hne h63_main_arg1 h63_main_arg4 h63_main_arg3 h63_main_v26 h63_main_v31 h63_main_v35 W63
  refine step_binary h64_main_v35 h64_main_v36 fun W65 hy hne => ?_
  have h65_main_v37 : W65 (Proc.devRef .tc main_v37) = val_main_v37 (F := F) a1 := hy; have h65_main_arg1 := (hne main_arg1 (by decide)).trans h64_main_arg1; have h65_main_arg4 := (hne main_arg4 (by decide)).trans h64_main_arg4; have h65_main_arg3 := (hne main_arg3 (by decide)).trans h64_main_arg3; have h65_main_v26 := (hne main_v26 (by decide)).trans h64_main_v26; clear hy hne h64_main_arg1 h64_main_arg4 h64_main_arg3 h64_main_v26 h64_main_v35 h64_main_v36 W64
  refine step_binary h65_main_v37 h65_main_arg1 fun W66 hy hne => ?_
  have h66_main_v38 : W66 (Proc.devRef .tc main_v38) = val_main_v38 (F := F) a1 := hy; have h66_main_arg1 := (hne main_arg1 (by decide)).trans h65_main_arg1; have h66_main_arg4 := (hne main_arg4 (by decide)).trans h65_main_arg4; have h66_main_arg3 := (hne main_arg3 (by decide)).trans h65_main_arg3; have h66_main_v26 := (hne main_v26 (by decide)).trans h65_main_v26; clear hy hne h65_main_arg1 h65_main_arg4 h65_main_arg3 h65_main_v26 h65_main_v37 W65
  refine step_binary h66_main_arg1 h66_main_v38 fun W67 hy hne => ?_
  have h67_main_v39 : W67 (Proc.devRef .tc main_v39) = val_main_v39 (F := F) a1 := hy; have h67_main_arg4 := (hne main_arg4 (by decide)).trans h66_main_arg4; have h67_main_arg3 := (hne main_arg3 (by decide)).trans h66_main_arg3; have h67_main_v26 := (hne main_v26 (by decide)).trans h66_main_v26; clear hy hne h66_main_arg1 h66_main_arg4 h66_main_arg3 h66_main_v26 h66_main_v38 W66
  refine step_binary h67_main_v26 h67_main_v39 fun W68 hy hne => ?_
  have h68_main_v40 : W68 (Proc.devRef .tc main_v40) = val_main_v40 (F := F) a0 a1 a2 := hy; have h68_main_arg4 := (hne main_arg4 (by decide)).trans h67_main_arg4; have h68_main_arg3 := (hne main_arg3 (by decide)).trans h67_main_arg3; clear hy hne h67_main_arg4 h67_main_arg3 h67_main_v26 h67_main_v39 W67
  refine step_unary h68_main_v40 fun W69 hy hne => ?_
  have h69_main_v41 : W69 (Proc.devRef .tc main_v41) = val_main_v41 (F := F) a0 a1 a2 := hy; have h69_main_arg4 := (hne main_arg4 (by decide)).trans h68_main_arg4; have h69_main_arg3 := (hne main_arg3 (by decide)).trans h68_main_arg3; have h69_main_v40 := (hne main_v40 (by decide)).trans h68_main_v40; clear hy hne h68_main_arg4 h68_main_arg3 h68_main_v40 W68
  refine step_unary h69_main_v40 fun W70 hy hne => ?_
  have h70_main_v42 : W70 (Proc.devRef .tc main_v42) = val_main_v42 (F := F) a0 a1 a2 := hy; have h70_main_arg4 := (hne main_arg4 (by decide)).trans h69_main_arg4; have h70_main_arg3 := (hne main_arg3 (by decide)).trans h69_main_arg3; have h70_main_v41 := (hne main_v41 (by decide)).trans h69_main_v41; clear hy hne h69_main_arg4 h69_main_arg3 h69_main_v40 h69_main_v41 W69
  refine step_tunary h70_main_v41 fun W71 hy hne => ?_
  have h71_main_call6_v0 : W71 (Proc.devRef .tc main_call6_v0) = val_main_call6_v0 (F := F) a0 a1 a2 := hy; have h71_main_arg4 := (hne main_arg4 (by decide)).trans h70_main_arg4; have h71_main_arg3 := (hne main_arg3 (by decide)).trans h70_main_arg3; have h71_main_v41 := (hne main_v41 (by decide)).trans h70_main_v41; have h71_main_v42 := (hne main_v42 (by decide)).trans h70_main_v42; clear hy hne h70_main_arg4 h70_main_arg3 h70_main_v41 h70_main_v42 W70
  refine step_tunary h71_main_call6_v0 fun W72 hy hne => ?_
  have h72_main_call6_v1 : W72 (Proc.devRef .tc main_call6_v1) = val_main_call6_v1 (F := F) a0 a1 a2 := hy; have h72_main_arg4 := (hne main_arg4 (by decide)).trans h71_main_arg4; have h72_main_arg3 := (hne main_arg3 (by decide)).trans h71_main_arg3; have h72_main_v41 := (hne main_v41 (by decide)).trans h71_main_v41; have h72_main_v42 := (hne main_v42 (by decide)).trans h71_main_v42; clear hy hne h71_main_arg4 h71_main_arg3 h71_main_v41 h71_main_v42 h71_main_call6_v0 W71
  refine step_tnullary fun W73 hy hne => ?_
  have h73_main_call6_cst : W73 (Proc.devRef .tc main_call6_cst) = val_main_call6_cst (F := F) := hy; have h73_main_arg4 := (hne main_arg4 (by decide)).trans h72_main_arg4; have h73_main_arg3 := (hne main_arg3 (by decide)).trans h72_main_arg3; have h73_main_v41 := (hne main_v41 (by decide)).trans h72_main_v41; have h73_main_v42 := (hne main_v42 (by decide)).trans h72_main_v42; have h73_main_call6_v1 := (hne main_call6_v1 (by decide)).trans h72_main_call6_v1; clear hy hne h72_main_arg4 h72_main_arg3 h72_main_v41 h72_main_v42 h72_main_call6_v1 W72
  refine step_tunary h73_main_call6_cst fun W74 hy hne => ?_
  have h74_main_call6_v2 : W74 (Proc.devRef .tc main_call6_v2) = val_main_call6_v2 (F := F) := hy; have h74_main_arg4 := (hne main_arg4 (by decide)).trans h73_main_arg4; have h74_main_arg3 := (hne main_arg3 (by decide)).trans h73_main_arg3; have h74_main_v41 := (hne main_v41 (by decide)).trans h73_main_v41; have h74_main_v42 := (hne main_v42 (by decide)).trans h73_main_v42; have h74_main_call6_v1 := (hne main_call6_v1 (by decide)).trans h73_main_call6_v1; clear hy hne h73_main_arg4 h73_main_arg3 h73_main_v41 h73_main_v42 h73_main_call6_v1 h73_main_call6_cst W73
  refine step_tbinary h74_main_call6_v2 h74_main_call6_v1 fun W75 hy hne => ?_
  have h75_main_call6_v3 : W75 (Proc.devRef .tc main_call6_v3) = val_main_call6_v3 (F := F) a0 a1 a2 := hy; have h75_main_arg4 := (hne main_arg4 (by decide)).trans h74_main_arg4; have h75_main_arg3 := (hne main_arg3 (by decide)).trans h74_main_arg3; have h75_main_v41 := (hne main_v41 (by decide)).trans h74_main_v41; have h75_main_v42 := (hne main_v42 (by decide)).trans h74_main_v42; clear hy hne h74_main_arg4 h74_main_arg3 h74_main_v41 h74_main_v42 h74_main_call6_v1 h74_main_call6_v2 W74
  refine step_tnullary fun W76 hy hne => ?_
  have h76_main_call6_cst_0 : W76 (Proc.devRef .tc main_call6_cst_0) = val_main_call6_cst_0 (F := F) := hy; have h76_main_arg4 := (hne main_arg4 (by decide)).trans h75_main_arg4; have h76_main_arg3 := (hne main_arg3 (by decide)).trans h75_main_arg3; have h76_main_v41 := (hne main_v41 (by decide)).trans h75_main_v41; have h76_main_v42 := (hne main_v42 (by decide)).trans h75_main_v42; have h76_main_call6_v3 := (hne main_call6_v3 (by decide)).trans h75_main_call6_v3; clear hy hne h75_main_arg4 h75_main_arg3 h75_main_v41 h75_main_v42 h75_main_call6_v3 W75
  refine step_tunary h76_main_call6_cst_0 fun W77 hy hne => ?_
  have h77_main_call6_v4 : W77 (Proc.devRef .tc main_call6_v4) = val_main_call6_v4 (F := F) := hy; have h77_main_arg4 := (hne main_arg4 (by decide)).trans h76_main_arg4; have h77_main_arg3 := (hne main_arg3 (by decide)).trans h76_main_arg3; have h77_main_v41 := (hne main_v41 (by decide)).trans h76_main_v41; have h77_main_v42 := (hne main_v42 (by decide)).trans h76_main_v42; have h77_main_call6_v3 := (hne main_call6_v3 (by decide)).trans h76_main_call6_v3; clear hy hne h76_main_arg4 h76_main_arg3 h76_main_v41 h76_main_v42 h76_main_call6_v3 h76_main_call6_cst_0 W76
  refine step_tbinary h77_main_call6_v4 h77_main_call6_v3 fun W78 hy hne => ?_
  have h78_main_call6_v5 : W78 (Proc.devRef .tc main_call6_v5) = val_main_call6_v5 (F := F) a0 a1 a2 := hy; have h78_main_arg4 := (hne main_arg4 (by decide)).trans h77_main_arg4; have h78_main_arg3 := (hne main_arg3 (by decide)).trans h77_main_arg3; have h78_main_v41 := (hne main_v41 (by decide)).trans h77_main_v41; have h78_main_v42 := (hne main_v42 (by decide)).trans h77_main_v42; clear hy hne h77_main_arg4 h77_main_arg3 h77_main_v41 h77_main_v42 h77_main_call6_v3 h77_main_call6_v4 W77
  refine step_tbinary h78_main_v41 h78_main_call6_v5 fun W79 hy hne => ?_
  have h79_main_v43 : W79 (Proc.devRef .tc main_v43) = val_main_v43 (F := F) a0 a1 a2 := hy; have h79_main_arg4 := (hne main_arg4 (by decide)).trans h78_main_arg4; have h79_main_arg3 := (hne main_arg3 (by decide)).trans h78_main_arg3; have h79_main_v42 := (hne main_v42 (by decide)).trans h78_main_v42; clear hy hne h78_main_arg4 h78_main_arg3 h78_main_v41 h78_main_v42 h78_main_call6_v5 W78
  refine step_binary h79_main_v43 h79_main_v42 fun W80 hy hne => ?_
  have h80_main_v44 : W80 (Proc.devRef .tc main_v44) = val_main_v44 (F := F) a0 a1 a2 := hy; have h80_main_arg4 := (hne main_arg4 (by decide)).trans h79_main_arg4; have h80_main_arg3 := (hne main_arg3 (by decide)).trans h79_main_arg3; clear hy hne h79_main_arg4 h79_main_arg3 h79_main_v42 h79_main_v43 W79
  refine step_binary h80_main_v44 h80_main_v44 fun W81 hy hne => ?_
  have h81_main_v45 : W81 (Proc.devRef .tc main_v45) = val_main_v45 (F := F) a0 a1 a2 := hy; have h81_main_arg4 := (hne main_arg4 (by decide)).trans h80_main_arg4; have h81_main_arg3 := (hne main_arg3 (by decide)).trans h80_main_arg3; have h81_main_v44 := (hne main_v44 (by decide)).trans h80_main_v44; clear hy hne h80_main_arg4 h80_main_arg3 h80_main_v44 W80
  refine step_nullary fun W82 hy hne => ?_
  have h82_main_cst_13 : W82 (Proc.devRef .tc main_cst_13) = val_main_cst_13 (F := F) := hy; have h82_main_arg4 := (hne main_arg4 (by decide)).trans h81_main_arg4; have h82_main_arg3 := (hne main_arg3 (by decide)).trans h81_main_arg3; have h82_main_v44 := (hne main_v44 (by decide)).trans h81_main_v44; have h82_main_v45 := (hne main_v45 (by decide)).trans h81_main_v45; clear hy hne h81_main_arg4 h81_main_arg3 h81_main_v44 h81_main_v45 W81
  refine step_binary h82_main_v45 h82_main_cst_13 fun W83 hy hne => ?_
  have h83_main_v46 : W83 (Proc.devRef .tc main_v46) = val_main_v46 (F := F) a0 a1 a2 := hy; have h83_main_arg4 := (hne main_arg4 (by decide)).trans h82_main_arg4; have h83_main_arg3 := (hne main_arg3 (by decide)).trans h82_main_arg3; have h83_main_v44 := (hne main_v44 (by decide)).trans h82_main_v44; clear hy hne h82_main_arg4 h82_main_arg3 h82_main_v44 h82_main_v45 h82_main_cst_13 W82
  refine step_unary h83_main_v46 fun W84 hy hne => ?_
  have h84_main_v47 : W84 (Proc.devRef .tc main_v47) = val_main_v47 (F := F) a0 a1 a2 := hy; have h84_main_arg4 := (hne main_arg4 (by decide)).trans h83_main_arg4; have h84_main_arg3 := (hne main_arg3 (by decide)).trans h83_main_arg3; have h84_main_v44 := (hne main_v44 (by decide)).trans h83_main_v44; clear hy hne h83_main_arg4 h83_main_arg3 h83_main_v44 h83_main_v46 W83
  refine step_nullary fun W85 hy hne => ?_
  have h85_main_cst_14 : W85 (Proc.devRef .tc main_cst_14) = val_main_cst_14 (F := F) := hy; have h85_main_arg4 := (hne main_arg4 (by decide)).trans h84_main_arg4; have h85_main_arg3 := (hne main_arg3 (by decide)).trans h84_main_arg3; have h85_main_v44 := (hne main_v44 (by decide)).trans h84_main_v44; have h85_main_v47 := (hne main_v47 (by decide)).trans h84_main_v47; clear hy hne h84_main_arg4 h84_main_arg3 h84_main_v44 h84_main_v47 W84
  refine step_unary h85_main_cst_14 fun W86 hy hne => ?_
  have h86_main_v48 : W86 (Proc.devRef .tc main_v48) = val_main_v48 (F := F) := hy; have h86_main_arg4 := (hne main_arg4 (by decide)).trans h85_main_arg4; have h86_main_arg3 := (hne main_arg3 (by decide)).trans h85_main_arg3; have h86_main_v44 := (hne main_v44 (by decide)).trans h85_main_v44; have h86_main_v47 := (hne main_v47 (by decide)).trans h85_main_v47; clear hy hne h85_main_arg4 h85_main_arg3 h85_main_v44 h85_main_v47 h85_main_cst_14 W85
  refine step_binary h86_main_v47 h86_main_v48 fun W87 hy hne => ?_
  have h87_main_v49 : W87 (Proc.devRef .tc main_v49) = val_main_v49 (F := F) a0 a1 a2 := hy; have h87_main_arg4 := (hne main_arg4 (by decide)).trans h86_main_arg4; have h87_main_arg3 := (hne main_arg3 (by decide)).trans h86_main_arg3; have h87_main_v44 := (hne main_v44 (by decide)).trans h86_main_v44; clear hy hne h86_main_arg4 h86_main_arg3 h86_main_v44 h86_main_v47 h86_main_v48 W86
  refine step_nullary fun W88 hy hne => ?_
  have h88_main_cst_15 : W88 (Proc.devRef .tc main_cst_15) = val_main_cst_15 (F := F) := hy; have h88_main_arg4 := (hne main_arg4 (by decide)).trans h87_main_arg4; have h88_main_arg3 := (hne main_arg3 (by decide)).trans h87_main_arg3; have h88_main_v44 := (hne main_v44 (by decide)).trans h87_main_v44; have h88_main_v49 := (hne main_v49 (by decide)).trans h87_main_v49; clear hy hne h87_main_arg4 h87_main_arg3 h87_main_v44 h87_main_v49 W87
  refine step_unary h88_main_cst_15 fun W89 hy hne => ?_
  have h89_main_v50 : W89 (Proc.devRef .tc main_v50) = val_main_v50 (F := F) := hy; have h89_main_arg4 := (hne main_arg4 (by decide)).trans h88_main_arg4; have h89_main_arg3 := (hne main_arg3 (by decide)).trans h88_main_arg3; have h89_main_v44 := (hne main_v44 (by decide)).trans h88_main_v44; have h89_main_v49 := (hne main_v49 (by decide)).trans h88_main_v49; clear hy hne h88_main_arg4 h88_main_arg3 h88_main_v44 h88_main_v49 h88_main_cst_15 W88
  refine step_binary h89_main_v49 h89_main_v50 fun W90 hy hne => ?_
  have h90_main_v51 : W90 (Proc.devRef .tc main_v51) = val_main_v51 (F := F) a0 a1 a2 := hy; have h90_main_arg4 := (hne main_arg4 (by decide)).trans h89_main_arg4; have h90_main_arg3 := (hne main_arg3 (by decide)).trans h89_main_arg3; have h90_main_v44 := (hne main_v44 (by decide)).trans h89_main_v44; clear hy hne h89_main_arg4 h89_main_arg3 h89_main_v44 h89_main_v49 h89_main_v50 W89
  refine step_unary h90_main_v51 fun W91 hy hne => ?_
  have h91_main_v52 : W91 (Proc.devRef .tc main_v52) = val_main_v52 (F := F) a0 a1 a2 := hy; have h91_main_arg4 := (hne main_arg4 (by decide)).trans h90_main_arg4; have h91_main_arg3 := (hne main_arg3 (by decide)).trans h90_main_arg3; have h91_main_v44 := (hne main_v44 (by decide)).trans h90_main_v44; clear hy hne h90_main_arg4 h90_main_arg3 h90_main_v44 h90_main_v51 W90
  refine step_unary h91_main_v52 fun W92 hy hne => ?_
  have h92_main_v53 : W92 (Proc.devRef .tc main_v53) = val_main_v53 (F := F) a0 a1 a2 := hy; have h92_main_arg4 := (hne main_arg4 (by decide)).trans h91_main_arg4; have h92_main_arg3 := (hne main_arg3 (by decide)).trans h91_main_arg3; have h92_main_v44 := (hne main_v44 (by decide)).trans h91_main_v44; clear hy hne h91_main_arg4 h91_main_arg3 h91_main_v44 h91_main_v52 W91
  refine step_binary h92_main_v44 h92_main_v53 fun W93 hy hne => ?_
  have h93_main_v54 : W93 (Proc.devRef .tc main_v54) = val_main_v54 (F := F) a0 a1 a2 := hy; have h93_main_arg4 := (hne main_arg4 (by decide)).trans h92_main_arg4; have h93_main_arg3 := (hne main_arg3 (by decide)).trans h92_main_arg3; clear hy hne h92_main_arg4 h92_main_arg3 h92_main_v44 h92_main_v53 W92
  refine step_unary h93_main_arg4 fun W94 hy hne => ?_
  have h94_main_v55 : W94 (Proc.devRef .tc main_v55) = val_main_v55 (F := F) a4 := hy; have h94_main_arg3 := (hne main_arg3 (by decide)).trans h93_main_arg3; have h94_main_v54 := (hne main_v54 (by decide)).trans h93_main_v54; clear hy hne h93_main_arg4 h93_main_arg3 h93_main_v54 W93
  refine step_unary h94_main_v55 fun W95 hy hne => ?_
  have h95_main_v56 : W95 (Proc.devRef .tc main_v56) = val_main_v56 (F := F) a4 := hy; have h95_main_arg3 := (hne main_arg3 (by decide)).trans h94_main_arg3; have h95_main_v54 := (hne main_v54 (by decide)).trans h94_main_v54; clear hy hne h94_main_arg3 h94_main_v54 h94_main_v55 W94
  refine step_binary h95_main_v54 h95_main_v56 fun W96 hy hne => ?_
  have h96_main_v57 : W96 (Proc.devRef .tc main_v57) = val_main_v57 (F := F) a0 a1 a2 a4 := hy; have h96_main_arg3 := (hne main_arg3 (by decide)).trans h95_main_arg3; clear hy hne h95_main_arg3 h95_main_v54 h95_main_v56 W95
  refine step_unary h96_main_v57 fun W97 hy hne => ?_
  have h97_main_v58 : W97 (Proc.devRef .tc main_v58) = val_main_v58 (F := F) a0 a1 a2 a4 := hy; have h97_main_arg3 := (hne main_arg3 (by decide)).trans h96_main_arg3; have h97_main_v57 := (hne main_v57 (by decide)).trans h96_main_v57; clear hy hne h96_main_arg3 h96_main_v57 W96
  refine step_nullary fun W98 hy hne => ?_
  have h98_main_cst_16 : W98 (Proc.devRef .tc main_cst_16) = val_main_cst_16 (F := F) := hy; have h98_main_arg3 := (hne main_arg3 (by decide)).trans h97_main_arg3; have h98_main_v57 := (hne main_v57 (by decide)).trans h97_main_v57; have h98_main_v58 := (hne main_v58 (by decide)).trans h97_main_v58; clear hy hne h97_main_arg3 h97_main_v57 h97_main_v58 W97
  refine step_binary h98_main_v58 h98_main_cst_16 fun W99 hy hne => ?_
  have h99_main_v59 : W99 (Proc.devRef .tc main_v59) = val_main_v59 (F := F) a0 a1 a2 a4 := hy; have h99_main_arg3 := (hne main_arg3 (by decide)).trans h98_main_arg3; have h99_main_v57 := (hne main_v57 (by decide)).trans h98_main_v57; clear hy hne h98_main_arg3 h98_main_v57 h98_main_v58 h98_main_cst_16 W98
  refine step_unary h99_main_v59 fun W100 hy hne => ?_
  have h100_main_v60 : W100 (Proc.devRef .tc main_v60) = val_main_v60 (F := F) a0 a1 a2 a4 := hy; have h100_main_arg3 := (hne main_arg3 (by decide)).trans h99_main_arg3; have h100_main_v57 := (hne main_v57 (by decide)).trans h99_main_v57; clear hy hne h99_main_arg3 h99_main_v57 h99_main_v59 W99
  refine step_nullary fun W101 hy hne => ?_
  have h101_main_cst_17 : W101 (Proc.devRef .tc main_cst_17) = val_main_cst_17 (F := F) := hy; have h101_main_arg3 := (hne main_arg3 (by decide)).trans h100_main_arg3; have h101_main_v57 := (hne main_v57 (by decide)).trans h100_main_v57; have h101_main_v60 := (hne main_v60 (by decide)).trans h100_main_v60; clear hy hne h100_main_arg3 h100_main_v57 h100_main_v60 W100
  refine step_tunary h101_main_cst_17 fun W102 hy hne => ?_
  have h102_main_call7_v0 : W102 (Proc.devRef .tc main_call7_v0) = val_main_call7_v0 (F := F) := hy; have h102_main_arg3 := (hne main_arg3 (by decide)).trans h101_main_arg3; have h102_main_v57 := (hne main_v57 (by decide)).trans h101_main_v57; have h102_main_v60 := (hne main_v60 (by decide)).trans h101_main_v60; clear hy hne h101_main_arg3 h101_main_v57 h101_main_v60 h101_main_cst_17 W101
  refine step_tunary h102_main_call7_v0 fun W103 hy hne => ?_
  have h103_main_call7_v1 : W103 (Proc.devRef .tc main_call7_v1) = val_main_call7_v1 (F := F) := hy; have h103_main_arg3 := (hne main_arg3 (by decide)).trans h102_main_arg3; have h103_main_v57 := (hne main_v57 (by decide)).trans h102_main_v57; have h103_main_v60 := (hne main_v60 (by decide)).trans h102_main_v60; clear hy hne h102_main_arg3 h102_main_v57 h102_main_v60 h102_main_call7_v0 W102
  refine step_tbinary h103_main_call7_v1 h103_main_v60 fun W104 hy hne => ?_
  have h104_main_v61 : W104 (Proc.devRef .tc main_v61) = val_main_v61 (F := F) a0 a1 a2 a4 := hy; have h104_main_arg3 := (hne main_arg3 (by decide)).trans h103_main_arg3; have h104_main_v57 := (hne main_v57 (by decide)).trans h103_main_v57; clear hy hne h103_main_arg3 h103_main_v57 h103_main_v60 h103_main_call7_v1 W103
  refine step_nullary fun W105 hy hne => ?_
  have h105_main_cst_18 : W105 (Proc.devRef .tc main_cst_18) = val_main_cst_18 (F := F) := hy; have h105_main_arg3 := (hne main_arg3 (by decide)).trans h104_main_arg3; have h105_main_v57 := (hne main_v57 (by decide)).trans h104_main_v57; have h105_main_v61 := (hne main_v61 (by decide)).trans h104_main_v61; clear hy hne h104_main_arg3 h104_main_v57 h104_main_v61 W104
  refine step_unary h105_main_cst_18 fun W106 hy hne => ?_
  have h106_main_v62 : W106 (Proc.devRef .tc main_v62) = val_main_v62 (F := F) := hy; have h106_main_arg3 := (hne main_arg3 (by decide)).trans h105_main_arg3; have h106_main_v57 := (hne main_v57 (by decide)).trans h105_main_v57; have h106_main_v61 := (hne main_v61 (by decide)).trans h105_main_v61; clear hy hne h105_main_arg3 h105_main_v57 h105_main_v61 h105_main_cst_18 W105
  refine step_binary h106_main_v62 h106_main_v61 fun W107 hy hne => ?_
  have h107_main_v63 : W107 (Proc.devRef .tc main_v63) = val_main_v63 (F := F) a0 a1 a2 a4 := hy; have h107_main_arg3 := (hne main_arg3 (by decide)).trans h106_main_arg3; have h107_main_v57 := (hne main_v57 (by decide)).trans h106_main_v57; clear hy hne h106_main_arg3 h106_main_v57 h106_main_v61 h106_main_v62 W106
  refine step_unary h107_main_v63 fun W108 hy hne => ?_
  have h108_main_v64 : W108 (Proc.devRef .tc main_v64) = val_main_v64 (F := F) a0 a1 a2 a4 := hy; have h108_main_arg3 := (hne main_arg3 (by decide)).trans h107_main_arg3; have h108_main_v57 := (hne main_v57 (by decide)).trans h107_main_v57; have h108_main_v63 := (hne main_v63 (by decide)).trans h107_main_v63; clear hy hne h107_main_arg3 h107_main_v57 h107_main_v63 W107
  refine step_binary h108_main_v57 h108_main_v64 fun W109 hy hne => ?_
  have h109_main_v65 : W109 (Proc.devRef .tc main_v65) = val_main_v65 (F := F) a0 a1 a2 a4 := hy; have h109_main_arg3 := (hne main_arg3 (by decide)).trans h108_main_arg3; have h109_main_v57 := (hne main_v57 (by decide)).trans h108_main_v57; have h109_main_v63 := (hne main_v63 (by decide)).trans h108_main_v63; clear hy hne h108_main_arg3 h108_main_v57 h108_main_v63 h108_main_v64 W108
  refine step_tunary h109_main_v65 fun W110 hy hne => ?_
  have h110_main_v66 : W110 (Proc.devRef .tc main_v66) = val_main_v66 (F := F) a0 a1 a2 a4 := hy; have h110_main_arg3 := (hne main_arg3 (by decide)).trans h109_main_arg3; have h110_main_v57 := (hne main_v57 (by decide)).trans h109_main_v57; have h110_main_v63 := (hne main_v63 (by decide)).trans h109_main_v63; clear hy hne h109_main_arg3 h109_main_v57 h109_main_v63 h109_main_v65 W109
  refine step_nullary fun W111 hy hne => ?_
  have h111_main_cst_19 : W111 (Proc.devRef .tc main_cst_19) = val_main_cst_19 (F := F) := hy; have h111_main_arg3 := (hne main_arg3 (by decide)).trans h110_main_arg3; have h111_main_v57 := (hne main_v57 (by decide)).trans h110_main_v57; have h111_main_v63 := (hne main_v63 (by decide)).trans h110_main_v63; have h111_main_v66 := (hne main_v66 (by decide)).trans h110_main_v66; clear hy hne h110_main_arg3 h110_main_v57 h110_main_v63 h110_main_v66 W110
  refine step_nullary fun W112 hy hne => ?_
  have h112_main_cst_20 : W112 (Proc.devRef .tc main_cst_20) = val_main_cst_20 (F := F) := hy; have h112_main_arg3 := (hne main_arg3 (by decide)).trans h111_main_arg3; have h112_main_v57 := (hne main_v57 (by decide)).trans h111_main_v57; have h112_main_v63 := (hne main_v63 (by decide)).trans h111_main_v63; have h112_main_v66 := (hne main_v66 (by decide)).trans h111_main_v66; have h112_main_cst_19 := (hne main_cst_19 (by decide)).trans h111_main_cst_19; clear hy hne h111_main_arg3 h111_main_v57 h111_main_v63 h111_main_v66 h111_main_cst_19 W111
  refine step_tunary h112_main_cst_19 fun W113 hy hne => ?_
  have h113_main_call9_v0 : W113 (Proc.devRef .tc main_call9_v0) = val_main_call9_v0 (F := F) := hy; have h113_main_arg3 := (hne main_arg3 (by decide)).trans h112_main_arg3; have h113_main_v57 := (hne main_v57 (by decide)).trans h112_main_v57; have h113_main_v63 := (hne main_v63 (by decide)).trans h112_main_v63; have h113_main_v66 := (hne main_v66 (by decide)).trans h112_main_v66; have h113_main_cst_20 := (hne main_cst_20 (by decide)).trans h112_main_cst_20; clear hy hne h112_main_arg3 h112_main_v57 h112_main_v63 h112_main_v66 h112_main_cst_19 h112_main_cst_20 W112
  refine step_tunary h113_main_call9_v0 fun W114 hy hne => ?_
  have h114_main_call9_v1 : W114 (Proc.devRef .tc main_call9_v1) = val_main_call9_v1 (F := F) := hy; have h114_main_arg3 := (hne main_arg3 (by decide)).trans h113_main_arg3; have h114_main_v57 := (hne main_v57 (by decide)).trans h113_main_v57; have h114_main_v63 := (hne main_v63 (by decide)).trans h113_main_v63; have h114_main_v66 := (hne main_v66 (by decide)).trans h113_main_v66; have h114_main_cst_20 := (hne main_cst_20 (by decide)).trans h113_main_cst_20; clear hy hne h113_main_arg3 h113_main_v57 h113_main_v63 h113_main_v66 h113_main_cst_20 h113_main_call9_v0 W113
  refine step_tbinary h114_main_call9_v1 h114_main_v66 fun W115 hy hne => ?_
  have h115_main_call9_v2 : W115 (Proc.devRef .tc main_call9_v2) = val_main_call9_v2 (F := F) a0 a1 a2 a4 := hy; have h115_main_arg3 := (hne main_arg3 (by decide)).trans h114_main_arg3; have h115_main_v57 := (hne main_v57 (by decide)).trans h114_main_v57; have h115_main_v63 := (hne main_v63 (by decide)).trans h114_main_v63; have h115_main_cst_20 := (hne main_cst_20 (by decide)).trans h114_main_cst_20; clear hy hne h114_main_arg3 h114_main_v57 h114_main_v63 h114_main_v66 h114_main_cst_20 h114_main_call9_v1 W114
  refine step_tunary h115_main_cst_20 fun W116 hy hne => ?_
  have h116_main_call9_v3 : W116 (Proc.devRef .tc main_call9_v3) = val_main_call9_v3 (F := F) := hy; have h116_main_arg3 := (hne main_arg3 (by decide)).trans h115_main_arg3; have h116_main_v57 := (hne main_v57 (by decide)).trans h115_main_v57; have h116_main_v63 := (hne main_v63 (by decide)).trans h115_main_v63; have h116_main_call9_v2 := (hne main_call9_v2 (by decide)).trans h115_main_call9_v2; clear hy hne h115_main_arg3 h115_main_v57 h115_main_v63 h115_main_cst_20 h115_main_call9_v2 W115
  refine step_tunary h116_main_call9_v3 fun W117 hy hne => ?_
  have h117_main_call9_v4 : W117 (Proc.devRef .tc main_call9_v4) = val_main_call9_v4 (F := F) := hy; have h117_main_arg3 := (hne main_arg3 (by decide)).trans h116_main_arg3; have h117_main_v57 := (hne main_v57 (by decide)).trans h116_main_v57; have h117_main_v63 := (hne main_v63 (by decide)).trans h116_main_v63; have h117_main_call9_v2 := (hne main_call9_v2 (by decide)).trans h116_main_call9_v2; clear hy hne h116_main_arg3 h116_main_v57 h116_main_v63 h116_main_call9_v2 h116_main_call9_v3 W116
  refine step_tbinary h117_main_call9_v4 h117_main_call9_v2 fun W118 hy hne => ?_
  have h118_main_v67 : W118 (Proc.devRef .tc main_v67) = val_main_v67 (F := F) a0 a1 a2 a4 := hy; have h118_main_arg3 := (hne main_arg3 (by decide)).trans h117_main_arg3; have h118_main_v57 := (hne main_v57 (by decide)).trans h117_main_v57; have h118_main_v63 := (hne main_v63 (by decide)).trans h117_main_v63; clear hy hne h117_main_arg3 h117_main_v57 h117_main_v63 h117_main_call9_v2 h117_main_call9_v4 W117
  refine step_unary h118_main_v63 fun W119 hy hne => ?_
  have h119_main_v68 : W119 (Proc.devRef .tc main_v68) = val_main_v68 (F := F) a0 a1 a2 a4 := hy; have h119_main_arg3 := (hne main_arg3 (by decide)).trans h118_main_arg3; have h119_main_v57 := (hne main_v57 (by decide)).trans h118_main_v57; have h119_main_v67 := (hne main_v67 (by decide)).trans h118_main_v67; clear hy hne h118_main_arg3 h118_main_v57 h118_main_v63 h118_main_v67 W118
  refine step_binary h119_main_v67 h119_main_v68 fun W120 hy hne => ?_
  have h120_main_v69 : W120 (Proc.devRef .tc main_v69) = val_main_v69 (F := F) a0 a1 a2 a4 := hy; have h120_main_arg3 := (hne main_arg3 (by decide)).trans h119_main_arg3; have h120_main_v57 := (hne main_v57 (by decide)).trans h119_main_v57; clear hy hne h119_main_arg3 h119_main_v57 h119_main_v67 h119_main_v68 W119
  refine step_binary h120_main_v69 h120_main_v57 fun W121 hy hne => ?_
  have h121_main_v70 : W121 (Proc.devRef .tc main_v70) = val_main_v70 (F := F) a0 a1 a2 a4 := hy; have h121_main_arg3 := (hne main_arg3 (by decide)).trans h120_main_arg3; have h121_main_v57 := (hne main_v57 (by decide)).trans h120_main_v57; clear hy hne h120_main_arg3 h120_main_v57 h120_main_v69 W120
  refine step_binary h121_main_v57 h121_main_v70 fun W122 hy hne => ?_
  have h122_main_v71 : W122 (Proc.devRef .tc main_v71) = val_main_v71 (F := F) a0 a1 a2 a4 := hy; have h122_main_arg3 := (hne main_arg3 (by decide)).trans h121_main_arg3; clear hy hne h121_main_arg3 h121_main_v57 h121_main_v70 W121
  refine step_unary h122_main_arg3 fun W123 hy hne => ?_
  have h123_main_v72 : W123 (Proc.devRef .tc main_v72) = val_main_v72 (F := F) a3 := hy; have h123_main_arg3 := (hne main_arg3 (by decide)).trans h122_main_arg3; have h123_main_v71 := (hne main_v71 (by decide)).trans h122_main_v71; clear hy hne h122_main_arg3 h122_main_v71 W122
  refine step_nullary fun W124 hy hne => ?_
  have h124_main_cst_21 : W124 (Proc.devRef .tc main_cst_21) = val_main_cst_21 (F := F) := hy; have h124_main_arg3 := (hne main_arg3 (by decide)).trans h123_main_arg3; have h124_main_v71 := (hne main_v71 (by decide)).trans h123_main_v71; have h124_main_v72 := (hne main_v72 (by decide)).trans h123_main_v72; clear hy hne h123_main_arg3 h123_main_v71 h123_main_v72 W123
  refine step_binary h124_main_v72 h124_main_cst_21 fun W125 hy hne => ?_
  have h125_main_v73 : W125 (Proc.devRef .tc main_v73) = val_main_v73 (F := F) a3 := hy; have h125_main_arg3 := (hne main_arg3 (by decide)).trans h124_main_arg3; have h125_main_v71 := (hne main_v71 (by decide)).trans h124_main_v71; clear hy hne h124_main_arg3 h124_main_v71 h124_main_v72 h124_main_cst_21 W124
  refine step_nullary fun W126 hy hne => ?_
  have h126_main_cst_22 : W126 (Proc.devRef .tc main_cst_22) = val_main_cst_22 (F := F) := hy; have h126_main_arg3 := (hne main_arg3 (by decide)).trans h125_main_arg3; have h126_main_v71 := (hne main_v71 (by decide)).trans h125_main_v71; have h126_main_v73 := (hne main_v73 (by decide)).trans h125_main_v73; clear hy hne h125_main_arg3 h125_main_v71 h125_main_v73 W125
  refine step_binary h126_main_v73 h126_main_cst_22 fun W127 hy hne => ?_
  have h127_main_v74 : W127 (Proc.devRef .tc main_v74) = val_main_v74 (F := F) a3 := hy; have h127_main_arg3 := (hne main_arg3 (by decide)).trans h126_main_arg3; have h127_main_v71 := (hne main_v71 (by decide)).trans h126_main_v71; clear hy hne h126_main_arg3 h126_main_v71 h126_main_v73 h126_main_cst_22 W126
  refine step_nullary fun W128 hy hne => ?_
  have h128_main_cst_23 : W128 (Proc.devRef .tc main_cst_23) = val_main_cst_23 (F := F) := hy; have h128_main_arg3 := (hne main_arg3 (by decide)).trans h127_main_arg3; have h128_main_v71 := (hne main_v71 (by decide)).trans h127_main_v71; have h128_main_v74 := (hne main_v74 (by decide)).trans h127_main_v74; clear hy hne h127_main_arg3 h127_main_v71 h127_main_v74 W127
  refine step_tunary h128_main_cst_23 fun W129 hy hne => ?_
  have h129_main_call10_v0 : W129 (Proc.devRef .tc main_call10_v0) = val_main_call10_v0 (F := F) := hy; have h129_main_arg3 := (hne main_arg3 (by decide)).trans h128_main_arg3; have h129_main_v71 := (hne main_v71 (by decide)).trans h128_main_v71; have h129_main_v74 := (hne main_v74 (by decide)).trans h128_main_v74; clear hy hne h128_main_arg3 h128_main_v71 h128_main_v74 h128_main_cst_23 W128
  refine step_tbinary h129_main_call10_v0 h129_main_v74 fun W130 hy hne => ?_
  have h130_main_v75 : W130 (Proc.devRef .tc main_v75) = val_main_v75 (F := F) a3 := hy; have h130_main_arg3 := (hne main_arg3 (by decide)).trans h129_main_arg3; have h130_main_v71 := (hne main_v71 (by decide)).trans h129_main_v71; clear hy hne h129_main_arg3 h129_main_v71 h129_main_v74 h129_main_call10_v0 W129
  refine step_nullary fun W131 hy hne => ?_
  have h131_main_cst_24 : W131 (Proc.devRef .tc main_cst_24) = val_main_cst_24 (F := F) := hy; have h131_main_arg3 := (hne main_arg3 (by decide)).trans h130_main_arg3; have h131_main_v71 := (hne main_v71 (by decide)).trans h130_main_v71; have h131_main_v75 := (hne main_v75 (by decide)).trans h130_main_v75; clear hy hne h130_main_arg3 h130_main_v71 h130_main_v75 W130
  refine step_binary h131_main_cst_24 h131_main_v75 fun W132 hy hne => ?_
  have h132_main_v76 : W132 (Proc.devRef .tc main_v76) = val_main_v76 (F := F) a3 := hy; have h132_main_arg3 := (hne main_arg3 (by decide)).trans h131_main_arg3; have h132_main_v71 := (hne main_v71 (by decide)).trans h131_main_v71; clear hy hne h131_main_arg3 h131_main_v71 h131_main_v75 h131_main_cst_24 W131
  refine step_unary h132_main_v76 fun W133 hy hne => ?_
  have h133_main_v77 : W133 (Proc.devRef .tc main_v77) = val_main_v77 (F := F) a3 := hy; have h133_main_arg3 := (hne main_arg3 (by decide)).trans h132_main_arg3; have h133_main_v71 := (hne main_v71 (by decide)).trans h132_main_v71; have h133_main_v76 := (hne main_v76 (by decide)).trans h132_main_v76; clear hy hne h132_main_arg3 h132_main_v71 h132_main_v76 W132
  refine step_binary h133_main_arg3 h133_main_v77 fun W134 hy hne => ?_
  have h134_main_v78 : W134 (Proc.devRef .tc main_v78) = val_main_v78 (F := F) a3 := hy; have h134_main_arg3 := (hne main_arg3 (by decide)).trans h133_main_arg3; have h134_main_v71 := (hne main_v71 (by decide)).trans h133_main_v71; have h134_main_v76 := (hne main_v76 (by decide)).trans h133_main_v76; clear hy hne h133_main_arg3 h133_main_v71 h133_main_v76 h133_main_v77 W133
  refine step_tunary h134_main_v78 fun W135 hy hne => ?_
  have h135_main_v79 : W135 (Proc.devRef .tc main_v79) = val_main_v79 (F := F) a3 := hy; have h135_main_arg3 := (hne main_arg3 (by decide)).trans h134_main_arg3; have h135_main_v71 := (hne main_v71 (by decide)).trans h134_main_v71; have h135_main_v76 := (hne main_v76 (by decide)).trans h134_main_v76; clear hy hne h134_main_arg3 h134_main_v71 h134_main_v76 h134_main_v78 W134
  refine step_nullary fun W136 hy hne => ?_
  have h136_main_cst_25 : W136 (Proc.devRef .tc main_cst_25) = val_main_cst_25 (F := F) := hy; have h136_main_arg3 := (hne main_arg3 (by decide)).trans h135_main_arg3; have h136_main_v71 := (hne main_v71 (by decide)).trans h135_main_v71; have h136_main_v76 := (hne main_v76 (by decide)).trans h135_main_v76; have h136_main_v79 := (hne main_v79 (by decide)).trans h135_main_v79; clear hy hne h135_main_arg3 h135_main_v71 h135_main_v76 h135_main_v79 W135
  refine step_nullary fun W137 hy hne => ?_
  have h137_main_cst_26 : W137 (Proc.devRef .tc main_cst_26) = val_main_cst_26 (F := F) := hy; have h137_main_arg3 := (hne main_arg3 (by decide)).trans h136_main_arg3; have h137_main_v71 := (hne main_v71 (by decide)).trans h136_main_v71; have h137_main_v76 := (hne main_v76 (by decide)).trans h136_main_v76; have h137_main_v79 := (hne main_v79 (by decide)).trans h136_main_v79; have h137_main_cst_25 := (hne main_cst_25 (by decide)).trans h136_main_cst_25; clear hy hne h136_main_arg3 h136_main_v71 h136_main_v76 h136_main_v79 h136_main_cst_25 W136
  refine step_tunary h137_main_cst_25 fun W138 hy hne => ?_
  have h138_main_call12_v0 : W138 (Proc.devRef .tc main_call12_v0) = val_main_call12_v0 (F := F) := hy; have h138_main_arg3 := (hne main_arg3 (by decide)).trans h137_main_arg3; have h138_main_v71 := (hne main_v71 (by decide)).trans h137_main_v71; have h138_main_v76 := (hne main_v76 (by decide)).trans h137_main_v76; have h138_main_v79 := (hne main_v79 (by decide)).trans h137_main_v79; have h138_main_cst_26 := (hne main_cst_26 (by decide)).trans h137_main_cst_26; clear hy hne h137_main_arg3 h137_main_v71 h137_main_v76 h137_main_v79 h137_main_cst_25 h137_main_cst_26 W137
  refine step_tunary h138_main_call12_v0 fun W139 hy hne => ?_
  have h139_main_call12_v1 : W139 (Proc.devRef .tc main_call12_v1) = val_main_call12_v1 (F := F) := hy; have h139_main_arg3 := (hne main_arg3 (by decide)).trans h138_main_arg3; have h139_main_v71 := (hne main_v71 (by decide)).trans h138_main_v71; have h139_main_v76 := (hne main_v76 (by decide)).trans h138_main_v76; have h139_main_v79 := (hne main_v79 (by decide)).trans h138_main_v79; have h139_main_cst_26 := (hne main_cst_26 (by decide)).trans h138_main_cst_26; clear hy hne h138_main_arg3 h138_main_v71 h138_main_v76 h138_main_v79 h138_main_cst_26 h138_main_call12_v0 W138
  refine step_tbinary h139_main_call12_v1 h139_main_v79 fun W140 hy hne => ?_
  have h140_main_call12_v2 : W140 (Proc.devRef .tc main_call12_v2) = val_main_call12_v2 (F := F) a3 := hy; have h140_main_arg3 := (hne main_arg3 (by decide)).trans h139_main_arg3; have h140_main_v71 := (hne main_v71 (by decide)).trans h139_main_v71; have h140_main_v76 := (hne main_v76 (by decide)).trans h139_main_v76; have h140_main_cst_26 := (hne main_cst_26 (by decide)).trans h139_main_cst_26; clear hy hne h139_main_arg3 h139_main_v71 h139_main_v76 h139_main_v79 h139_main_cst_26 h139_main_call12_v1 W139
  refine step_tunary h140_main_cst_26 fun W141 hy hne => ?_
  have h141_main_call12_v3 : W141 (Proc.devRef .tc main_call12_v3) = val_main_call12_v3 (F := F) := hy; have h141_main_arg3 := (hne main_arg3 (by decide)).trans h140_main_arg3; have h141_main_v71 := (hne main_v71 (by decide)).trans h140_main_v71; have h141_main_v76 := (hne main_v76 (by decide)).trans h140_main_v76; have h141_main_call12_v2 := (hne main_call12_v2 (by decide)).trans h140_main_call12_v2; clear hy hne h140_main_arg3 h140_main_v71 h140_main_v76 h140_main_cst_26 h140_main_call12_v2 W140
  refine step_tunary h141_main_call12_v3 fun W142 hy hne => ?_
  have h142_main_call12_v4 : W142 (Proc.devRef .tc main_call12_v4) = val_main_call12_v4 (F := F) := hy; have h142_main_arg3 := (hne main_arg3 (by decide)).trans h141_main_arg3; have h142_main_v71 := (hne main_v71 (by decide)).trans h141_main_v71; have h142_main_v76 := (hne main_v76 (by decide)).trans h141_main_v76; have h142_main_call12_v2 := (hne main_call12_v2 (by decide)).trans h141_main_call12_v2; clear hy hne h141_main_arg3 h141_main_v71 h141_main_v76 h141_main_call12_v2 h141_main_call12_v3 W141
  refine step_tbinary h142_main_call12_v4 h142_main_call12_v2 fun W143 hy hne => ?_
  have h143_main_v80 : W143 (Proc.devRef .tc main_v80) = val_main_v80 (F := F) a3 := hy; have h143_main_arg3 := (hne main_arg3 (by decide)).trans h142_main_arg3; have h143_main_v71 := (hne main_v71 (by decide)).trans h142_main_v71; have h143_main_v76 := (hne main_v76 (by decide)).trans h142_main_v76; clear hy hne h142_main_arg3 h142_main_v71 h142_main_v76 h142_main_call12_v2 h142_main_call12_v4 W142
  refine step_unary h143_main_v76 fun W144 hy hne => ?_
  have h144_main_v81 : W144 (Proc.devRef .tc main_v81) = val_main_v81 (F := F) a3 := hy; have h144_main_arg3 := (hne main_arg3 (by decide)).trans h143_main_arg3; have h144_main_v71 := (hne main_v71 (by decide)).trans h143_main_v71; have h144_main_v80 := (hne main_v80 (by decide)).trans h143_main_v80; clear hy hne h143_main_arg3 h143_main_v71 h143_main_v76 h143_main_v80 W143
  refine step_binary h144_main_v80 h144_main_v81 fun W145 hy hne => ?_
  have h145_main_v82 : W145 (Proc.devRef .tc main_v82) = val_main_v82 (F := F) a3 := hy; have h145_main_arg3 := (hne main_arg3 (by decide)).trans h144_main_arg3; have h145_main_v71 := (hne main_v71 (by decide)).trans h144_main_v71; clear hy hne h144_main_arg3 h144_main_v71 h144_main_v80 h144_main_v81 W144
  refine step_binary h145_main_v82 h145_main_arg3 fun W146 hy hne => ?_
  have h146_main_v83 : W146 (Proc.devRef .tc main_v83) = val_main_v83 (F := F) a3 := hy; have h146_main_arg3 := (hne main_arg3 (by decide)).trans h145_main_arg3; have h146_main_v71 := (hne main_v71 (by decide)).trans h145_main_v71; clear hy hne h145_main_arg3 h145_main_v71 h145_main_v82 W145
  refine step_binary h146_main_arg3 h146_main_v83 fun W147 hy hne => ?_
  have h147_main_v84 : W147 (Proc.devRef .tc main_v84) = val_main_v84 (F := F) a3 := hy; have h147_main_v71 := (hne main_v71 (by decide)).trans h146_main_v71; clear hy hne h146_main_arg3 h146_main_v71 h146_main_v83 W146
  refine step_binary h147_main_v71 h147_main_v84 fun W148 hy hne => ?_
  have h148_main_v85 : W148 (Proc.devRef .tc main_v85) = val_main_v85 (F := F) a0 a1 a2 a3 a4 := hy; clear hy hne h147_main_v71 h147_main_v84 W147
  exact h148_main_v85

set_option maxRecDepth 65536 in
set_option maxHeartbeats 4000000 in
/-- On every device, for any float values, from any memory with zero counters: every weakly fair execution of
    @main terminates with the result at the last stage of the reference read, at the arguments' launch contents, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85) = val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v85).trans (after_ops (launchContents m c) _ _ _ _ _ rfl rfl rfl rfl rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.ValueQ

end
-- ==== Proof.RefLayer1.lean ====
/-
  The reference program's first half, read against the specification, index by index on the extended reals.
  `wgate`: the first weight array as the product reads it is `w + (q(w) - w)`, with `q` the three-level quantiser whose one
  scale is `1 / max(ε, Σ|w| / 2^25)`. `act1`: the activation the product reads is `y + (Q(y) - y)`, with `y` the
  RMS-normalised token row and `Q` the per-row quantiser of scale `127 / max(ε, max|y|)`; the stages are taken in order
  (reciprocal root-mean-square, normalised row, row maximum, scale, quantised row). `hidden`: the contraction of the two
  over the row's 2048 entries at columns `i` and `8192 + i` gives the gate and the value, and the hidden activation is
  `gate · 1/(1 + e^(-gate)) · value`.
  Every composed index function is identified with an index built from its coordinates, coordinate by coordinate.
-/
import proofs.«126920_j38886633898328_2_alg».proof.Proof.Spec
import proofs.«126920_j38886633898328_2_alg».proof.Proof.RefReadP
import Idealize.ShloMosaic.Lib.IdealHost

noncomputable section

namespace Cert.RefValue

open Idealize.ShloMosaic Idealize.ShloMosaic.ValueIdx Cert.ReferenceIdeal
open Cert.ReferenceIdeal.ReadP Cert.ReferenceIdeal.Gen

/-- The one scale of the first weight array, read at the only index of a rank-zero array. -/
theorem wgate_scale (x1 : (⟨S16384x2048, .f32⟩ : BufTy).Contents (Elt Ideal)) (j : S_.Idx) :
    val_main_v31 (F := Ideal) x1 j = Cert.Spec.wScale Cert.Spec.wN25 x1 := by
  rw [val_main_v31_apply, val_main_v30_apply, val_main_v29_apply, val_main_v28_apply]
  simp only [val_main_cst_10_apply, val_main_call3_v0_apply, val_main_cst_9_apply, val_main_cst_8_apply,
    val_main_cst_7_apply, val_main_v27_apply, Ideal.hostDivf_def, Ideal.maximumf_def, Ideal.ofBits_def,
    Ideal.hostAbsf_def, Ideal.absf_def, Ideal.ofBits_zero_f32, zero_add]
  rfl

/-- The first weight array as the product reads it: the array plus (its three-level quantisation minus itself). -/
theorem wgate (x1 : (⟨S16384x2048, .f32⟩ : BufTy).Contents (Elt Ideal)) (o : Fin 16384) (k : Fin 2048) :
    val_main_v39 (F := Ideal) x1 (ix2 o k) = Cert.Spec.wSte Cert.Spec.wN25 x1 (ix2 o k) := by
  generalize ix2 o k = i
  rw [val_main_v39_apply, val_main_v38_apply, val_main_v37_apply, val_main_v36_apply, val_main_v35_apply,
    val_main_call5_v2_apply, val_main_v34_apply, val_main_v33_apply, val_main_v32_apply,
    val_main_call5_v4_apply, val_main_call5_v1_apply]
  simp only [wgate_scale, val_main_call5_v3_apply, val_main_call5_v0_apply, val_main_cst_11_apply,
    val_main_cst_12_apply, Ideal.hostDivf_def, Ideal.maximumf_def, Ideal.minimumf_def, Ideal.ofBits_def,
    Ideal.addf_def, Ideal.subf_def, Ideal.mulf_def, Ideal.hostUnary_roundeven_def]
  rfl

/-- The reciprocal root-mean-square of token row `(b, s)`, read at the row's one index along the kept unit axis. -/
theorem act1_rms (x0 : (⟨S2x2048x2048, .f32⟩ : BufTy).Contents (Elt Ideal)) (b : Fin 2) (s : Fin 2048) (z : Fin 1) :
    val_main_v7 (F := Ideal) x0 (ix3 b s z)
      = Ideal.rsqrt (Ideal.div (∑ j : Fin 2048, x0 (ix3 b s j) * x0 (ix3 b s j)) Cert.Spec.w2048 + Cert.Spec.epsW) := by
  have e : ∀ k : Fin 2048, idx_main_v1 (idx_main_v2 (ix3 b s z)) k = ix3 b s k := fun k =>
    funext fun a => Fin.ext (by match a with | ⟨0, _⟩ => rfl | ⟨1, _⟩ => rfl | ⟨2, _⟩ => rfl)
  rw [val_main_v7_apply, val_main_v6_apply, val_main_v4_apply, val_main_v5_apply, val_main_v3_apply, val_main_v2_apply,
    val_main_v1_apply]
  simp only [e, val_main_v0_apply, val_main_cst_apply, val_main_cst_0_apply, val_main_cst_1_apply, Ideal.hostDivf_def,
    Ideal.addf_def, Ideal.mulf_def, Ideal.ofBits_def, Ideal.hostUnary_rsqrt_def, Ideal.ofBits_zero_f32, zero_add]

/-- The normalised activation. -/
theorem act1_norm (x0 : (⟨S2x2048x2048, .f32⟩ : BufTy).Contents (Elt Ideal)) (x2 : (⟨S2048, .f32⟩ : BufTy).Contents (Elt Ideal)) (b : Fin 2) (s : Fin 2048) (k : Fin 2048) :
    val_main_v12 (F := Ideal) x0 x2 (ix3 b s k) = Cert.Spec.normRow Cert.Spec.w2048 (fun k' => x0 (ix3 b s k')) (fun k' => x2 (ix1 k')) k := by
  have e8 : idx_main_v8 (ix3 b s k) = ix3 b s (0 : Fin 1) := funext fun a => Fin.ext (by match a with | ⟨0, _⟩ => rfl | ⟨1, _⟩ => rfl | ⟨2, _⟩ => rfl)
  have e10 : idx_main_v10 (idx_main_v11 (ix3 b s k)) = ix1 k := funext fun a => Fin.ext (by match a with | ⟨0, _⟩ => rfl)
  rw [val_main_v12_apply, val_main_v9_apply, val_main_v8_apply, val_main_v11_apply, val_main_v10_apply, e8, e10, act1_rms]
  rfl

/-- The same as an equation of rows. -/
theorem act1_norm_fun (x0 : (⟨S2x2048x2048, .f32⟩ : BufTy).Contents (Elt Ideal)) (x2 : (⟨S2048, .f32⟩ : BufTy).Contents (Elt Ideal)) (b : Fin 2) (s : Fin 2048) :
    (fun k : Fin 2048 => val_main_v12 (F := Ideal) x0 x2 (ix3 b s k)) = Cert.Spec.normRow Cert.Spec.w2048 (fun k' => x0 (ix3 b s k')) (fun k' => x2 (ix1 k')) :=
  funext fun k => act1_norm x0 x2 b s k

/-- The row maximum of the normalised activation's magnitudes: a fold of `max` from −∞ along the last axis. -/
theorem act1_max (x0 : (⟨S2x2048x2048, .f32⟩ : BufTy).Contents (Elt Ideal)) (x2 : (⟨S2048, .f32⟩ : BufTy).Contents (Elt Ideal)) (b : Fin 2) (s : Fin 2048) :
    val_main_v14 (F := Ideal) x0 x2 (ix2 b s) = Cert.Spec.rowMax (Cert.Spec.normRow Cert.Spec.w2048 (fun k' => x0 (ix3 b s k')) (fun k' => x2 (ix1 k'))) := by
  rw [← act1_norm_fun]
  unfold val_main_v14
  refine (Host.reduce_eq_fold_single (max : EReal → EReal → EReal) _ _ reducesTo_S2x2048x2048_S2x2048_d2 (by decide) h_S_
    (ix2 b s)).trans ?_
  unfold Cert.Spec.rowMax
  refine congrArg (Finset.fold max _ · Finset.univ) (funext fun k => ?_)
  show val_main_v13 (F := Ideal) x0 x2 _ = _
  rw [val_main_v13_apply, Ideal.hostAbsf_def, Ideal.absf_def]
  refine congrArg (fun t => max t (-t)) (congrArg (val_main_v12 (F := Ideal) x0 x2) ?_)
  exact funext fun a => Fin.ext (by match a with | ⟨0, _⟩ => rfl | ⟨1, _⟩ => rfl | ⟨2, _⟩ => rfl)

/-- The row's quantisation scale, read at the row's one index along the kept unit axis. -/
theorem act1_scale (x0 : (⟨S2x2048x2048, .f32⟩ : BufTy).Contents (Elt Ideal)) (x2 : (⟨S2048, .f32⟩ : BufTy).Contents (Elt Ideal)) (b : Fin 2) (s : Fin 2048) (z : Fin 1) :
    val_main_v18 (F := Ideal) x0 x2 (ix3 b s z) = Cert.Spec.rowScale (Cert.Spec.normRow Cert.Spec.w2048 (fun k' => x0 (ix3 b s k')) (fun k' => x2 (ix1 k'))) := by
  have e15 : idx_main_v15 (ix3 b s z) = ix2 b s := funext fun a => Fin.ext (by match a with | ⟨0, _⟩ => rfl | ⟨1, _⟩ => rfl)
  rw [val_main_v18_apply, val_main_v17_apply, val_main_v16_apply, val_main_call0_v1_apply, val_main_v15_apply, e15, act1_max]
  rfl

/-- The quantised activation. -/
theorem act1_quant (x0 : (⟨S2x2048x2048, .f32⟩ : BufTy).Contents (Elt Ideal)) (x2 : (⟨S2048, .f32⟩ : BufTy).Contents (Elt Ideal)) (b : Fin 2) (s : Fin 2048) (k : Fin 2048) :
    val_main_v24 (F := Ideal) x0 x2 (ix3 b s k) = Cert.Spec.quantRow (Cert.Spec.normRow Cert.Spec.w2048 (fun k' => x0 (ix3 b s k')) (fun k' => x2 (ix1 k'))) k := by
  have e19 : idx_main_v19 (ix3 b s k) = ix3 b s (0 : Fin 1) := funext fun a => Fin.ext (by match a with | ⟨0, _⟩ => rfl | ⟨1, _⟩ => rfl | ⟨2, _⟩ => rfl)
  have e23 : idx_main_v23 (ix3 b s k) = ix3 b s (0 : Fin 1) := funext fun a => Fin.ext (by match a with | ⟨0, _⟩ => rfl | ⟨1, _⟩ => rfl | ⟨2, _⟩ => rfl)
  rw [val_main_v24_apply, val_main_v23_apply, val_main_v22_apply, val_main_call2_v2_apply, val_main_v21_apply,
    val_main_v20_apply, val_main_v19_apply, val_main_call2_v4_apply, val_main_call2_v1_apply, e19, e23, act1_scale,
    act1_norm]
  rfl

/-- The activation the first product reads: the normalised row plus (its quantisation minus itself). -/
theorem act1 (x0 : (⟨S2x2048x2048, .f32⟩ : BufTy).Contents (Elt Ideal)) (x2 : (⟨S2048, .f32⟩ : BufTy).Contents (Elt Ideal)) (b : Fin 2) (s : Fin 2048) (k : Fin 2048) :
    val_main_v26 (F := Ideal) x0 x2 (ix3 b s k) = Cert.Spec.steRow (Cert.Spec.normRow Cert.Spec.w2048 (fun k' => x0 (ix3 b s k')) (fun k' => x2 (ix1 k'))) k := by
  rw [val_main_v26_apply, val_main_v25_apply, act1_quant, act1_norm]
  rfl

/-- The first product at output column `o`: the contraction over the row's 2048 entries. -/
theorem hidden_dot (x0 : (⟨S2x2048x2048, .f32⟩ : BufTy).Contents (Elt Ideal)) (x1 : (⟨S16384x2048, .f32⟩ : BufTy).Contents (Elt Ideal)) (x2 : (⟨S2048, .f32⟩ : BufTy).Contents (Elt Ideal)) (b : Fin 2) (s : Fin 2048) (o : Fin 16384) :
    val_main_v40 (F := Ideal) x0 x1 x2 (ix3 b s o)
      = ∑ k : Fin 2048, Cert.Spec.steRow (Cert.Spec.normRow Cert.Spec.w2048 (fun k' => x0 (ix3 b s k')) (fun k' => x2 (ix1 k'))) k * Cert.Spec.wSte Cert.Spec.wN25 x1 (ix2 o k) := by
  rw [val_main_v40_apply]
  refine Finset.sum_congr rfl fun k _ => ?_
  have el : lidx_main_v40 (ix3 b s o) k = ix3 b s k := funext fun a => Fin.ext (by match a with | ⟨0, _⟩ => rfl | ⟨1, _⟩ => rfl | ⟨2, _⟩ => rfl)
  have er : ridx_main_v40 (ix3 b s o) k = ix2 o k := funext fun a => Fin.ext (by match a with | ⟨0, _⟩ => rfl | ⟨1, _⟩ => rfl)
  rw [el, er, act1, wgate]

/-- The gated hidden activation: `silu` of the gate half times the value half. -/
theorem hidden (x0 : (⟨S2x2048x2048, .f32⟩ : BufTy).Contents (Elt Ideal)) (x1 : (⟨S16384x2048, .f32⟩ : BufTy).Contents (Elt Ideal)) (x2 : (⟨S2048, .f32⟩ : BufTy).Contents (Elt Ideal)) (b : Fin 2) (s : Fin 2048) (i : Fin 8192) :
    val_main_v44 (F := Ideal) x0 x1 x2 (ix3 b s i)
      = Cert.Spec.silu (∑ k : Fin 2048, Cert.Spec.steRow (Cert.Spec.normRow Cert.Spec.w2048 (fun k' => x0 (ix3 b s k')) (fun k' => x2 (ix1 k'))) k * Cert.Spec.wSte Cert.Spec.wN25 x1 (ix2 (Cert.Spec.loRow i) k))
        * (∑ k : Fin 2048, Cert.Spec.steRow (Cert.Spec.normRow Cert.Spec.w2048 (fun k' => x0 (ix3 b s k')) (fun k' => x2 (ix1 k'))) k * Cert.Spec.wSte Cert.Spec.wN25 x1 (ix2 (Cert.Spec.hiRow i) k)) := by
  have e41 : idx_main_v41 (ix3 b s i) = ix3 b s (Cert.Spec.loRow i) := funext fun a => Fin.ext (by match a with | ⟨0, _⟩ => rfl | ⟨1, _⟩ => rfl | ⟨2, _⟩ => rfl)
  have e42 : idx_main_v42 (ix3 b s i) = ix3 b s (Cert.Spec.hiRow i) := funext fun a => Fin.ext (by match a with | ⟨0, _⟩ => rfl | ⟨1, _⟩ => rfl | ⟨2, _⟩ => rfl)
  rw [val_main_v44_apply, val_main_v43_apply, val_main_call6_v5_apply, val_main_call6_v4_apply, val_main_call6_v3_apply,
    val_main_call6_v2_apply, val_main_call6_v1_apply, val_main_call6_v0_apply, val_main_v42_apply, val_main_v41_apply,
    e41, e42, hidden_dot, hidden_dot]
  simp only [val_main_call6_cst_apply, val_main_call6_cst_0_apply, Ideal.hostDivf_def, Ideal.addf_def, Ideal.mulf_def,
    Ideal.hostUnary_exp_def, Ideal.hostNegf_def, Ideal.negf_def, Ideal.ofBits_def, Ideal.ofBits_one_f32]
  rfl

end Cert.RefValue

end
-- ==== Proof.RefLayer2.lean ====
/-
  The reference's second half read against the specification: the straight-through quantised hidden activation
  (RMS-normalised over its 8192 entries, quantised per row), the three-level down-projection weight with its one
  whole-array scale, and the final contraction over the 8192 hidden entries. The hidden activation itself stays an
  opaque function here.
-/
import proofs.«126920_j38886633898328_2_alg».proof.Proof.Spec
import proofs.«126920_j38886633898328_2_alg».proof.Proof.RefReadP
import Idealize.ShloMosaic.PureOps.Reduce

noncomputable section

namespace Cert.RefValue

open Idealize.ShloMosaic Idealize.ShloMosaic.ValueIdx Cert.ReferenceIdeal Cert.ReferenceIdeal.Gen

/-- The output entry is the sum over the hidden index of the activation entry times the weight entry. -/
theorem out_sum (x0 : (⟨S2x2048x2048, .f32⟩ : BufTy).Contents (Elt Ideal)) (x1 : (⟨S16384x2048, .f32⟩ : BufTy).Contents (Elt Ideal))
    (x2 : (⟨S2048, .f32⟩ : BufTy).Contents (Elt Ideal)) (x3 : (⟨S2048x8192, .f32⟩ : BufTy).Contents (Elt Ideal))
    (x4 : (⟨S8192, .f32⟩ : BufTy).Contents (Elt Ideal)) (b : Fin 2) (s : Fin 2048) (n : Fin 2048) :
    Cert.ReferenceIdeal.ReadP.val_main_v85 (F := Ideal) x0 x1 x2 x3 x4 (ix3 b s n)
      = ∑ i : Fin 8192, Cert.ReferenceIdeal.ReadP.val_main_v71 (F := Ideal) x0 x1 x2 x4 (ix3 b s i)
          * Cert.ReferenceIdeal.ReadP.val_main_v84 (F := Ideal) x3 (ix2 n i) := by
  rw [ReadP.val_main_v85_apply]
  refine Finset.sum_congr rfl fun k _ => ?_
  have el : ReadP.lidx_main_v85 (ix3 b s n) k = ix3 b s k :=
    funext fun a => Fin.ext (by match a with | ⟨0, _⟩ => rfl | ⟨1, _⟩ => rfl | ⟨2, _⟩ => rfl)
  have er : ReadP.ridx_main_v85 (ix3 b s n) k = ix2 n k :=
    funext fun a => Fin.ext (by match a with | ⟨0, _⟩ => rfl | ⟨1, _⟩ => rfl)
  rw [el, er]

/-- The down-projection weight's one scale: 1 / max(ε, Σ|w| / 2^24), at the only index of the rank-0 result. -/
theorem wdown_scale (x3 : (⟨S2048x8192, .f32⟩ : BufTy).Contents (Elt Ideal)) (j : S_.Idx) :
    Cert.ReferenceIdeal.ReadP.val_main_v76 (F := Ideal) x3 j = Cert.Spec.wScale Cert.Spec.wN24 x3 := by
  rw [ReadP.val_main_v76_apply, ReadP.val_main_v75_apply, ReadP.val_main_v74_apply, ReadP.val_main_v73_apply,
    ReadP.val_main_cst_24_apply, ReadP.val_main_call10_v0_apply, ReadP.val_main_cst_23_apply,
    ReadP.val_main_cst_22_apply, ReadP.val_main_cst_21_apply]
  simp only [ReadP.val_main_v72_apply, Ideal.hostDivf_def, Ideal.maximumf_def, Ideal.ofBits_def, Ideal.hostAbsf_def,
    Ideal.absf_def, Ideal.ofBits_zero_f32, zero_add]
  rfl

/-- The down-projection weight entry is w + (q − w), q its three-level quantisation. -/
theorem wdown (x3 : (⟨S2048x8192, .f32⟩ : BufTy).Contents (Elt Ideal)) (n : Fin 2048) (i : Fin 8192) :
    Cert.ReferenceIdeal.ReadP.val_main_v84 (F := Ideal) x3 (ix2 n i) = Cert.Spec.wSte Cert.Spec.wN24 x3 (ix2 n i) := by
  generalize ix2 n i = j
  rw [ReadP.val_main_v84_apply, ReadP.val_main_v83_apply, ReadP.val_main_v82_apply, ReadP.val_main_v81_apply,
    ReadP.val_main_v80_apply, ReadP.val_main_call12_v4_apply, ReadP.val_main_call12_v3_apply, ReadP.val_main_cst_26_apply,
    ReadP.val_main_call12_v2_apply, ReadP.val_main_call12_v1_apply, ReadP.val_main_call12_v0_apply,
    ReadP.val_main_cst_25_apply, ReadP.val_main_v79_apply, ReadP.val_main_v78_apply, ReadP.val_main_v77_apply,
    wdown_scale]
  simp only [Ideal.addf_def, Ideal.subf_def, Ideal.mulf_def, Ideal.hostDivf_def, Ideal.maximumf_def, Ideal.minimumf_def,
    Ideal.ofBits_def, Ideal.hostUnary_roundeven_def]
  rfl

/-- The normalised hidden activation: entry i of the RMS-normalised row of token (b, s). -/
theorem norm57 (x0 : (⟨S2x2048x2048, .f32⟩ : BufTy).Contents (Elt Ideal)) (x1 : (⟨S16384x2048, .f32⟩ : BufTy).Contents (Elt Ideal))
    (x2 : (⟨S2048, .f32⟩ : BufTy).Contents (Elt Ideal)) (x4 : (⟨S8192, .f32⟩ : BufTy).Contents (Elt Ideal)) (b : Fin 2) (s : Fin 2048) (i : Fin 8192) :
    Cert.ReferenceIdeal.ReadP.val_main_v57 (F := Ideal) x0 x1 x2 x4 (ix3 b s i)
      = (Cert.Spec.normRow Cert.Spec.w8192
          (fun i' => Cert.ReferenceIdeal.ReadP.val_main_v44 (F := Ideal) x0 x1 x2 (ix3 b s i')) (fun i' => x4 (ix1 i'))) i := by
  have e1 : ∀ k, ReadP.idx_main_v46 (ReadP.idx_main_v47 (ReadP.idx_main_v53 (ix3 b s i))) k = ix3 b s k := fun k =>
    funext fun a => Fin.ext (by match a with | ⟨0, _⟩ => rfl | ⟨1, _⟩ => rfl | ⟨2, _⟩ => rfl)
  have e2 : ReadP.idx_main_v55 (ReadP.idx_main_v56 (ix3 b s i)) = ix1 i :=
    funext fun a => Fin.ext (by match a with | ⟨0, _⟩ => rfl)
  rw [ReadP.val_main_v57_apply, ReadP.val_main_v56_apply, ReadP.val_main_v55_apply, e2, ReadP.val_main_v54_apply,
    ReadP.val_main_v53_apply, ReadP.val_main_v52_apply, ReadP.val_main_v51_apply, ReadP.val_main_v50_apply,
    ReadP.val_main_cst_15_apply, ReadP.val_main_v49_apply, ReadP.val_main_v48_apply, ReadP.val_main_cst_14_apply,
    ReadP.val_main_v47_apply, ReadP.val_main_v46_apply, ReadP.val_main_cst_13_apply]
  simp only [ReadP.val_main_v45_apply, e1, Ideal.addf_def, Ideal.mulf_def, Ideal.hostDivf_def, Ideal.ofBits_def,
    Ideal.hostUnary_rsqrt_def, Ideal.ofBits_zero_f32, zero_add]
  rfl

/-- A maximum over the last axis, folded from −∞, read at a row: the fold over the row's entries. -/
theorem rowmax_read (y : S2x2048x8192.Idx → EReal) (b : Fin 2) (s : Fin 2048) :
    Host.reduce (max : EReal → EReal → EReal) y (Cert.ReferenceIdeal.ReadP.val_main_cst_16 (F := Ideal))
        reducesTo_S2x2048x8192_S2x2048_d2 h_S_ (ix2 b s)
      = (Finset.univ : Finset (Fin 8192)).fold max Cert.Spec.ninfW (fun k => y (ix3 b s k)) := by
  have hr : S2x2048x8192.Reduces [2] S2x2048 := by decide
  refine (Host.reduce_eq_fold_single max y _ reducesTo_S2x2048x8192_S2x2048_d2 hr h_S_ (ix2 b s)).trans ?_
  have hl : ∀ k : Fin 8192, hr.lift (ix2 b s) k = ix3 b s k := fun k =>
    funext fun a => Fin.ext (by match a with | ⟨0, _⟩ => rfl | ⟨1, _⟩ => rfl | ⟨2, _⟩ => rfl)
  exact Finset.fold_congr (fun k _ => congrArg y (hl k))

/-- The row's largest magnitude. -/
theorem max59 (x0 : (⟨S2x2048x2048, .f32⟩ : BufTy).Contents (Elt Ideal)) (x1 : (⟨S16384x2048, .f32⟩ : BufTy).Contents (Elt Ideal))
    (x2 : (⟨S2048, .f32⟩ : BufTy).Contents (Elt Ideal)) (x4 : (⟨S8192, .f32⟩ : BufTy).Contents (Elt Ideal)) (b : Fin 2) (s : Fin 2048) :
    Cert.ReferenceIdeal.ReadP.val_main_v59 (F := Ideal) x0 x1 x2 x4 (ix2 b s)
      = Cert.Spec.rowMax (Cert.Spec.normRow Cert.Spec.w8192
          (fun i' => Cert.ReferenceIdeal.ReadP.val_main_v44 (F := Ideal) x0 x1 x2 (ix3 b s i')) (fun i' => x4 (ix1 i'))) := by
  unfold ReadP.val_main_v59
  refine (rowmax_read _ b s).trans ?_
  unfold Cert.Spec.rowMax
  exact Finset.fold_congr (fun k _ => by rw [ReadP.val_main_v58_apply, norm57]; rfl)

/-- The row's quantisation scale 127 / max(ε, largest magnitude). -/
theorem scale63 (x0 : (⟨S2x2048x2048, .f32⟩ : BufTy).Contents (Elt Ideal)) (x1 : (⟨S16384x2048, .f32⟩ : BufTy).Contents (Elt Ideal))
    (x2 : (⟨S2048, .f32⟩ : BufTy).Contents (Elt Ideal)) (x4 : (⟨S8192, .f32⟩ : BufTy).Contents (Elt Ideal)) (b : Fin 2) (s : Fin 2048) :
    Cert.ReferenceIdeal.ReadP.val_main_v63 (F := Ideal) x0 x1 x2 x4 (ix3 b s (0 : Fin 1))
      = Cert.Spec.rowScale (Cert.Spec.normRow Cert.Spec.w8192
          (fun i' => Cert.ReferenceIdeal.ReadP.val_main_v44 (F := Ideal) x0 x1 x2 (ix3 b s i')) (fun i' => x4 (ix1 i'))) := by
  have e : ReadP.idx_main_v60 (ix3 b s (0 : Fin 1)) = ix2 b s :=
    funext fun a => Fin.ext (by match a with | ⟨0, _⟩ => rfl | ⟨1, _⟩ => rfl)
  rw [ReadP.val_main_v63_apply, ReadP.val_main_v62_apply, ReadP.val_main_cst_18_apply, ReadP.val_main_v61_apply,
    ReadP.val_main_call7_v1_apply, ReadP.val_main_call7_v0_apply, ReadP.val_main_cst_17_apply, ReadP.val_main_v60_apply, e,
    max59]
  rfl

/-- The quantised hidden activation entry, written y + (q − y). -/
theorem act2 (x0 : (⟨S2x2048x2048, .f32⟩ : BufTy).Contents (Elt Ideal)) (x1 : (⟨S16384x2048, .f32⟩ : BufTy).Contents (Elt Ideal))
    (x2 : (⟨S2048, .f32⟩ : BufTy).Contents (Elt Ideal)) (x4 : (⟨S8192, .f32⟩ : BufTy).Contents (Elt Ideal)) (b : Fin 2) (s : Fin 2048) (i : Fin 8192) :
    Cert.ReferenceIdeal.ReadP.val_main_v71 (F := Ideal) x0 x1 x2 x4 (ix3 b s i)
      = Cert.Spec.steRow (Cert.Spec.normRow Cert.Spec.w8192
          (fun i' => Cert.ReferenceIdeal.ReadP.val_main_v44 (F := Ideal) x0 x1 x2 (ix3 b s i')) (fun i' => x4 (ix1 i'))) i := by
  have e64 : ReadP.idx_main_v64 (ix3 b s i) = ix3 b s (0 : Fin 1) :=
    funext fun a => Fin.ext (by match a with | ⟨0, _⟩ => rfl | ⟨1, _⟩ => rfl | ⟨2, _⟩ => rfl)
  have e68 : ReadP.idx_main_v68 (ix3 b s i) = ix3 b s (0 : Fin 1) :=
    funext fun a => Fin.ext (by match a with | ⟨0, _⟩ => rfl | ⟨1, _⟩ => rfl | ⟨2, _⟩ => rfl)
  rw [ReadP.val_main_v71_apply, ReadP.val_main_v70_apply, ReadP.val_main_v69_apply, ReadP.val_main_v68_apply, e68,
    ReadP.val_main_v67_apply, ReadP.val_main_call9_v4_apply, ReadP.val_main_call9_v3_apply, ReadP.val_main_cst_20_apply,
    ReadP.val_main_call9_v2_apply, ReadP.val_main_call9_v1_apply, ReadP.val_main_call9_v0_apply,
    ReadP.val_main_cst_19_apply, ReadP.val_main_v66_apply, ReadP.val_main_v65_apply, ReadP.val_main_v64_apply, e64,
    scale63, norm57]
  generalize (Cert.Spec.normRow Cert.Spec.w8192
          (fun i' => Cert.ReferenceIdeal.ReadP.val_main_v44 (F := Ideal) x0 x1 x2 (ix3 b s i')) (fun i' => x4 (ix1 i'))) = y
  simp only [Ideal.addf_def, Ideal.subf_def, Ideal.mulf_def, Ideal.hostDivf_def, Ideal.maximumf_def, Ideal.minimumf_def,
    Ideal.ofBits_def, Ideal.hostUnary_roundeven_def]
  rfl

end Cert.RefValue

end
-- ==== Proof.RefIsSpec.lean ====
/-
  The reference's result, read at an output index (b, s, n), is the layer with every quantised value written as
  `a + (q - a)`: the last contraction is a sum over the 8192 hidden entries of the quantised hidden activation times the
  quantised down-projection weight, the hidden activation is silu(gate) · value of the first layer's two products.
-/
import proofs.«126920_j38886633898328_2_alg».proof.Proof.RefLayer1
import proofs.«126920_j38886633898328_2_alg».proof.Proof.RefLayer2
import proofs.«126920_j38886633898328_2_alg».proof.Proof.Spec

noncomputable section

namespace Cert.RefValue

open Idealize.ShloMosaic Idealize.ShloMosaic.ValueIdx Cert.ReferenceIdeal

theorem ref_eq (x0 : (⟨S2x2048x2048, .f32⟩ : BufTy).Contents (Elt Ideal)) (x1 : (⟨S16384x2048, .f32⟩ : BufTy).Contents (Elt Ideal))
    (x2 : (⟨S2048, .f32⟩ : BufTy).Contents (Elt Ideal)) (x3 : (⟨S2048x8192, .f32⟩ : BufTy).Contents (Elt Ideal))
    (x4 : (⟨S8192, .f32⟩ : BufTy).Contents (Elt Ideal)) (b : Fin 2) (s : Fin 2048) (n : Fin 2048) :
    Cert.ReferenceIdeal.ReadP.val_main_v85 (F := Ideal) x0 x1 x2 x3 x4 (ix3 b s n) = Cert.Spec.outR x0 x1 x2 x3 x4 b s n := by
  rw [out_sum]
  unfold Cert.Spec.outR Cert.Spec.mlp
  refine Finset.sum_congr rfl fun i _ => ?_
  rw [act2, wdown, funext (fun i' => hidden x0 x1 x2 b s i')]

end Cert.RefValue

end
-- ==== Proof.KernelRun.lean ====
/-
  The idealized kernel program's run, with its RESULT named. Every weakly fair execution of @main terminates without a
  fault; the result buffer ends at the last boundary's contents of that buffer (`W18`: the launch memory folded through
  the host operations before the four pallas_calls, each call's write-backs, and the final reshape), and the five
  argument arrays end as launched. The statement is the frame's with one more conjunct; the run is the same launch over
  the same segments, the final state read at one more buffer.
-/
import proofs.«126920_j38886633898328_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run_value : θ_run defs (onTc (τ := τ) (main (F := F))) ⟨m, fun _ => 0, ρ⟩ (fun r => ∀ c : Dev nD,
      r.2.mem ((c.tc : Thread nD τ).loc main_v34) = W18 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v34 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c)⟩)

end Cert.KernelIdeal.RunValue

end
-- ==== Proof.LibColumns.lean ====
/-
  Two layout operations read at an index, for the column forms that a row reduction kept as a column
  (`keepdims`) produces: a vector of `a` entries cast to an `[a, 1]` column, and an `[a, 1]` column broadcast along
  `b` lanes.  Both read the operand at the row's own entry.
-/
import Idealize.ShloMosaic.Lib.Pipeline.Value
import Idealize.ShloMosaic.Lib.ValueIdx

namespace Cert.Columns

open Idealize.ShloMosaic Idealize.ShloMosaic.ValueIdx

variable {α : Type}

/-- An `[a]` array cast to an `[a, 1]` column reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.Payloads.lean ====
/-
  The four kernel bodies' stored values read at an index, on the extended reals.  Each body stores ONE pure term of
  the blocks it loaded; read at the index (r, k) that term is: for the two activation-quantisation bodies, entry k of
  the quantised RMS-normalised row r of the loaded block; for the first product body, silu(gate) · value with the two
  row-by-row dot products of the loaded blocks; for the second product body, one such dot product.
-/
import proofs.«126920_j38886633898328_2_alg».proof.Proof.Gen.KernelIdeal.Skeleton
import proofs.«126920_j38886633898328_2_alg».proof.Proof.Spec
import proofs.«126920_j38886633898328_2_alg».proof.Proof.LibColumns
import Idealize.ShloMosaic.Lib.ValueIdx
import Idealize.ShloMosaic.Lib.Pipeline.Value
import Idealize.ShloMosaic.Lib.ValueLayout
import Idealize.ShloMosaic.PureOps.Ideal.Laws

noncomputable section

namespace Cert.KernelValue

open Idealize.ShloMosaic Idealize.ShloMosaic.ValueIdx Cert.KernelIdeal Cert.KernelIdeal.Gen

/-! ## The pointwise unary operations at an index -/

theorem rsqrt_apply {s : Shape} {φ : FTy} (a : FVec Ideal s φ) (i : s.Idx) : rsqrt a i = Ideal.rsqrt (a i) := rfl
theorem absf_apply {s : Shape} {φ : FTy} (a : FVec Ideal s φ) (i : s.Idx) : absf a i = max (a i) (-(a i)) := rfl
theorem roundeven_apply {s : Shape} {φ : FTy} (a : FVec Ideal s φ) (i : s.Idx) :
    roundeven a i = Ideal.liftRound Ideal.roundHalfEven (a i) := rfl
theorem logistic_apply {s : Shape} {φ : FTy} (a : FVec Ideal s φ) (i : s.Idx) : logistic a i = Ideal.logistic (a i) := rfl

/-! ## A product with a transposed block read at an index -/

/-- The dot's left operand index keeps the output row on its free axis. -/
theorem dot_128_8192_512_apply_lhs0 (i : S128x512.Idx) (q : dot_S128x8192_S8192x512_S128x512_1_0_0_1_n_n.contr.Idx) :
    (dot_S128x8192_S8192x512_S128x512_1_0_0_1_n_n.lhsIdx i q 0).val = (i 0).val := by
  unfold DotDims.lhsIdx
  rw [dif_neg (show ¬(0 : Fin S128x8192.rank) ∈ dot_S128x8192_S8192x512_S128x512_1_0_0_1_n_n.lhsBatch by decide),
    dif_pos (show (0 : Fin S128x8192.rank) ∈ dot_S128x8192_S8192x512_S128x512_1_0_0_1_n_n.lhsNonContracting by decide)]
  rfl
/-- The dot's right operand index keeps the output column on its free axis. -/
theorem dot_128_8192_512_apply_rhs1 (i : S128x512.Idx) (q : dot_S128x8192_S8192x512_S128x512_1_0_0_1_n_n.contr.Idx) :
    (dot_S128x8192_S8192x512_S128x512_1_0_0_1_n_n.rhsIdx i q 1).val = (i 1).val := by
  unfold DotDims.rhsIdx
  rw [dif_neg (show ¬(1 : Fin S8192x512.rank) ∈ dot_S128x8192_S8192x512_S128x512_1_0_0_1_n_n.rhsBatch by decide),
    dif_pos (show (1 : Fin S8192x512.rank) ∈ dot_S128x8192_S8192x512_S128x512_1_0_0_1_n_n.rhsNonContracting by decide)]
  rfl

/-- A product of an [128, 8192] block with a [8192, 512] block into the zero accumulator reads, at (r, j), the sum over the
    contracted coordinate k of the left block at (r, k) times the right block at (k, j). -/
theorem dot_128_8192_512_apply (a : FVec Ideal S128x8192 .bf16) (b : FVec Ideal S8192x512 .bf16) (r : Fin 128) (j : Fin 512) :
    matmul dot_S128x8192_S8192x512_S128x512_1_0_0_1_n_n none a b (constant (F := Ideal) S128x512 .f32 0x00000000#32) (ix2 r j)
      = ∑ k : Fin 8192, a (ix2 r k) * b (ix2 k j) := by
  refine (Ideal.matmul_constant_zero_apply dot_S128x8192_S8192x512_S128x512_1_0_0_1_n_n none a b (ix2 r j)).trans ?_
  rw [← Equiv.sum_comp (contrEquiv1 dot_S128x8192_S8192x512_S128x512_1_0_0_1_n_n 8192 rfl rfl).symm]
  refine Finset.sum_congr rfl fun k _ => ?_
  have hk := contrEquiv1_symm_val dot_S128x8192_S8192x512_S128x512_1_0_0_1_n_n 8192 rfl rfl k
  have el : dot_S128x8192_S8192x512_S128x512_1_0_0_1_n_n.lhsIdx (ix2 r j) ((contrEquiv1 dot_S128x8192_S8192x512_S128x512_1_0_0_1_n_n 8192 rfl rfl).symm k) = ix2 r k :=
    funext fun c => Fin.ext (by
      match c with
      | ⟨0, _⟩ => exact dot_128_8192_512_apply_lhs0 _ _
      | ⟨1, _⟩ => exact (dot_S128x8192_S8192x512_S128x512_1_0_0_1_n_n.lhsIdx_val_of_single rfl _ _).trans hk)
  have er : dot_S128x8192_S8192x512_S128x512_1_0_0_1_n_n.rhsIdx (ix2 r j) ((contrEquiv1 dot_S128x8192_S8192x512_S128x512_1_0_0_1_n_n 8192 rfl rfl).symm k) = ix2 k j :=
    funext fun c => Fin.ext (by
      match c with
      | ⟨0, _⟩ => exact (dot_S128x8192_S8192x512_S128x512_1_0_0_1_n_n.rhsIdx_val_of_single rfl _ _).trans hk
      | ⟨1, _⟩ => exact dot_128_8192_512_apply_rhs1 _ _)
  rw [el, er]

/-- The dot's left operand index keeps the output row on its free axis. -/
theorem dot_256_2048_1024_apply_lhs0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide),
    dif_pos (show (0 : Fin S256x2048.rank) ∈ dot_S256x2048_S2048x1024_S256x1024_1_0_0_1_n_n.lhsNonContracting by decide)]
  rfl
/-- The dot's right operand index keeps the output column on its free axis. -/
theorem dot_256_2048_1024_apply_rhs1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide),
    dif_pos (show (1 : Fin S2048x1024.rank) ∈ dot_S256x2048_S2048x1024_S256x1024_1_0_0_1_n_n.rhsNonContracting by decide)]
  rfl

/-- A product of an [256, 2048] block with a [2048, 1024] block into the zero accumulator reads, at (r, j), the sum over the
    contracted coordinate k of the left block at (r, k) times the right block at (k, j). -/
theorem dot_256_2048_1024_apply (a : FVec Ideal S256x2048 .bf16) (b : FVec Ideal S2048x1024 .bf16) (r : Fin 256) (j : Fin 1024) :
    matmul dot_S256x2048_S2048x1024_S256x1024_1_0_0_1_n_n none a b (constant (F := Ideal) S256x1024 .f32 0x00000000#32) (ix2 r j)
      = ∑ k : Fin 2048, a (ix2 r k) * b (ix2 k j) := by
  refine (Ideal.matmul_constant_zero_apply dot_S256x2048_S2048x1024_S256x1024_1_0_0_1_n_n none a b (ix2 r j)).trans ?_
  rw [← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 r j) ((contrEquiv1 dot_S256x2048_S2048x1024_S256x1024_1_0_0_1_n_n 2048 rfl rfl).symm k) = ix2 r k :=
    funext fun c => Fin.ext (by
      match c with
      | ⟨0, _⟩ => exact dot_256_2048_1024_apply_lhs0 _ _
      | ⟨1, _⟩ => exact (dot_S256x2048_S2048x1024_S256x1024_1_0_0_1_n_n.lhsIdx_val_of_single rfl _ _).trans hk)
  have er : dot_S256x2048_S2048x1024_S256x1024_1_0_0_1_n_n.rhsIdx (ix2 r j) ((contrEquiv1 dot_S256x2048_S2048x1024_S256x1024_1_0_0_1_n_n 2048 rfl rfl).symm k) = ix2 k j :=
    funext fun c => Fin.ext (by
      match c with
      | ⟨0, _⟩ => exact (dot_S256x2048_S2048x1024_S256x1024_1_0_0_1_n_n.rhsIdx_val_of_single rfl _ _).trans hk
      | ⟨1, _⟩ => exact dot_256_2048_1024_apply_rhs1 _ _)
  rw [el, er]

/-- The second product body: a [128, 8192] block times the transpose of a [512, 8192] block. -/
theorem matmul3 (v0 : Vec Ideal S128x8192 .bf16) (v2 : Vec Ideal S512x8192 .bf16) (r : Fin 128) (j : Fin 512) :
    k3_pay1 (F := Ideal) v0 v2 (ix2 r j) = ∑ k : Fin 8192, v0 (ix2 r k) * v2 (ix2 j k) := by
  unfold k3_pay1
  refine (dot_128_8192_512_apply _ _ r j).trans ?_
  refine Finset.sum_congr rfl fun k _ => ?_
  rw [shapeCast_self, shapeCast_self]
  exact congrArg (v0 (ix2 r k) * ·) (transpose_ix2_apply v2 _ k j)

/-- The first product body: with g and u the dot products of row r of the activation block with row j of the two weight
    blocks, the stored value is g · logistic(g) · u. -/
theorem swiglu1 (v0 : Vec Ideal S256x2048 .bf16) (v2 v4 : Vec Ideal S1024x2048 .bf16) (r : Fin 256) (j : Fin 1024) :
    k1_pay1 (F := Ideal) v0 v2 v4 (ix2 r j)
      = Cert.Spec.silu (∑ k : Fin 2048, v0 (ix2 r k) * v2 (ix2 j k)) * (∑ k : Fin 2048, v0 (ix2 r k) * v4 (ix2 j k)) := by
  have hg : ∀ w : Vec Ideal S1024x2048 .bf16,
      matmul dot_S256x2048_S2048x1024_S256x1024_1_0_0_1_n_n none (shapeCast S256x2048 v0 shapeCasts_S256x2048_S256x2048)
          (transpose S2048x1024 [1, 0] (shapeCast S1024x2048 w shapeCasts_S1024x2048_S1024x2048) transposes_S1024x2048_p1_0_S2048x1024)
          (constant (F := Ideal) S256x1024 .f32 0x00000000#32) (ix2 r j)
        = ∑ k : Fin 2048, v0 (ix2 r k) * w (ix2 j k) := fun w => by
    refine (dot_256_2048_1024_apply _ _ r j).trans ?_
    refine Finset.sum_congr rfl fun k _ => ?_
    rw [shapeCast_self, shapeCast_self]
    exact congrArg (v0 (ix2 r k) * ·) (transpose_ix2_apply w _ k j)
  unfold k1_pay1
  simp only [mulf_apply, logistic_apply]
  rw [hg v2, hg v4]
  rfl

/-! ## A lane reduction of an [a, b] block read at a row -/

section Rows
variable {a b : ℕ}

/-- Row r's index with the lane coordinate k inserted is (r, k). -/
theorem lift_ix1 (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- The lane sum of an [a, b] block, at row r, is the sum of the row's entries. -/
theorem rowSum_apply (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_ix1 h r k)

/-- The lane maximum of an [a, b] block, at row r, is the fold of max over the row's entries from the accumulator's word. -/
theorem rowMax_apply (v : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max (Ideal.ofBits .f32 0xFF800000#32) (fun k => v (ix2 r k)) := by
  refine (Ideal.multiReduction_maximumf_single v 0xFF800000#32 h hφ hacc (ix1 r)).trans ?_
  exact congrArg (fun f => (Finset.univ : Finset (Fin b)).fold max (Ideal.ofBits .f32 0xFF800000#32) f)
    (funext fun k => congrArg v (lift_ix1 h r k))

/-- The lane sum of the squares of an [a, b] block, at row r. -/
theorem rowSqSum_apply (Y : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ (mulf Y Y) 0x00000000#32 h hφ hacc (ix1 r) = ∑ k : Fin b, Y (ix2 r k) * Y (ix2 r k) :=
  rowSum_apply (mulf Y Y) h hφ hacc r

/-- The lane maximum of the magnitudes of an [a, b] block, at row r, is the row's largest magnitude folded from −∞. -/
theorem rowAbsMax_apply (Y : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (r : Fin a) :
    multiReduction .maximumf [1] ⟨1, ![a]⟩ (absf Y) 0xFF800000#32 h hφ hacc (ix1 r)
      = Cert.Spec.rowMax (fun k => Y (ix2 r k)) :=
  rowMax_apply (absf Y) h hφ hacc r

end Rows

/-! ## The activation-quantisation body on a [256, 2048] block -/

/-- The RMS-normalised block at (p, c): the entry times the row's inverse root mean square times the gain at c. -/
theorem norm0 (y0 : FVec Ideal S256x2048 .f32) (y1 : FVec Ideal S1x2048 .f32) (p : Fin 256) (c : Fin 2048) :
    mulf (mulf y0 (broadcastTo S256x2048 (rsqrt (addf (divf
        (shapeCast S256x1 (multiReduction .add [1] S256 (mulf y0 y0) 0x00000000#32 reduces_S256x2048_S256 (.inl rfl) rfl) shapeCasts_S256_S256x1)
        (broadcast S256x1 (Scalar.ofBits (F := Ideal) .f32 0x45000000#32))) (broadcast S256x1 (Scalar.ofBits (F := Ideal) .f32 0x3727C5AC#32)))) broadcasts_S256x1_S256x2048))
      (broadcastTo S256x2048 y1 broadcasts_S1x2048_S256x2048) (ix2 p c)
    = Cert.Spec.normRow Cert.Spec.w2048 (fun k' => y0 (ix2 p k')) (fun k' => y1 (ix2 (0 : Fin 1) k')) c := by
  simp -implicitDefEqProofs only [mulf_apply, addf_apply, divf_apply, rsqrt_apply, broadcast_apply, Cert.Columns.broadcastTo_a1_ab_apply,
    broadcastTo_1b_ab_apply, Cert.Columns.shapeCast_a_a1_apply, Ideal.ofBits_def, Cert.Spec.normRow]
  exact congrArg (fun t => y0 (ix2 p c) * Ideal.rsqrt (Ideal.div t Cert.Spec.w2048 + Cert.Spec.epsW) * y1 (ix2 (0 : Fin 1) c))
    (rowSqSum_apply y0 reduces_S256x2048_S256 (.inl rfl) rfl p)

/-- The quantised block at (p, c): with s the row's scale 127 / max(ε, largest magnitude), round the entry times s, clip
    it to [-128, 127], divide by s. -/
theorem quantEntry0 (Y : FVec Ideal S256x2048 .f32) (p : Fin 256) (c : Fin 2048) :
    truncf .bf16 (divf (minimumf (broadcast S256x2048 (Scalar.ofBits (F := Ideal) .f32 0x42FE0000#32))
        (maximumf (broadcast S256x2048 (Scalar.ofBits (F := Ideal) .f32 0xC3000000#32))
          (roundeven (mulf Y (broadcastTo S256x2048 (divf (broadcast S256x1 (Scalar.ofBits (F := Ideal) .f32 0x42FE0000#32))
        (maximumf (broadcast S256x1 (Scalar.ofBits (F := Ideal) .f32 0x3727C5AC#32))
          (shapeCast S256x1 (multiReduction .maximumf [1] S256 (absf Y) 0xFF800000#32 reduces_S256x2048_S256 (.inl rfl) rfl) shapeCasts_S256_S256x1))) broadcasts_S256x1_S256x2048)))))
      (broadcastTo S256x2048 (divf (broadcast S256x1 (Scalar.ofBits (F := Ideal) .f32 0x42FE0000#32))
        (maximumf (broadcast S256x1 (Scalar.ofBits (F := Ideal) .f32 0x3727C5AC#32))
          (shapeCast S256x1 (multiReduction .maximumf [1] S256 (absf Y) 0xFF800000#32 reduces_S256x2048_S256 (.inl rfl) rfl) shapeCasts_S256_S256x1))) broadcasts_S256x1_S256x2048)) bitsLt_bf16_f32 (ix2 p c)
    = Cert.Spec.quantRow (fun k' => Y (ix2 p k')) c := by
  simp -implicitDefEqProofs only [truncf_apply, divf_apply, minimumf_apply, maximumf_apply, mulf_apply, roundeven_apply, broadcast_apply,
    Cert.Columns.broadcastTo_a1_ab_apply, Cert.Columns.shapeCast_a_a1_apply, Ideal.ofBits_def,
    Cert.Spec.quantRow, Cert.Spec.rowScale, Cert.Spec.rnd]
  exact congrArg (fun t => Ideal.div (min Cert.Spec.w127 (max Cert.Spec.wm128 (Ideal.liftRound Ideal.roundHalfEven
      (Y (ix2 p c) * Ideal.div Cert.Spec.w127 (max Cert.Spec.epsW t))))) (Ideal.div Cert.Spec.w127 (max Cert.Spec.epsW t)))
    (rowAbsMax_apply Y reduces_S256x2048_S256 (.inl rfl) rfl p)

/-- The body's stored value at (r, k): entry k of the quantised RMS-normalised row r. -/
theorem quant0 (x0 : Vec Ideal S256x2048 .f32) (x1 : Vec Ideal S1x2048 .f32) (r : Fin 256) (k : Fin 2048) :
    k0_pay1 (F := Ideal) x0 x1 (ix2 r k)
      = Cert.Spec.quantRow (Cert.Spec.normRow Cert.Spec.w2048 (fun k' => x0 (ix2 r k')) (fun k' => x1 (ix2 (0 : Fin 1) k'))) k := by
  unfold k0_pay1
  refine (quantEntry0 _ r k).trans ?_
  refine congrArg (fun y => Cert.Spec.quantRow y k) (funext fun k' => ?_)
  refine (norm0 _ _ r k').trans ?_
  rw [shapeCast_self, shapeCast_self]

/-! ## The activation-quantisation body on a [128, 8192] block -/

/-- The RMS-normalised block at (p, c): the entry times the row's inverse root mean square times the gain at c. -/
theorem norm2 (y0 : FVec Ideal S128x8192 .f32) (y1 : FVec Ideal S1x8192 .f32) (p : Fin 128) (c : Fin 8192) :
    mulf (mulf y0 (broadcastTo S128x8192 (rsqrt (addf (divf
        (shapeCast S128x1 (multiReduction .add [1] S128 (mulf y0 y0) 0x00000000#32 reduces_S128x8192_S128 (.inl rfl) rfl) shapeCasts_S128_S128x1)
        (broadcast S128x1 (Scalar.ofBits (F := Ideal) .f32 0x46000000#32))) (broadcast S128x1 (Scalar.ofBits (F := Ideal) .f32 0x3727C5AC#32)))) broadcasts_S128x1_S128x8192))
      (broadcastTo S128x8192 y1 broadcasts_S1x8192_S128x8192) (ix2 p c)
    = Cert.Spec.normRow Cert.Spec.w8192 (fun k' => y0 (ix2 p k')) (fun k' => y1 (ix2 (0 : Fin 1) k')) c := by
  simp -implicitDefEqProofs only [mulf_apply, addf_apply, divf_apply, rsqrt_apply, broadcast_apply, Cert.Columns.broadcastTo_a1_ab_apply,
    broadcastTo_1b_ab_apply, Cert.Columns.shapeCast_a_a1_apply, Ideal.ofBits_def, Cert.Spec.normRow]
  exact congrArg (fun t => y0 (ix2 p c) * Ideal.rsqrt (Ideal.div t Cert.Spec.w8192 + Cert.Spec.epsW) * y1 (ix2 (0 : Fin 1) c))
    (rowSqSum_apply y0 reduces_S128x8192_S128 (.inl rfl) rfl p)

/-- The quantised block at (p, c): with s the row's scale 127 / max(ε, largest magnitude), round the entry times s, clip
    it to [-128, 127], divide by s. -/
theorem quantEntry2 (Y : FVec Ideal S128x8192 .f32) (p : Fin 128) (c : Fin 8192) :
    truncf .bf16 (divf (minimumf (broadcast S128x8192 (Scalar.ofBits (F := Ideal) .f32 0x42FE0000#32))
        (maximumf (broadcast S128x8192 (Scalar.ofBits (F := Ideal) .f32 0xC3000000#32))
          (roundeven (mulf Y (broadcastTo S128x8192 (divf (broadcast S128x1 (Scalar.ofBits (F := Ideal) .f32 0x42FE0000#32))
        (maximumf (broadcast S128x1 (Scalar.ofBits (F := Ideal) .f32 0x3727C5AC#32))
          (shapeCast S128x1 (multiReduction .maximumf [1] S128 (absf Y) 0xFF800000#32 reduces_S128x8192_S128 (.inl rfl) rfl) shapeCasts_S128_S128x1))) broadcasts_S128x1_S128x8192)))))
      (broadcastTo S128x8192 (divf (broadcast S128x1 (Scalar.ofBits (F := Ideal) .f32 0x42FE0000#32))
        (maximumf (broadcast S128x1 (Scalar.ofBits (F := Ideal) .f32 0x3727C5AC#32))
          (shapeCast S128x1 (multiReduction .maximumf [1] S128 (absf Y) 0xFF800000#32 reduces_S128x8192_S128 (.inl rfl) rfl) shapeCasts_S128_S128x1))) broadcasts_S128x1_S128x8192)) bitsLt_bf16_f32 (ix2 p c)
    = Cert.Spec.quantRow (fun k' => Y (ix2 p k')) c := by
  simp -implicitDefEqProofs only [truncf_apply, divf_apply, minimumf_apply, maximumf_apply, mulf_apply, roundeven_apply, broadcast_apply,
    Cert.Columns.broadcastTo_a1_ab_apply, Cert.Columns.shapeCast_a_a1_apply, Ideal.ofBits_def,
    Cert.Spec.quantRow, Cert.Spec.rowScale, Cert.Spec.rnd]
  exact congrArg (fun t => Ideal.div (min Cert.Spec.w127 (max Cert.Spec.wm128 (Ideal.liftRound Ideal.roundHalfEven
      (Y (ix2 p c) * Ideal.div Cert.Spec.w127 (max Cert.Spec.epsW t))))) (Ideal.div Cert.Spec.w127 (max Cert.Spec.epsW t)))
    (rowAbsMax_apply Y reduces_S128x8192_S128 (.inl rfl) rfl p)

/-- The body's stored value at (r, k): entry k of the quantised RMS-normalised row r. -/
theorem quant2 (x0 : Vec Ideal S128x8192 .f32) (x1 : Vec Ideal S1x8192 .f32) (r : Fin 128) (k : Fin 8192) :
    k2_pay1 (F := Ideal) x0 x1 (ix2 r k)
      = Cert.Spec.quantRow (Cert.Spec.normRow Cert.Spec.w8192 (fun k' => x0 (ix2 r k')) (fun k' => x1 (ix2 (0 : Fin 1) k'))) k := by
  unfold k2_pay1
  refine (quantEntry2 _ r k).trans ?_
  refine congrArg (fun y => Cert.Spec.quantRow y k) (funext fun k' => ?_)
  refine (norm2 _ _ r k').trans ?_
  rw [shapeCast_self, shapeCast_self]

end Cert.KernelValue

end
-- ==== Proof.Call0.lean ====
/-
  The first pallas_call: it walks the [4096, 2048] activation in 16 blocks of 256 rows; at each block it normalises and
  quantises every row, with the [1, 2048] gain row, and writes the block back. So after the call the output array holds,
  at row `m` and column `k`, entry `k` of the quantised normalised row `m` of the input array: one function `rows` of
  the two input arrays as the call finds them. The body's arithmetic at an index is a hypothesis here (`hpay`).
-/
import proofs.«126920_j38886633898328_2_alg».proof.Proof.Gen.KernelIdeal.Frame
import proofs.«126920_j38886633898328_2_alg».proof.Proof.Spec
import Idealize.ShloMosaic.Lib.Pipeline.Value
import Idealize.ShloMosaic.Lib.ValueIdx

set_option maxRecDepth 16384

noncomputable section

namespace Cert.KernelValue.Call0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row `i 0` of `a`, normalised with the gain row `g` and quantised, at column `i 1`. -/
def rows (a : S4096x2048.Idx → EReal) (g : S1x2048.Idx → EReal) : S4096x2048.Idx → EReal := fun i =>
  Cert.Spec.quantRow (Cert.Spec.normRow Cert.Spec.w2048
      (fun k' : Fin 2048 => a (ix2 (⟨(i 0).val, idx2_lt0 i⟩ : Fin 4096) k'))
      (fun k' : Fin 2048 => g (ix2 (0 : Fin 1) k')))
    (⟨(i 1).val, idx2_lt1 i⟩ : Fin 2048)

/-- The printed index maps over the 16 points: the input block and the output block are the same 256 rows, all 2048
    columns; the gain row's block is the whole row. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 15 :=
  (by decide +kernel : ∀ t : Fin grid0.N, _)

/-- Every block of 256 rows is some point's. -/
theorem idx_onto : ∀ q : Fin 16, ∃ t : Fin cfg0.N, win0_2.index t = ![q.val, 0] :=
  (by decide +kernel : ∀ q : Fin 16, ∃ t : Fin grid0.N, win0_2.index t = ![q.val, 0])

/-- What point `t` writes back is block `t` of `rows` of the two input arrays. -/
theorem flushed_eq
    (hpay : ∀ (x0 : Vec Ideal S256x2048 .f32) (x1 : Vec Ideal S1x2048 .f32) (j : S256x2048.Idx),
      k0_pay1 (F := Ideal) x0 x1 j = Cert.Spec.quantRow (Cert.Spec.normRow Cert.Spec.w2048
        (fun k' : Fin 2048 => x0 (ix2 (⟨(j 0).val, idx2_lt0 j⟩ : Fin 256) k')) (fun k' : Fin 2048 => x1 (ix2 (0 : Fin 1) k')))
        (⟨(j 1).val, idx2_lt1 j⟩ : Fin 2048))
    (c : Dev nD) (t : Fin cfg0.N) :
    (dat0 V c).flushed 2 t = ((cfg0.win 2).blk t).view.read (Elt Ideal) (rows (V c main_v0) (V c main_v1)) := by
  show (cfg0.win 2).cut (grid0.coords t) ((dat0 V c).after 2 t) = _
  rw [after0_2]
  unfold out0_2
  rw [View.canon_unit_zero hz]
  simp only [View.ld_unit_zero (S := S256x2048) hz, View.ld_unit_zero (S := S1x2048) hz]
  obtain ⟨e0, e1, e2, e3, e4, e5⟩ := idx_facts t
  funext j
  show k0_pay1 (F := Ideal) (iblk0 V c 0 t) (iblk0 V c 1 t) j = rows (V c main_v0) (V c main_v1) (((cfg0.win 2).blk t).view.emb j)
  refine (hpay (iblk0 V c 0 t) (iblk0 V c 1 t) j).trans ?_
  have hj0 : (j 0).val < 256 := (j 0).isLt
  have hj1 : (j 1).val < 2048 := (j 1).isLt
  have hrow : ∀ k' : Fin 2048, iblk0 V c 0 t (ix2 (⟨(j 0).val, idx2_lt0 j⟩ : Fin 256) k')
      = V c main_v0 (ix2 (⟨((((cfg0.win 2).blk t).view.emb j) 0).val, idx2_lt0 _⟩ : Fin 4096) k') := fun k' => by
    show V c main_v0 (((cfg0.win 0).blk t).view.emb (ix2 (⟨(j 0).val, idx2_lt0 j⟩ : Fin 256) k')) = _
    refine congrArg (V c main_v0) (funext fun a => Fin.ext ?_)
    match a with
    | ⟨0, _⟩ =>
      show win0_0.index t (0 : Fin 2) * 256 + 1 * (j 0).val = win0_2.index t (0 : Fin 2) * 256 + 1 * (j 0).val
      omega
    | ⟨1, _⟩ =>
      show win0_0.index t (1 : Fin 2) * 2048 + 1 * k'.val = k'.val
      omega
  have hgain : ∀ k' : Fin 2048, iblk0 V c 1 t (ix2 (0 : Fin 1) k') = V c main_v1 (ix2 (0 : Fin 1) k') := fun k' => by
    show V c main_v1 (((cfg0.win 1).blk t).view.emb (ix2 (0 : Fin 1) k')) = _
    refine congrArg (V c main_v1) (funext fun a => Fin.ext ?_)
    match a with
    | ⟨0, _⟩ =>
      show win0_1.index t (0 : Fin 2) * 1 + 1 * 0 = 0
      omega
    | ⟨1, _⟩ =>
      show win0_1.index t (1 : Fin 2) * 2048 + 1 * k'.val = k'.val
      omega
  have hcol : (⟨(j 1).val, idx2_lt1 j⟩ : Fin 2048) = ⟨((((cfg0.win 2).blk t).view.emb j) 1).val, idx2_lt1 _⟩ := Fin.ext (by
    show (j 1).val = win0_2.index t (1 : Fin 2) * 2048 + 1 * (j 1).val
    omega)
  unfold rows
  rw [funext hrow, funext hgain, hcol]

/-- An index is in point `t`'s block iff each coordinate is in the block's range. -/
theorem mem_blk (t : Fin cfg0.N) (i : S4096x2048.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v30).slice (win0_2.rect t)).set ↔ _
  rw [View.set_slice_whole, Rect.mem_set_unit]
  exact Iff.rfl

/-- The 16 blocks cover the array: row `r` is in block `r / 256`. -/
theorem cover (i : S4096x2048.Idx) : ∃ t : Fin cfg0.N, (cfg0.win 2).flush t = true ∧ i ∈ ((cfg0.win 2).blk t).view.set := by
  have hi0 : (i 0).val < 4096 := (i 0).isLt
  have hi1 : (i 1).val < 2048 := (i 1).isLt
  obtain ⟨t, ht⟩ := idx_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 2048 ≤ (i 1).val ∧ (i 1).val < win0_2.index t (1 : Fin 2) * 2048 + 2048; omega

/-- The output array after the call. -/
theorem final
    (hpay : ∀ (x0 : Vec Ideal S256x2048 .f32) (x1 : Vec Ideal S1x2048 .f32) (j : S256x2048.Idx),
      k0_pay1 (F := Ideal) x0 x1 j = Cert.Spec.quantRow (Cert.Spec.normRow Cert.Spec.w2048
        (fun k' : Fin 2048 => x0 (ix2 (⟨(j 0).val, idx2_lt0 j⟩ : Fin 256) k')) (fun k' : Fin 2048 => x1 (ix2 (0 : Fin 1) k')))
        (⟨(j 1).val, idx2_lt1 j⟩ : Fin 2048))
    (c : Dev nD) : (dat0 V c).arrAt 2 cfg0.N = rows (V c main_v0) (V c main_v1) :=
  (dat0 V c).arrAt_eq_of_cover 2 (rows (V c main_v0) (V c main_v1)) (fun t _ => flushed_eq V hpay c t) cover

end Cert.KernelValue.Call0

end
-- ==== Proof.Call1.lean ====
/-
  The second pallas_call: a grid of 8 × 16 points; point (n, p) takes block `p` of 256 rows of the quantised activation
  [4096, 2048] and block `n` of 1024 rows of each half of the quantised weight ([8192, 2048] each), forms the two
  products over the 2048 columns (the gate and the value), and writes `silu(gate) · value` into tile (p, n) of the
  [4096, 8192] output. So after the call the output holds, at (r, j), `silu(Σ_k a(r,k)·wt(j,k)) · Σ_k a(r,k)·wb(j,k)`: one
  function `gated` of the three input arrays as the call finds them. The body's arithmetic at an index is a hypothesis
  here (`hpay`).
-/
import proofs.«126920_j38886633898328_2_alg».proof.Proof.Gen.KernelIdeal.Frame
import proofs.«126920_j38886633898328_2_alg».proof.Proof.Spec
import Idealize.ShloMosaic.Lib.Pipeline.Value
import Idealize.ShloMosaic.Lib.ValueIdx

set_option maxRecDepth 16384

noncomputable section

namespace Cert.KernelValue.Call1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- `silu` of row `i 0` of `a` against row `i 1` of `wt`, times row `i 0` of `a` against row `i 1` of `wb`. -/
def gated (a : S4096x2048.Idx → EReal) (wt wb : S8192x2048.Idx → EReal) : S4096x8192.Idx → EReal := fun i =>
  Cert.Spec.silu (∑ k : Fin 2048, a (ix2 (⟨(i 0).val, idx2_lt0 i⟩ : Fin 4096) k) * wt (ix2 (⟨(i 1).val, idx2_lt1 i⟩ : Fin 8192) k))
    * (∑ k : Fin 2048, a (ix2 (⟨(i 0).val, idx2_lt0 i⟩ : Fin 4096) k) * wb (ix2 (⟨(i 1).val, idx2_lt1 i⟩ : Fin 8192) k))

/-- The printed index maps over the 128 points: the activation block is the output tile's row block, each weight
    block its column block, all over the 2048 columns. -/
theorem idx_facts : ∀ t : Fin cfg1.N, win1_0.index t (0 : Fin 2) = win1_3.index t (0 : Fin 2)
    ∧ win1_0.index t (1 : Fin 2) = 0 ∧ win1_1.index t (0 : Fin 2) = win1_3.index t (1 : Fin 2) ∧ win1_1.index t (1 : Fin 2) = 0
    ∧ win1_2.index t (0 : Fin 2) = win1_3.index t (1 : Fin 2) ∧ win1_2.index t (1 : Fin 2) = 0
    ∧ win1_3.index t (0 : Fin 2) ≤ 15 ∧ win1_3.index t (1 : Fin 2) ≤ 7 :=
  (by decide +kernel : ∀ t : Fin grid1.N, _)

/-- Every [256, 1024] tile is some point's. -/
theorem idx_onto : ∀ (q0 : Fin 16) (q1 : Fin 8), ∃ t : Fin cfg1.N, win1_3.index t = ![q0.val, q1.val] :=
  (by decide +kernel : ∀ (q0 : Fin 16) (q1 : Fin 8), ∃ t : Fin grid1.N, win1_3.index t = ![q0.val, q1.val])

/-- What point `t` writes back is tile `t` of `gated` of the three input arrays. -/
theorem flushed_eq
    (hpay : ∀ (v0 : Vec Ideal S256x2048 .bf16) (v2 v4 : Vec Ideal S1024x2048 .bf16) (j : S256x1024.Idx),
      k1_pay1 (F := Ideal) v0 v2 v4 j
        = Cert.Spec.silu (∑ k : Fin 2048, v0 (ix2 (⟨(j 0).val, idx2_lt0 j⟩ : Fin 256) k) * v2 (ix2 (⟨(j 1).val, idx2_lt1 j⟩ : Fin 1024) k))
          * (∑ k : Fin 2048, v0 (ix2 (⟨(j 0).val, idx2_lt0 j⟩ : Fin 256) k) * v4 (ix2 (⟨(j 1).val, idx2_lt1 j⟩ : Fin 1024) k)))
    (c : Dev nD) (t : Fin cfg1.N) :
    (dat1 V c).flushed 3 t = ((cfg1.win 3).blk t).view.read (Elt Ideal) (gated (V c main_v30) (V c main_v15) (V c main_v17)) := by
  show (cfg1.win 3).cut (grid1.coords t) ((dat1 V c).after 3 t) = _
  rw [after1_3]
  unfold out1_3
  rw [View.canon_unit_zero hz]
  simp only [View.ld_unit_zero (S := S256x2048) hz, View.ld_unit_zero (S := S1024x2048) hz]
  obtain ⟨e0, e1, e2, e3, e4, e5, e6, e7⟩ := idx_facts t
  funext j
  show k1_pay1 (F := Ideal) (iblk1 V c 0 t) (iblk1 V c 1 t) (iblk1 V c 2 t) j
    = gated (V c main_v30) (V c main_v15) (V c main_v17) (((cfg1.win 3).blk t).view.emb j)
  refine (hpay (iblk1 V c 0 t) (iblk1 V c 1 t) (iblk1 V c 2 t) j).trans ?_
  have hj0 : (j 0).val < 256 := (j 0).isLt
  have hj1 : (j 1).val < 1024 := (j 1).isLt
  have ha : ∀ k : Fin 2048, iblk1 V c 0 t (ix2 (⟨(j 0).val, idx2_lt0 j⟩ : Fin 256) k)
      = V c main_v30 (ix2 (⟨((((cfg1.win 3).blk t).view.emb j) 0).val, idx2_lt0 _⟩ : Fin 4096) k) := fun k => by
    show V c main_v30 (((cfg1.win 0).blk t).view.emb (ix2 (⟨(j 0).val, idx2_lt0 j⟩ : Fin 256) k)) = _
    refine congrArg (V c main_v30) (funext fun a => Fin.ext ?_)
    match a with
    | ⟨0, _⟩ =>
      show win1_0.index t (0 : Fin 2) * 256 + 1 * (j 0).val = win1_3.index t (0 : Fin 2) * 256 + 1 * (j 0).val
      omega
    | ⟨1, _⟩ =>
      show win1_0.index t (1 : Fin 2) * 2048 + 1 * k.val = k.val
      omega
  have ht' : ∀ k : Fin 2048, iblk1 V c 1 t (ix2 (⟨(j 1).val, idx2_lt1 j⟩ : Fin 1024) k)
      = V c main_v15 (ix2 (⟨((((cfg1.win 3).blk t).view.emb j) 1).val, idx2_lt1 _⟩ : Fin 8192) k) := fun k => by
    show V c main_v15 (((cfg1.win 1).blk t).view.emb (ix2 (⟨(j 1).val, idx2_lt1 j⟩ : Fin 1024) k)) = _
    refine congrArg (V c main_v15) (funext fun a => Fin.ext ?_)
    match a with
    | ⟨0, _⟩ =>
      show win1_1.index t (0 : Fin 2) * 1024 + 1 * (j 1).val = win1_3.index t (1 : Fin 2) * 1024 + 1 * (j 1).val
      omega
    | ⟨1, _⟩ =>
      show win1_1.index t (1 : Fin 2) * 2048 + 1 * k.val = k.val
      omega
  have hb : ∀ k : Fin 2048, iblk1 V c 2 t (ix2 (⟨(j 1).val, idx2_lt1 j⟩ : Fin 1024) k)
      = V c main_v17 (ix2 (⟨((((cfg1.win 3).blk t).view.emb j) 1).val, idx2_lt1 _⟩ : Fin 8192) k) := fun k => by
    show V c main_v17 (((cfg1.win 2).blk t).view.emb (ix2 (⟨(j 1).val, idx2_lt1 j⟩ : Fin 1024) k)) = _
    refine congrArg (V c main_v17) (funext fun a => Fin.ext ?_)
    match a with
    | ⟨0, _⟩ =>
      show win1_2.index t (0 : Fin 2) * 1024 + 1 * (j 1).val = win1_3.index t (1 : Fin 2) * 1024 + 1 * (j 1).val
      omega
    | ⟨1, _⟩ =>
      show win1_2.index t (1 : Fin 2) * 2048 + 1 * k.val = k.val
      omega
  unfold gated
  refine congr (congrArg HMul.hMul (congrArg Cert.Spec.silu (Finset.sum_congr rfl fun k _ => ?_))) (Finset.sum_congr rfl fun k _ => ?_)
  · rw [ha k, ht' k]
  · rw [ha k, hb k]

/-- An index is in point `t`'s tile iff each coordinate is in the tile's range. -/
theorem mem_blk (t : Fin cfg1.N) (i : S4096x8192.Idx) :
    i ∈ ((cfg1.win 3).blk t).view.set ↔ ∀ a : Fin 2, win1_3.index t a * S256x1024.size a ≤ (i a).val ∧ (i a).val < win1_3.index t a * S256x1024.size a + S256x1024.size a := by
  show i ∈ ((View.whole main_v31).slice (win1_3.rect t)).set ↔ _
  rw [View.set_slice_whole, Rect.mem_set_unit]
  exact Iff.rfl

/-- The 128 tiles cover the array: (r, j) is in tile (r / 256, j / 1024). -/
theorem cover (i : S4096x8192.Idx) : ∃ t : Fin cfg1.N, (cfg1.win 3).flush t = true ∧ i ∈ ((cfg1.win 3).blk t).view.set := by
  have hi0 : (i 0).val < 4096 := (i 0).isLt
  have hi1 : (i 1).val < 8192 := (i 1).isLt
  obtain ⟨t, ht⟩ := idx_onto ⟨(i 0).val / 256, by omega⟩ ⟨(i 1).val / 1024, by omega⟩
  have q0 : win1_3.index t (0 : Fin 2) = (i 0).val / 256 := congrFun ht 0
  have q1 : win1_3.index t (1 : Fin 2) = (i 1).val / 1024 := congrFun ht 1
  refine ⟨t, flush1_3 t, ?_⟩
  rw [mem_blk]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 1024 ≤ (i 1).val ∧ (i 1).val < win1_3.index t (1 : Fin 2) * 1024 + 1024; omega

/-- The output array after the call. -/
theorem final
    (hpay : ∀ (v0 : Vec Ideal S256x2048 .bf16) (v2 v4 : Vec Ideal S1024x2048 .bf16) (j : S256x1024.Idx),
      k1_pay1 (F := Ideal) v0 v2 v4 j
        = Cert.Spec.silu (∑ k : Fin 2048, v0 (ix2 (⟨(j 0).val, idx2_lt0 j⟩ : Fin 256) k) * v2 (ix2 (⟨(j 1).val, idx2_lt1 j⟩ : Fin 1024) k))
          * (∑ k : Fin 2048, v0 (ix2 (⟨(j 0).val, idx2_lt0 j⟩ : Fin 256) k) * v4 (ix2 (⟨(j 1).val, idx2_lt1 j⟩ : Fin 1024) k)))
    (c : Dev nD) : (dat1 V c).arrAt 3 cfg1.N = gated (V c main_v30) (V c main_v15) (V c main_v17) :=
  (dat1 V c).arrAt_eq_of_cover 3 (gated (V c main_v30) (V c main_v15) (V c main_v17)) (fun t _ => flushed_eq V hpay c t) cover

end Cert.KernelValue.Call1

end
-- ==== Proof.Call2.lean ====
/-
  The third pallas_call: it walks the [4096, 8192] hidden activation in 32 blocks of 128 rows; at each block it normalises and
  quantises every row, with the [1, 8192] gain row, and writes the block back. So after the call the output array holds,
  at row `m` and column `k`, entry `k` of the quantised normalised row `m` of the input array: one function `rows` of
  the two input arrays as the call finds them. The body's arithmetic at an index is a hypothesis here (`hpay`).
-/
import proofs.«126920_j38886633898328_2_alg».proof.Proof.Gen.KernelIdeal.Frame
import proofs.«126920_j38886633898328_2_alg».proof.Proof.Spec
import Idealize.ShloMosaic.Lib.Pipeline.Value
import Idealize.ShloMosaic.Lib.ValueIdx

set_option maxRecDepth 16384

noncomputable section

namespace Cert.KernelValue.Call2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row `i 0` of `a`, normalised with the gain row `g` and quantised, at column `i 1`. -/
def rows (a : S4096x8192.Idx → EReal) (g : S1x8192.Idx → EReal) : S4096x8192.Idx → EReal := fun i =>
  Cert.Spec.quantRow (Cert.Spec.normRow Cert.Spec.w8192
      (fun k' : Fin 8192 => a (ix2 (⟨(i 0).val, idx2_lt0 i⟩ : Fin 4096) k'))
      (fun k' : Fin 8192 => g (ix2 (0 : Fin 1) k')))
    (⟨(i 1).val, idx2_lt1 i⟩ : Fin 8192)

/-- The printed index maps over the 32 points: the input block and the output block are the same 128 rows, all 8192
    columns; the gain row's block is the whole row. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 31 :=
  (by decide +kernel : ∀ t : Fin grid2.N, _)

/-- Every block of 128 rows is some point's. -/
theorem idx_onto : ∀ q : Fin 32, ∃ t : Fin cfg2.N, win2_2.index t = ![q.val, 0] :=
  (by decide +kernel : ∀ q : Fin 32, ∃ t : Fin grid2.N, win2_2.index t = ![q.val, 0])

/-- What point `t` writes back is block `t` of `rows` of the two input arrays. -/
theorem flushed_eq
    (hpay : ∀ (x0 : Vec Ideal S128x8192 .f32) (x1 : Vec Ideal S1x8192 .f32) (j : S128x8192.Idx),
      k2_pay1 (F := Ideal) x0 x1 j = Cert.Spec.quantRow (Cert.Spec.normRow Cert.Spec.w8192
        (fun k' : Fin 8192 => x0 (ix2 (⟨(j 0).val, idx2_lt0 j⟩ : Fin 128) k')) (fun k' : Fin 8192 => x1 (ix2 (0 : Fin 1) k')))
        (⟨(j 1).val, idx2_lt1 j⟩ : Fin 8192))
    (c : Dev nD) (t : Fin cfg2.N) :
    (dat2 V c).flushed 2 t = ((cfg2.win 2).blk t).view.read (Elt Ideal) (rows (V c main_v31) (V c main_v2)) := by
  show (cfg2.win 2).cut (grid2.coords t) ((dat2 V c).after 2 t) = _
  rw [after2_2]
  unfold out2_2
  rw [View.canon_unit_zero hz]
  simp only [View.ld_unit_zero (S := S128x8192) hz, View.ld_unit_zero (S := S1x8192) hz]
  obtain ⟨e0, e1, e2, e3, e4, e5⟩ := idx_facts t
  funext j
  show k2_pay1 (F := Ideal) (iblk2 V c 0 t) (iblk2 V c 1 t) j = rows (V c main_v31) (V c main_v2) (((cfg2.win 2).blk t).view.emb j)
  refine (hpay (iblk2 V c 0 t) (iblk2 V c 1 t) j).trans ?_
  have hj0 : (j 0).val < 128 := (j 0).isLt
  have hj1 : (j 1).val < 8192 := (j 1).isLt
  have hrow : ∀ k' : Fin 8192, iblk2 V c 0 t (ix2 (⟨(j 0).val, idx2_lt0 j⟩ : Fin 128) k')
      = V c main_v31 (ix2 (⟨((((cfg2.win 2).blk t).view.emb j) 0).val, idx2_lt0 _⟩ : Fin 4096) k') := fun k' => by
    show V c main_v31 (((cfg2.win 0).blk t).view.emb (ix2 (⟨(j 0).val, idx2_lt0 j⟩ : Fin 128) k')) = _
    refine congrArg (V c main_v31) (funext fun a => Fin.ext ?_)
    match a with
    | ⟨0, _⟩ =>
      show win2_0.index t (0 : Fin 2) * 128 + 1 * (j 0).val = win2_2.index t (0 : Fin 2) * 128 + 1 * (j 0).val
      omega
    | ⟨1, _⟩ =>
      show win2_0.index t (1 : Fin 2) * 8192 + 1 * k'.val = k'.val
      omega
  have hgain : ∀ k' : Fin 8192, iblk2 V c 1 t (ix2 (0 : Fin 1) k') = V c main_v2 (ix2 (0 : Fin 1) k') := fun k' => by
    show V c main_v2 (((cfg2.win 1).blk t).view.emb (ix2 (0 : Fin 1) k')) = _
    refine congrArg (V c main_v2) (funext fun a => Fin.ext ?_)
    match a with
    | ⟨0, _⟩ =>
      show win2_1.index t (0 : Fin 2) * 1 + 1 * 0 = 0
      omega
    | ⟨1, _⟩ =>
      show win2_1.index t (1 : Fin 2) * 8192 + 1 * k'.val = k'.val
      omega
  have hcol : (⟨(j 1).val, idx2_lt1 j⟩ : Fin 8192) = ⟨((((cfg2.win 2).blk t).view.emb j) 1).val, idx2_lt1 _⟩ := Fin.ext (by
    show (j 1).val = win2_2.index t (1 : Fin 2) * 8192 + 1 * (j 1).val
    omega)
  unfold rows
  rw [funext hrow, funext hgain, hcol]

/-- An index is in point `t`'s block iff each coordinate is in the block's range. -/
theorem mem_blk (t : Fin cfg2.N) (i : S4096x8192.Idx) :
    i ∈ ((cfg2.win 2).blk t).view.set ↔ ∀ a : Fin 2, win2_2.index t a * S128x8192.size a ≤ (i a).val ∧ (i a).val < win2_2.index t a * S128x8192.size a + S128x8192.size a := by
  show i ∈ ((View.whole main_v32).slice (win2_2.rect t)).set ↔ _
  rw [View.set_slice_whole, Rect.mem_set_unit]
  exact Iff.rfl

/-- The 32 blocks cover the array: row `r` is in block `r / 128`. -/
theorem cover (i : S4096x8192.Idx) : ∃ t : Fin cfg2.N, (cfg2.win 2).flush t = true ∧ i ∈ ((cfg2.win 2).blk t).view.set := by
  have hi0 : (i 0).val < 4096 := (i 0).isLt
  have hi1 : (i 1).val < 8192 := (i 1).isLt
  obtain ⟨t, ht⟩ := idx_onto ⟨(i 0).val / 128, by omega⟩
  have q0 : win2_2.index t (0 : Fin 2) = (i 0).val / 128 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 128 ≤ (i 0).val ∧ (i 0).val < win2_2.index t (0 : Fin 2) * 128 + 128; omega
  | ⟨1, _⟩ => show win2_2.index t (1 : Fin 2) * 8192 ≤ (i 1).val ∧ (i 1).val < win2_2.index t (1 : Fin 2) * 8192 + 8192; omega

/-- The output array after the call. -/
theorem final
    (hpay : ∀ (x0 : Vec Ideal S128x8192 .f32) (x1 : Vec Ideal S1x8192 .f32) (j : S128x8192.Idx),
      k2_pay1 (F := Ideal) x0 x1 j = Cert.Spec.quantRow (Cert.Spec.normRow Cert.Spec.w8192
        (fun k' : Fin 8192 => x0 (ix2 (⟨(j 0).val, idx2_lt0 j⟩ : Fin 128) k')) (fun k' : Fin 8192 => x1 (ix2 (0 : Fin 1) k')))
        (⟨(j 1).val, idx2_lt1 j⟩ : Fin 8192))
    (c : Dev nD) : (dat2 V c).arrAt 2 cfg2.N = rows (V c main_v31) (V c main_v2) :=
  (dat2 V c).arrAt_eq_of_cover 2 (rows (V c main_v31) (V c main_v2)) (fun t _ => flushed_eq V hpay c t) cover

end Cert.KernelValue.Call2

end
-- ==== Proof.Call3.lean ====
/-
  The fourth pallas_call: a grid of 4 × 32 points; point (n, p) multiplies block `p` of 128 rows of the quantised
  activation [4096, 8192] with block `n` of 512 rows of the quantised weight [2048, 8192], contracting the 8192 columns of
  both, and writes the [128, 512] tile (p, n) of the output. So after the call the output array [4096, 2048] holds, at
  (r, j), the sum over k of activation (r, k) times weight (j, k): one function `prod` of the two input arrays as the call
  finds them. The body's arithmetic at an index is a hypothesis here (`hpay`).
-/
import proofs.«126920_j38886633898328_2_alg».proof.Proof.Gen.KernelIdeal.Frame
import proofs.«126920_j38886633898328_2_alg».proof.Proof.Spec
import Idealize.ShloMosaic.Lib.Pipeline.Value
import Idealize.ShloMosaic.Lib.ValueIdx

set_option maxRecDepth 16384

noncomputable section

namespace Cert.KernelValue.Call3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row `i 0` of `a` against row `i 1` of `w`, summed over the 8192 columns. -/
def prod (a : S4096x8192.Idx → EReal) (w : S2048x8192.Idx → EReal) : S4096x2048.Idx → EReal := fun i =>
  ∑ k : Fin 8192, a (ix2 (⟨(i 0).val, idx2_lt0 i⟩ : Fin 4096) k) * w (ix2 (⟨(i 1).val, idx2_lt1 i⟩ : Fin 2048) k)

/-- The printed index maps over the 128 points: the activation block is the output tile's row block, the weight block
    its column block, both over all 8192 columns. -/
theorem idx_facts : ∀ t : Fin cfg3.N, win3_0.index t (0 : Fin 2) = win3_2.index t (0 : Fin 2)
    ∧ win3_0.index t (1 : Fin 2) = 0 ∧ win3_1.index t (0 : Fin 2) = win3_2.index t (1 : Fin 2) ∧ win3_1.index t (1 : Fin 2) = 0
    ∧ win3_2.index t (0 : Fin 2) ≤ 31 ∧ win3_2.index t (1 : Fin 2) ≤ 3 :=
  (by decide +kernel : ∀ t : Fin grid3.N, _)

/-- Every [128, 512] tile is some point's. -/
theorem idx_onto : ∀ (q0 : Fin 32) (q1 : Fin 4), ∃ t : Fin cfg3.N, win3_2.index t = ![q0.val, q1.val] :=
  (by decide +kernel : ∀ (q0 : Fin 32) (q1 : Fin 4), ∃ t : Fin grid3.N, win3_2.index t = ![q0.val, q1.val])

/-- What point `t` writes back is tile `t` of `prod` of the two input arrays. -/
theorem flushed_eq
    (hpay : ∀ (v0 : Vec Ideal S128x8192 .bf16) (v2 : Vec Ideal S512x8192 .bf16) (j : S128x512.Idx),
      k3_pay1 (F := Ideal) v0 v2 j = ∑ k : Fin 8192, v0 (ix2 (⟨(j 0).val, idx2_lt0 j⟩ : Fin 128) k) * v2 (ix2 (⟨(j 1).val, idx2_lt1 j⟩ : Fin 512) k))
    (c : Dev nD) (t : Fin cfg3.N) :
    (dat3 V c).flushed 2 t = ((cfg3.win 2).blk t).view.read (Elt Ideal) (prod (V c main_v32) (V c main_v29)) := by
  show (cfg3.win 2).cut (grid3.coords t) ((dat3 V c).after 2 t) = _
  rw [after3_2]
  unfold out3_2
  rw [View.canon_unit_zero hz]
  simp only [View.ld_unit_zero (S := S128x8192) hz, View.ld_unit_zero (S := S512x8192) hz]
  obtain ⟨e0, e1, e2, e3, e4, e5⟩ := idx_facts t
  funext j
  show k3_pay1 (F := Ideal) (iblk3 V c 0 t) (iblk3 V c 1 t) j = prod (V c main_v32) (V c main_v29) (((cfg3.win 2).blk t).view.emb j)
  refine (hpay (iblk3 V c 0 t) (iblk3 V c 1 t) j).trans ?_
  have hj0 : (j 0).val < 128 := (j 0).isLt
  have hj1 : (j 1).val < 512 := (j 1).isLt
  unfold prod
  refine Finset.sum_congr rfl fun k _ => ?_
  have ha : iblk3 V c 0 t (ix2 (⟨(j 0).val, idx2_lt0 j⟩ : Fin 128) k)
      = V c main_v32 (ix2 (⟨((((cfg3.win 2).blk t).view.emb j) 0).val, idx2_lt0 _⟩ : Fin 4096) k) := by
    show V c main_v32 (((cfg3.win 0).blk t).view.emb (ix2 (⟨(j 0).val, idx2_lt0 j⟩ : Fin 128) k)) = _
    refine congrArg (V c main_v32) (funext fun a => Fin.ext ?_)
    match a with
    | ⟨0, _⟩ =>
      show win3_0.index t (0 : Fin 2) * 128 + 1 * (j 0).val = win3_2.index t (0 : Fin 2) * 128 + 1 * (j 0).val
      omega
    | ⟨1, _⟩ =>
      show win3_0.index t (1 : Fin 2) * 8192 + 1 * k.val = k.val
      omega
  have hw : iblk3 V c 1 t (ix2 (⟨(j 1).val, idx2_lt1 j⟩ : Fin 512) k)
      = V c main_v29 (ix2 (⟨((((cfg3.win 2).blk t).view.emb j) 1).val, idx2_lt1 _⟩ : Fin 2048) k) := by
    show V c main_v29 (((cfg3.win 1).blk t).view.emb (ix2 (⟨(j 1).val, idx2_lt1 j⟩ : Fin 512) k)) = _
    refine congrArg (V c main_v29) (funext fun a => Fin.ext ?_)
    match a with
    | ⟨0, _⟩ =>
      show win3_1.index t (0 : Fin 2) * 512 + 1 * (j 1).val = win3_2.index t (1 : Fin 2) * 512 + 1 * (j 1).val
      omega
    | ⟨1, _⟩ =>
      show win3_1.index t (1 : Fin 2) * 8192 + 1 * k.val = k.val
      omega
  rw [ha, hw]

/-- An index is in point `t`'s tile iff each coordinate is in the tile's range. -/
theorem mem_blk (t : Fin cfg3.N) (i : S4096x2048.Idx) :
    i ∈ ((cfg3.win 2).blk t).view.set ↔ ∀ a : Fin 2, win3_2.index t a * S128x512.size a ≤ (i a).val ∧ (i a).val < win3_2.index t a * S128x512.size a + S128x512.size a := by
  show i ∈ ((View.whole main_v33).slice (win3_2.rect t)).set ↔ _
  rw [View.set_slice_whole, Rect.mem_set_unit]
  exact Iff.rfl

/-- The 128 tiles cover the array: (r, j) is in tile (r / 128, j / 512). -/
theorem cover (i : S4096x2048.Idx) : ∃ t : Fin cfg3.N, (cfg3.win 2).flush t = true ∧ i ∈ ((cfg3.win 2).blk t).view.set := by
  have hi0 : (i 0).val < 4096 := (i 0).isLt
  have hi1 : (i 1).val < 2048 := (i 1).isLt
  obtain ⟨t, ht⟩ := idx_onto ⟨(i 0).val / 128, by omega⟩ ⟨(i 1).val / 512, by omega⟩
  have q0 : win3_2.index t (0 : Fin 2) = (i 0).val / 128 := congrFun ht 0
  have q1 : win3_2.index t (1 : Fin 2) = (i 1).val / 512 := congrFun ht 1
  refine ⟨t, flush3_2 t, ?_⟩
  rw [mem_blk]
  intro a
  match a with
  | ⟨0, _⟩ => show win3_2.index t (0 : Fin 2) * 128 ≤ (i 0).val ∧ (i 0).val < win3_2.index t (0 : Fin 2) * 128 + 128; omega
  | ⟨1, _⟩ => show win3_2.index t (1 : Fin 2) * 512 ≤ (i 1).val ∧ (i 1).val < win3_2.index t (1 : Fin 2) * 512 + 512; omega

/-- The output array after the call. -/
theorem final
    (hpay : ∀ (v0 : Vec Ideal S128x8192 .bf16) (v2 : Vec Ideal S512x8192 .bf16) (j : S128x512.Idx),
      k3_pay1 (F := Ideal) v0 v2 j = ∑ k : Fin 8192, v0 (ix2 (⟨(j 0).val, idx2_lt0 j⟩ : Fin 128) k) * v2 (ix2 (⟨(j 1).val, idx2_lt1 j⟩ : Fin 512) k))
    (c : Dev nD) : (dat3 V c).arrAt 2 cfg3.N = prod (V c main_v32) (V c main_v29) :=
  (dat3 V c).arrAt_eq_of_cover 2 (prod (V c main_v32) (V c main_v29)) (fun t _ => flushed_eq V hpay c t) cover

end Cert.KernelValue.Call3

end
-- ==== Proof.HostSide.lean ====
/-
  The kernel program's host side, the three weight reads: before the first pallas_call each weight array is quantised
  to three levels with one whole-array scale (magnitudes summed over the whole array, divided by the element count,
  clamped below by ε, inverted; the array multiplied by it, rounded to even, clipped to [-1, 1], divided by it again),
  the first array then cut into its two halves of 8192 rows, and each result narrowed to bf16 — the identity on the
  extended reals. Each read is the specification's three-level quantiser at the matching index of the argument array.
-/
import proofs.«126920_j38886633898328_2_alg».proof.Proof.Gen.KernelIdeal.Frame
import proofs.«126920_j38886633898328_2_alg».proof.Proof.Spec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelValue.Host

open Cert.KernelIdeal Cert.KernelIdeal.Gen Idealize.ShloMosaic Idealize.ShloMosaic.TcCoe Idealize.ShloMosaic.ValueIdx
  Idealize.SL.Sem Idealize.ShloMosaic.StableHlo

/-- A whole-array float sum started from the zero word is the sum of the entries. -/
theorem sum_all {S : Shape} {axes : List (Fin S.rank)} (y : FVec Ideal S .f32) (hr : S.ReducesTo axes S_)
    (hS : 0 < S_.numel) (j : S_.Idx) :
    Host.reduceAdd y (constant (F := Ideal) S_ .f32 0x00000000#32) hr hS j = ∑ i, y i := by
  simp only [Host.reduceAdd, Ideal.hostReduceAdd_def]
  refine (Ideal.hostReduceAdd_total hr (fun b => b.elim0) y _ j).trans ?_
  rw [constant_apply, Ideal.ofBits_zero_f32, zero_add]

/-- The one scale of an array: 1 / max(ε, Σ|a| / N), N given by its float word. -/
theorem tern_scale {S : Shape} {axes : List (Fin S.rank)} (a : FVec Ideal S .f32) (hr : S.ReducesTo axes S_)
    (hS : 0 < S_.numel) (nw : BitVec 32) (j : S_.Idx) :
    (Host.divf (constant (F := Ideal) S_ .f32 0x3F800000#32)
      (maximumf (constant (F := Ideal) S_ .f32 0x3727C5AC#32)
        (Host.divf (Host.reduceAdd (Host.absf a) (constant (F := Ideal) S_ .f32 0x00000000#32) hr hS)
          (constant (F := Ideal) S_ .f32 nw)))) j
      = Cert.Spec.wScale (Ideal.ofBits .f32 nw) a := by
  show FloatOps.hostDivf _ (FloatOps.maximumf _ (FloatOps.hostDivf (Host.reduceAdd (Host.absf a) _ hr hS j) _)) = _
  rw [sum_all]
  rfl

/-- The three-level quantisation of an array, read at an index: clip(round(a·s), -1, 1) / s with s the one scale. -/
theorem tern_read {S : Shape} {axes : List (Fin S.rank)} (a : FVec Ideal S .f32)
    (hb : S_.BroadcastsInDim S (![] : Fin 0 → Fin S.rank)) (hr : S.ReducesTo axes S_) (hS : 0 < S_.numel)
    (nw : BitVec 32) (j : S.Idx) :
    (Host.divf
      (minimumf (broadcastInDim S ![] hb (constant (F := Ideal) S_ .f32 0x3F800000#32))
        (maximumf (broadcastInDim S ![] hb (constant (F := Ideal) S_ .f32 0xBF800000#32))
          (Host.roundeven (mulf a (broadcastInDim S ![] hb
            (Host.divf (constant (F := Ideal) S_ .f32 0x3F800000#32)
              (maximumf (constant (F := Ideal) S_ .f32 0x3727C5AC#32)
                (Host.divf (Host.reduceAdd (Host.absf a) (constant (F := Ideal) S_ .f32 0x00000000#32) hr hS)
                  (constant (F := Ideal) S_ .f32 nw)))))))))
      (broadcastInDim S ![] hb
        (Host.divf (constant (F := Ideal) S_ .f32 0x3F800000#32)
          (maximumf (constant (F := Ideal) S_ .f32 0x3727C5AC#32)
            (Host.divf (Host.reduceAdd (Host.absf a) (constant (F := Ideal) S_ .f32 0x00000000#32) hr hS)
              (constant (F := Ideal) S_ .f32 nw)))))) j
      = Cert.Spec.wQuant (Ideal.ofBits .f32 nw) a j := by
  have hs : ∀ v : FVec Ideal S_ .f32, broadcastInDim S ![] hb v j = v (fun d => d.elim0) :=
    fun v => broadcastInDim_apply _ hb v j _ (fun d => d.elim0)
  show FloatOps.hostDivf
      (FloatOps.minimumf (broadcastInDim S _ hb _ j)
        (FloatOps.maximumf (broadcastInDim S _ hb _ j)
          (FloatOps.hostUnary .roundeven (FloatOps.mulf (a j) (broadcastInDim S _ hb _ j)))))
      (broadcastInDim S _ hb _ j) = _
  simp only [hs, tern_scale]
  rfl

/-- Narrowing to bf16 is the identity on the extended reals. -/
theorem trunc_read {S : Shape} (X : FVec Ideal S .f32) (h : FTy.bits .bf16 < FTy.bits .f32) (j : S.Idx) :
    (truncf .bf16 X h : FVec Ideal S .bf16) j = X j := rfl

/-- Row o of the first half of the 16384-row array is its row o. -/
theorem trunc_slice_top (X : FVec Ideal S16384x2048 .f32) (o : Fin 8192) (k : Fin 2048) :
    (truncf .bf16 (extractStridedSlice S8192x2048 ![0, 0] X slices_S16384x2048_S8192x2048_0_0) bitsLt_bf16_f32 :
        FVec Ideal S8192x2048 .bf16) (ix2 o k) = X (ix2 (Cert.Spec.loRow o) k) := by
  refine (trunc_read _ bitsLt_bf16_f32 (ix2 o k)).trans ?_
  exact extractStridedSlice_apply _ X slices_S16384x2048_S8192x2048_0_0 (ix2 o k) (ix2 (Cert.Spec.loRow o) k)
    (fun a => by match a with | ⟨0, _⟩ => exact (Nat.zero_add _).symm | ⟨1, _⟩ => exact (Nat.zero_add _).symm)

/-- Row o of the second half of the 16384-row array is its row 8192 + o. -/
theorem trunc_slice_bot (X : FVec Ideal S16384x2048 .f32) (o : Fin 8192) (k : Fin 2048) :
    (truncf .bf16 (extractStridedSlice S8192x2048 ![8192, 0] X slices_S16384x2048_S8192x2048_8192_0) bitsLt_bf16_f32 :
        FVec Ideal S8192x2048 .bf16) (ix2 o k) = X (ix2 (Cert.Spec.hiRow o) k) := by
  refine (trunc_read _ bitsLt_bf16_f32 (ix2 o k)).trans ?_
  exact extractStridedSlice_apply _ X slices_S16384x2048_S8192x2048_8192_0 (ix2 o k) (ix2 (Cert.Spec.hiRow o) k)
    (fun a => by match a with | ⟨0, _⟩ => rfl | ⟨1, _⟩ => exact (Nat.zero_add _).symm)

variable (m : (ℓ : Loc nD τ sig) → Buf (Elt Ideal) ℓ) (ρ : Dev nD → PrngReg)

/-- The down-projection weight as the last contraction's operand: the three-level quantiser of the argument array. -/
theorem wdn (c : Dev nD) (n : Fin 2048) (i : Fin 8192) :
    (W13 (F := Ideal) m ρ c (Proc.devRef .tc main_v29) : S2048x8192.Idx → EReal) (ix2 n i)
      = Cert.Spec.wQuant Cert.Spec.wN24 (m ((c : Thread nD τ).loc main_arg3) : S2048x8192.Idx → EReal) (ix2 n i) := by
  dsimp only [W13, W12, W11, W10, W9, W8, W7, W6, W5, W4, W3, W2, W1]
  after_results_simp
  refine (trunc_read _ bitsLt_bf16_f32 (ix2 n i)).trans ?_
  exact tern_read (W0 m ρ c (Proc.devRef .tc main_arg3)) bcast_S_S2048x8192 reducesTo_S2048x8192_S_d0_1 h_S_
    0x4B800000#32 (ix2 n i)

/-- The gate half of the first weight array: rows 0 … 8191 of its three-level quantisation. -/
theorem wtop (c : Dev nD) (o : Fin 8192) (k : Fin 2048) :
    (W13 (F := Ideal) m ρ c (Proc.devRef .tc main_v15) : S8192x2048.Idx → EReal) (ix2 o k)
      = Cert.Spec.wQuant Cert.Spec.wN25 (m ((c : Thread nD τ).loc main_arg1) : S16384x2048.Idx → EReal)
          (ix2 (Cert.Spec.loRow o) k) := by
  dsimp only [W13, W12, W11, W10, W9, W8, W7, W6, W5, W4, W3, W2, W1]
  after_results_simp
  refine (trunc_slice_top _ o k).trans ?_
  exact tern_read (W0 m ρ c (Proc.devRef .tc main_arg1)) bcast_S_S16384x2048 reducesTo_S16384x2048_S_d0_1 h_S_
    0x4C000000#32 (ix2 (Cert.Spec.loRow o) k)

/-- The value half of the first weight array: rows 8192 … 16383 of its three-level quantisation. -/
theorem wbot (c : Dev nD) (o : Fin 8192) (k : Fin 2048) :
    (W13 (F := Ideal) m ρ c (Proc.devRef .tc main_v17) : S8192x2048.Idx → EReal) (ix2 o k)
      = Cert.Spec.wQuant Cert.Spec.wN25 (m ((c : Thread nD τ).loc main_arg1) : S16384x2048.Idx → EReal)
          (ix2 (Cert.Spec.hiRow o) k) := by
  dsimp only [W13, W12, W11, W10, W9, W8, W7, W6, W5, W4, W3, W2, W1]
  after_results_simp
  refine (trunc_slice_bot _ o k).trans ?_
  exact tern_read (W0 m ρ c (Proc.devRef .tc main_arg1)) bcast_S_S16384x2048 reducesTo_S16384x2048_S_d0_1 h_S_
    0x4C000000#32 (ix2 (Cert.Spec.hiRow o) k)

end Cert.KernelValue.Host

end
-- ==== Proof.HostShapes.lean ====
/-
  The kernel program's host reshapes, read at an index. Before the first kernel the activation `[2, 2048, 2048]` is viewed
  as `[4096, 2048]` (row `r` is token `(r / 2048, r % 2048)`) and the two gain vectors `[2048]`, `[8192]` as one-row
  matrices; after the last kernel its result `[4096, 2048]` is viewed as `[2, 2048, 2048]` (token `(b, s)` is row
  `b · 2048 + s`). A reshape keeps the row-major position, so each statement is an equation of two row-major positions.
-/
import proofs.«126920_j38886633898328_2_alg».proof.Proof.Gen.KernelIdeal.Frame
import proofs.«126920_j38886633898328_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelValue.Host

open Cert.KernelIdeal Cert.KernelIdeal.Gen Idealize.ShloMosaic Idealize.ShloMosaic.TcCoe Idealize.ShloMosaic.ValueIdx Idealize.SL.Sem
  Idealize.ShloMosaic.StableHlo

variable (m : (ℓ : Loc nD τ sig) → Buf (Elt Ideal) ℓ) (ρ : Dev nD → PrngReg)

/-- The first gain vector `[2048]` viewed as `[1, 2048]`: entry `(0, k)` is entry `k`. -/
theorem gain1 (c : Dev nD) (k : Fin 2048) :
    (W13 (F := Ideal) m ρ c (Proc.devRef .tc main_v1) : S1x2048.Idx → EReal) (ix2 (0 : Fin 1) k)
      = (m ((c : Thread nD τ).loc main_arg2) : S2048.Idx → EReal) (ix1 k) := by
  have e : (W13 (F := Ideal) m ρ c (Proc.devRef .tc main_v1) : S1x2048.Idx → EReal)
      = fun i => shapeCast S1x2048 (m ((c : Thread nD τ).loc main_arg2) : S2048.Idx → EReal) shapeCasts_S2048_S1x2048 i := by
    dsimp only [W13, W12, W11, W10, W9, W8, W7, W6, W5, W4, W3, W2, W1]
    after_results_simp
    rfl
  exact (congrFun e _).trans (shapeCast_a_1a_apply _ _ _ _)

/-- The second gain vector `[8192]` viewed as `[1, 8192]`: entry `(0, k)` is entry `k`. -/
theorem gain2 (c : Dev nD) (k : Fin 8192) :
    (W13 (F := Ideal) m ρ c (Proc.devRef .tc main_v2) : S1x8192.Idx → EReal) (ix2 (0 : Fin 1) k)
      = (m ((c : Thread nD τ).loc main_arg4) : S8192.Idx → EReal) (ix1 k) := by
  have e : (W13 (F := Ideal) m ρ c (Proc.devRef .tc main_v2) : S1x8192.Idx → EReal)
      = fun i => shapeCast S1x8192 (m ((c : Thread nD τ).loc main_arg4) : S8192.Idx → EReal) shapeCasts_S8192_S1x8192 i := by
    dsimp only [W13, W12, W11, W10, W9, W8, W7, W6, W5, W4, W3, W2, W1]
    after_results_simp
    rfl
  exact (congrFun e _).trans (shapeCast_a_1a_apply _ _ _ _)

/-- The activation `[2, 2048, 2048]` viewed as `[4096, 2048]`: row `r` is token `(r / 2048, r % 2048)`. -/
theorem act_in (c : Dev nD) (r : Fin 4096) (k : Fin 2048) :
    (W13 (F := Ideal) m ρ c (Proc.devRef .tc main_v0) : S4096x2048.Idx → EReal) (ix2 r k)
      = (m ((c : Thread nD τ).loc main_arg0) : S2x2048x2048.Idx → EReal)
          (ix3 (⟨r.val / 2048, by omega⟩ : Fin 2) (⟨r.val % 2048, by omega⟩ : Fin 2048) k) := by
  have e : (W13 (F := Ideal) m ρ c (Proc.devRef .tc main_v0) : S4096x2048.Idx → EReal)
      = fun i => shapeCast S4096x2048 (m ((c : Thread nD τ).loc main_arg0) : S2x2048x2048.Idx → EReal)
          shapeCasts_S2x2048x2048_S4096x2048 i := by
    dsimp only [W13, W12, W11, W10, W9, W8, W7, W6, W5, W4, W3, W2, W1]
    after_results_simp
    rfl
  refine (congrFun e _).trans (shapeCast_apply _ _ _ _ ?_)
  show (S2x2048x2048.rowMajor (ix3 _ _ k)).val = (S4096x2048.rowMajor (ix2 r k)).val
  rw [Shape.rowMajor_val_three, Shape.rowMajor_val_two]
  show (r.val / 2048 * 2048 + r.val % 2048) * 2048 + k.val = r.val * 2048 + k.val
  omega

/-- The result `[4096, 2048]` viewed as `[2, 2048, 2048]`: token `(b, s)` is row `b · 2048 + s`. -/
theorem out_reshape (c : Dev nD) (b : Fin 2) (s : Fin 2048) (n : Fin 2048) :
    (W18 (F := Ideal) m ρ c (Proc.devRef .tc main_v34) : S2x2048x2048.Idx → EReal) (ix3 b s n)
      = (W17 (F := Ideal) m ρ c (Proc.devRef .tc main_v33) : S4096x2048.Idx → EReal)
          (ix2 (⟨b.val * 2048 + s.val, by omega⟩ : Fin 4096) n) := by
  have e : (W18 (F := Ideal) m ρ c (Proc.devRef .tc main_v34) : S2x2048x2048.Idx → EReal)
      = fun i => shapeCast S2x2048x2048 (W17 (F := Ideal) m ρ c (Proc.devRef .tc main_v33) : S4096x2048.Idx → EReal)
          shapeCasts_S4096x2048_S2x2048x2048 i := by
    dsimp only [W18]
    after_results_simp
    rfl
  refine (congrFun e _).trans (shapeCast_apply _ _ _ _ ?_)
  show (S4096x2048.rowMajor (ix2 _ n)).val = (S2x2048x2048.rowMajor (ix3 b s n)).val
  rw [Shape.rowMajor_val_three, Shape.rowMajor_val_two]
  show (b.val * 2048 + s.val) * 2048 + n.val = (b.val * 2048 + s.val) * 2048 + n.val
  rfl

end Cert.KernelValue.Host

end
-- ==== Proof.KernelValue.lean ====
/-
  The idealized kernel program's result at an output index. The result buffer is the last reshape of the fourth call's
  output; that output is, entry by entry, a contraction of the third call's output (the quantised normalised hidden
  activation) with the quantised down-projection weight; the third call's input is the second call's output (silu(gate) ·
  value of the first call's output against the two halves of the quantised gate weight); the first call's output is the
  quantised normalised input row. Each call's output array is one function of the arrays it finds (the four call
  modules); each array a call finds is what an earlier call or the host operations left (the boundary contents the frame
  names); the arrays no call writes are read back to the host operations' results. Composed, the result at (b, s, n) is
  the layer with the quantisers applied directly.
-/
import proofs.«126920_j38886633898328_2_alg».proof.Proof.Gen.KernelIdeal.Frame
import proofs.«126920_j38886633898328_2_alg».proof.Proof.Spec
import proofs.«126920_j38886633898328_2_alg».proof.Proof.Payloads
import proofs.«126920_j38886633898328_2_alg».proof.Proof.Call0
import proofs.«126920_j38886633898328_2_alg».proof.Proof.Call1
import proofs.«126920_j38886633898328_2_alg».proof.Proof.Call2
import proofs.«126920_j38886633898328_2_alg».proof.Proof.Call3
import proofs.«126920_j38886633898328_2_alg».proof.Proof.HostSide
import proofs.«126920_j38886633898328_2_alg».proof.Proof.HostShapes

set_option maxRecDepth 16384

noncomputable section

namespace Cert.KernelValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The four bodies' arithmetic, at an index given by its coordinates -/

theorem pay0 (x0 : Vec Ideal S256x2048 .f32) (x1 : Vec Ideal S1x2048 .f32) (j : S256x2048.Idx) :
    k0_pay1 (F := Ideal) x0 x1 j = Cert.Spec.quantRow (Cert.Spec.normRow Cert.Spec.w2048
      (fun k' : Fin 2048 => x0 (ix2 (⟨(j 0).val, idx2_lt0 j⟩ : Fin 256) k')) (fun k' : Fin 2048 => x1 (ix2 (0 : Fin 1) k')))
      (⟨(j 1).val, idx2_lt1 j⟩ : Fin 2048) :=
  (congrArg (k0_pay1 (F := Ideal) x0 x1) (eq_ix2 j)).trans (quant0 x0 x1 ⟨(j 0).val, idx2_lt0 j⟩ ⟨(j 1).val, idx2_lt1 j⟩)

theorem pay2 (x0 : Vec Ideal S128x8192 .f32) (x1 : Vec Ideal S1x8192 .f32) (j : S128x8192.Idx) :
    k2_pay1 (F := Ideal) x0 x1 j = Cert.Spec.quantRow (Cert.Spec.normRow Cert.Spec.w8192
      (fun k' : Fin 8192 => x0 (ix2 (⟨(j 0).val, idx2_lt0 j⟩ : Fin 128) k')) (fun k' : Fin 8192 => x1 (ix2 (0 : Fin 1) k')))
      (⟨(j 1).val, idx2_lt1 j⟩ : Fin 8192) :=
  (congrArg (k2_pay1 (F := Ideal) x0 x1) (eq_ix2 j)).trans (quant2 x0 x1 ⟨(j 0).val, idx2_lt0 j⟩ ⟨(j 1).val, idx2_lt1 j⟩)

theorem pay1 (v0 : Vec Ideal S256x2048 .bf16) (v2 v4 : Vec Ideal S1024x2048 .bf16) (j : S256x1024.Idx) :
    k1_pay1 (F := Ideal) v0 v2 v4 j
      = Cert.Spec.silu (∑ k : Fin 2048, v0 (ix2 (⟨(j 0).val, idx2_lt0 j⟩ : Fin 256) k) * v2 (ix2 (⟨(j 1).val, idx2_lt1 j⟩ : Fin 1024) k))
        * (∑ k : Fin 2048, v0 (ix2 (⟨(j 0).val, idx2_lt0 j⟩ : Fin 256) k) * v4 (ix2 (⟨(j 1).val, idx2_lt1 j⟩ : Fin 1024) k)) :=
  (congrArg (k1_pay1 (F := Ideal) v0 v2 v4) (eq_ix2 j)).trans (swiglu1 v0 v2 v4 ⟨(j 0).val, idx2_lt0 j⟩ ⟨(j 1).val, idx2_lt1 j⟩)

theorem pay3 (v0 : Vec Ideal S128x8192 .bf16) (v2 : Vec Ideal S512x8192 .bf16) (j : S128x512.Idx) :
    k3_pay1 (F := Ideal) v0 v2 j = ∑ k : Fin 8192, v0 (ix2 (⟨(j 0).val, idx2_lt0 j⟩ : Fin 128) k) * v2 (ix2 (⟨(j 1).val, idx2_lt1 j⟩ : Fin 512) k) :=
  (congrArg (k3_pay1 (F := Ideal) v0 v2) (eq_ix2 j)).trans (matmul3 v0 v2 ⟨(j 0).val, idx2_lt0 j⟩ ⟨(j 1).val, idx2_lt1 j⟩)

/-! ## Each array a call reads or writes, at the boundary where it is read -/

/-- The first call's output, as the second call finds it. -/
theorem arr30 (c : Dev nD) : (V14 m ρ c main_v30 : S4096x2048.Idx → EReal) = Call0.rows (V13 m ρ c main_v0) (V13 m ρ c main_v1) :=
  (W14_arr m ρ c 2).trans (Call0.final (V13 m ρ) pay0 c)

/-- The two halves of the quantised gate weight are not touched by the first call. -/
theorem arr15 (c : Dev nD) : V14 m ρ c main_v15 = V13 m ρ c main_v15 := W14_of_ne m ρ c main_v15 (by decide)
theorem arr17 (c : Dev nD) : V14 m ρ c main_v17 = V13 m ρ c main_v17 := W14_of_ne m ρ c main_v17 (by decide)

/-- The second call's output, as the third call finds it. -/
theorem arr31 (c : Dev nD) : (V15 m ρ c main_v31 : S4096x8192.Idx → EReal)
    = Call1.gated (V14 m ρ c main_v30) (V14 m ρ c main_v15) (V14 m ρ c main_v17) :=
  (W15_arr m ρ c 3).trans (Call1.final (V14 m ρ) pay1 c)

/-- The second gain row is not touched by the first two calls. -/
theorem arr2 (c : Dev nD) : V15 m ρ c main_v2 = V13 m ρ c main_v2 :=
  (W15_of_ne m ρ c main_v2 (by decide)).trans (W14_of_ne m ρ c main_v2 (by decide))

/-- The third call's output, as the fourth call finds it. -/
theorem arr32 (c : Dev nD) : (V16 m ρ c main_v32 : S4096x8192.Idx → EReal) = Call2.rows (V15 m ρ c main_v31) (V15 m ρ c main_v2) :=
  (W16_arr m ρ c 2).trans (Call2.final (V15 m ρ) pay2 c)

/-- The quantised down-projection weight is not touched by the first three calls. -/
theorem arr29 (c : Dev nD) : V16 m ρ c main_v29 = V13 m ρ c main_v29 :=
  ((W16_of_ne m ρ c main_v29 (by decide)).trans (W15_of_ne m ρ c main_v29 (by decide))).trans (W14_of_ne m ρ c main_v29 (by decide))

/-- The fourth call's output. -/
theorem arr33 (c : Dev nD) : (V17 m ρ c main_v33 : S4096x2048.Idx → EReal) = Call3.prod (V16 m ρ c main_v32) (V16 m ρ c main_v29) :=
  (W17_arr m ρ c 2).trans (Call3.final (V16 m ρ) pay3 c)

/-! ## Entry by entry -/

section Entries

/-- The five argument arrays as launched, on core `c`. -/
abbrev A0 (c : Dev nD) : S2x2048x2048.Idx → EReal := m ((c : Thread nD τ).loc main_arg0)
abbrev A1 (c : Dev nD) : S16384x2048.Idx → EReal := m ((c : Thread nD τ).loc main_arg1)
abbrev A2 (c : Dev nD) : S2048.Idx → EReal := m ((c : Thread nD τ).loc main_arg2)
abbrev A3 (c : Dev nD) : S2048x8192.Idx → EReal := m ((c : Thread nD τ).loc main_arg3)
abbrev A4 (c : Dev nD) : S8192.Idx → EReal := m ((c : Thread nD τ).loc main_arg4)

/-- Row `r` of the [4096, 2048] view of the input: token (r / 2048, r % 2048). -/
def tokenRow (x : S2x2048x2048.Idx → EReal) (r : Fin 4096) : Fin 2048 → EReal :=
  fun k' => x (ix3 (⟨r.val / 2048, by omega⟩ : Fin 2) (⟨r.val % 2048, by omega⟩ : Fin 2048) k')

/-- The quantised normalised input row. -/
def xq (x : S2x2048x2048.Idx → EReal) (gg : S2048.Idx → EReal) (r : Fin 4096) : Fin 2048 → EReal :=
  Cert.Spec.quantRow (Cert.Spec.normRow Cert.Spec.w2048 (tokenRow x r) (fun k' => gg (ix1 k')))

/-- The hidden activation of row `r`. -/
def hid (x : S2x2048x2048.Idx → EReal) (gg : S2048.Idx → EReal) (wg : S16384x2048.Idx → EReal) (r : Fin 4096) : Fin 8192 → EReal := fun i' =>
  Cert.Spec.silu (∑ k : Fin 2048, xq x gg r k * Cert.Spec.wQuant Cert.Spec.wN25 wg (ix2 (Cert.Spec.loRow i') k))
    * (∑ k : Fin 2048, xq x gg r k * Cert.Spec.wQuant Cert.Spec.wN25 wg (ix2 (Cert.Spec.hiRow i') k))

variable (c : Dev nD)

theorem e30 (r : Fin 4096) (k : Fin 2048) :
    (V14 m ρ c main_v30 : S4096x2048.Idx → EReal) (ix2 r k) = xq (A0 m c) (A2 m c) r k := by
  rw [arr30]
  unfold Call0.rows xq tokenRow
  rw [funext fun k' => Host.act_in m ρ c (⟨((ix2 r k : S4096x2048.Idx) 0).val, idx2_lt0 _⟩ : Fin 4096) k',
    funext fun k' => Host.gain1 m ρ c k']

theorem e31 (r : Fin 4096) (j : Fin 8192) :
    (V15 m ρ c main_v31 : S4096x8192.Idx → EReal) (ix2 r j) = hid (A0 m c) (A2 m c) (A1 m c) r j := by
  rw [arr31]
  unfold Call1.gated hid
  refine congr (congrArg HMul.hMul (congrArg Cert.Spec.silu (Finset.sum_congr rfl fun k _ => ?_))) (Finset.sum_congr rfl fun k _ => ?_)
  · rw [e30 m ρ c _ k, arr15]
    exact congrArg (HMul.hMul (xq (A0 m c) (A2 m c) r k)) (Host.wtop m ρ c j k)
  · rw [e30 m ρ c _ k, arr17]
    exact congrArg (HMul.hMul (xq (A0 m c) (A2 m c) r k)) (Host.wbot m ρ c j k)

theorem e32 (r : Fin 4096) (i : Fin 8192) : (V16 m ρ c main_v32 : S4096x8192.Idx → EReal) (ix2 r i)
    = Cert.Spec.quantRow (Cert.Spec.normRow Cert.Spec.w8192 (hid (A0 m c) (A2 m c) (A1 m c) r) (fun i' => A4 m c (ix1 i'))) i := by
  rw [arr32]
  unfold Call2.rows
  rw [funext fun i' => e31 m ρ c (⟨((ix2 r i : S4096x8192.Idx) 0).val, idx2_lt0 _⟩ : Fin 4096) i',
    funext fun i' => (congrFun (arr2 m ρ c) (ix2 (0 : Fin 1) i')).trans (Host.gain2 m ρ c i')]

theorem e33 (r : Fin 4096) (n : Fin 2048) : (V17 m ρ c main_v33 : S4096x2048.Idx → EReal) (ix2 r n)
    = ∑ i : Fin 8192, Cert.Spec.quantRow (Cert.Spec.normRow Cert.Spec.w8192 (hid (A0 m c) (A2 m c) (A1 m c) r) (fun i' => A4 m c (ix1 i'))) i
        * Cert.Spec.wQuant Cert.Spec.wN24 (A3 m c) (ix2 n i) := by
  rw [arr33]
  unfold Call3.prod
  refine Finset.sum_congr (M := EReal) rfl fun i _ => ?_
  rw [e32 m ρ c _ i, arr29]
  exact congrArg (HMul.hMul (Cert.Spec.quantRow (Cert.Spec.normRow Cert.Spec.w8192 (hid (A0 m c) (A2 m c) (A1 m c) r) (fun i' => A4 m c (ix1 i'))) i))
    (Host.wdn m ρ c n i)

/-- The result buffer at (b, s, n) is the layer with the quantisers applied directly. -/
theorem result_at (b : Fin 2) (s : Fin 2048) (n : Fin 2048) :
    (W18 (F := Ideal) m ρ c (Proc.devRef .tc main_v34) : S2x2048x2048.Idx → EReal) (ix3 b s n)
      = Cert.Spec.outK (A0 m c) (A1 m c) (A2 m c) (A3 m c) (A4 m c) b s n := by
  refine (Host.out_reshape m ρ c b s n).trans ?_
  refine (e33 m ρ c _ n).trans ?_
  have hb : (⟨(b.val * 2048 + s.val) / 2048, by omega⟩ : Fin 2) = b := Fin.ext (by show (b.val * 2048 + s.val) / 2048 = b.val; omega)
  have hs : (⟨(b.val * 2048 + s.val) % 2048, by omega⟩ : Fin 2048) = s := Fin.ext (by show (b.val * 2048 + s.val) % 2048 = s.val; omega)
  have hrow : tokenRow (A0 m c) (⟨b.val * 2048 + s.val, by omega⟩ : Fin 4096) = fun k' => A0 m c (ix3 b s k') := by
    unfold tokenRow; funext k'; show A0 m c (ix3 _ _ k') = _; rw [hb, hs]
  unfold Cert.Spec.outK Cert.Spec.mlp hid xq
  rw [hrow]

end Entries

/-- The layer as one array over the output's indices. -/
def layerArr (x : (⟨3, ![2, 2048, 2048]⟩ : Shape).Idx → EReal) (wg : (⟨2, ![16384, 2048]⟩ : Shape).Idx → EReal)
    (gg : (⟨1, ![2048]⟩ : Shape).Idx → EReal) (wd : (⟨2, ![2048, 8192]⟩ : Shape).Idx → EReal)
    (gd : (⟨1, ![8192]⟩ : Shape).Idx → EReal) : (⟨3, ![2, 2048, 2048]⟩ : Shape).Idx → EReal := fun i =>
  Cert.Spec.outK x wg gg wd gd (⟨(i 0).val, (i 0).isLt⟩ : Fin 2) (⟨(i 1).val, (i 1).isLt⟩ : Fin 2048) (⟨(i 2).val, (i 2).isLt⟩ : Fin 2048)

/-- The result buffer after the run is the layer of the argument arrays. -/
theorem result_eq (c : Dev nD) :
    (W18 (F := Ideal) m ρ c (Proc.devRef .tc main_v34) : S2x2048x2048.Idx → EReal)
      = layerArr (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  rw [eq_ix3 i]
  exact result_at m ρ c _ _ _

end Cert.KernelValue

end
-- ==== Proof.lean ====
/-
  The kernel program computes a SwiGLU layer in four pallas_calls — normalise and quantise each token row; two block
  matmuls against the two halves of the ternary gate weight and the gate `silu(gate) · value`; normalise and quantise
  each hidden row; one block matmul against the ternary down-projection weight — around host operations that quantise
  the two weight arrays once and reshape. The reference computes the same layer with jnp, writing each quantised value
  `q` of `a` as `a + (q - a)`. On the extended reals the two agree when every input is finite: then every normalised
  activation and every weight is a real number, and `a + (q - a) = q`. Both results are the one function
  `Cert.Spec.outK` of the five argument arrays (Proof/Spec.lean).
  The three frames: the two kernel programs' are the generated frame certificates; the reference's is its run with the
  result dropped. The idealization rewrote no operation, so `preserves` has nothing to state.
-/
import proofs.«126920_j38886633898328_2_alg».proof.Defs
import proofs.«126920_j38886633898328_2_alg».proof.Proof.Gen.Kernel
import proofs.«126920_j38886633898328_2_alg».proof.Proof.Gen.Kernel.Frame
import proofs.«126920_j38886633898328_2_alg».proof.Proof.Gen.KernelIdeal
import proofs.«126920_j38886633898328_2_alg».proof.Proof.Gen.KernelIdeal.Frame
import proofs.«126920_j38886633898328_2_alg».proof.Proof.Gen.ReferenceIdeal
import proofs.«126920_j38886633898328_2_alg».proof.Proof.Gen.Pre_finite_inputs
import proofs.«126920_j38886633898328_2_alg».proof.Proof.Spec
import proofs.«126920_j38886633898328_2_alg».proof.Proof.SteAlgebra
import proofs.«126920_j38886633898328_2_alg».proof.Proof.FiniteInputs
import proofs.«126920_j38886633898328_2_alg».proof.Proof.RefReadP
import proofs.«126920_j38886633898328_2_alg».proof.Proof.RefRunQ
import proofs.«126920_j38886633898328_2_alg».proof.Proof.RefIsSpec
import proofs.«126920_j38886633898328_2_alg».proof.Proof.KernelRun
import proofs.«126920_j38886633898328_2_alg».proof.Proof.KernelValue
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueQ.run (F := Ideal) m ρ)

theorem preserves : Cert.preserves_Kernel_KernelIdeal := trivial

/-- From memories agreeing on the five arguments, all finite, both programs end with the result at the layer
    `Cert.Spec.outK` of the arguments: the kernel program by its four calls composed, the reference by its stages read
    against the straight-through form and the cancellation `a + (q - a) = q` at finite `a`. -/
theorem algebraic : Cert.algebraic_KernelIdeal_ReferenceIdeal := by
  intro m ρ m' ρ' hpre hagree
  refine ⟨fun c => Cert.KernelValue.layerArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelValue.result_eq m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.ValueQ.run (F := Ideal) m' ρ')
    obtain ⟨h0, h1, h2, h3, h4⟩ := Cert.FiniteInputs.fin_of_pre _ _ _ _ _ (hpre c)
    rw [(hagree c).1, (hagree c).2.1, (hagree c).2.2.1, (hagree c).2.2.2.1, (hagree c).2.2.2.2]
    funext i
    rw [eq_ix3 i]
    exact (Cert.RefValue.ref_eq _ _ _ _ _ _ _ _).trans (Cert.Spec.outR_eq_outK _ _ _ _ _ h0 h1 h2 h3 h4 _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
